-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x196608 : Shape := ⟨3, ![32, 4, 196608]⟩
abbrev S32 : Shape := ⟨1, ![32]⟩
abbrev S_ : Shape := ⟨0, ![]⟩

class Facts : Prop where
  bcast_S_S32x4x196608 : S_.BroadcastsInDim S32x4x196608 (![] : Fin 0 → Fin S32x4x196608.rank)
  reducesTo_S32x4x196608_S_d0_1_2 : S32x4x196608.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S32x4x196608 .f32) (main_arg1 : FVec F S32x4x196608 .f32) (main_arg2 : FVec F S32 .f32) (main_arg3 : FVec F S32 .f32) : IVec S_ 1 :=
  let main_v0 : FVec F S32x4x196608 .f32 := Host.absf main_arg0
  let main_cst : FVec F S_ .f32 := constant S_ .f32 0x7F800000#32
  let main_v1 : FVec F S32x4x196608 .f32 := broadcastInDim S32x4x196608 ![] bcast_S_S32x4x196608 main_cst
  let main_v2 : IVec S32x4x196608 1 := cmpf .olt main_v0 main_v1
  let main_c : IVec S_ 1 := constantI S_ 1 1#1
  let main_v3 : IVec S_ 1 := (fun x v => Host.reduce IntOp.andi x v reducesTo_S32x4x196608_S_d0_1_2 h_S_) main_v2 main_c
  let main_v4 : FVec F S32x4x196608 .f32 := Host.absf main_arg1
  let main_cst_0 : FVec F S_ .f32 := constant S_ .f32 0x7F800000#32
  let main_v5 : FVec F S32x4x196608 .f32 := broadcastInDim S32x4x196608 ![] bcast_S_S32x4x196608 main_cst_0
  let main_v6 : IVec S32x4x196608 1 := cmpf .olt main_v4 main_v5
  let main_c_1 : IVec S_ 1 := constantI S_ 1 1#1
  let main_v7 : IVec S_ 1 := (fun x v => Host.reduce IntOp.andi x v reducesTo_S32x4x196608_S_d0_1_2 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S32x4x196608 : Shape := ⟨3, ![32, 4, 196608]⟩
abbrev S32 : Shape := ⟨1, ![32]⟩
abbrev S32x4x1536x128 : Shape := ⟨4, ![32, 4, 1536, 128]⟩
abbrev S32x1 : Shape := ⟨2, ![32, 1]⟩
abbrev S16x4x192x128 : Shape := ⟨4, ![16, 4, 192, 128]⟩
abbrev S16x1 : Shape := ⟨2, ![16, 1]⟩
abbrev S16x4x4 : Shape := ⟨3, ![16, 4, 4]⟩
abbrev S16x1x192x128 : Shape := ⟨4, ![16, 1, 192, 128]⟩
abbrev S16x192x128 : Shape := ⟨3, ![16, 192, 128]⟩
abbrev S16x192 : Shape := ⟨2, ![16, 192]⟩
abbrev S16 : Shape := ⟨1, ![16]⟩
abbrev S16x4 : Shape := ⟨2, ![16, 4]⟩
abbrev S16x1x4 : Shape := ⟨3, ![16, 1, 4]⟩
abbrev S16x1x1 : Shape := ⟨3, ![16, 1, 1]⟩
abbrev S16x4x1 : Shape := ⟨3, ![16, 4, 1]⟩
abbrev S_ : Shape := ⟨0, ![]⟩

abbrev nBuf : Space → Nat
  | .hbm => 13
  | .vmem => 13
  | .smem => 0
  | _ => 0

abbrev bufTy : (tb : Table) → Fin (tcTables nBuf tb) → BufTy
  | .hbm, ⟨0, _⟩ => ⟨S32x4x196608, .f32⟩
  | .hbm, ⟨1, _⟩ => ⟨S32x4x196608, .f32⟩
  | .hbm, ⟨2, _⟩ => ⟨S32, .f32⟩
  | .hbm, ⟨3, _⟩ => ⟨S32, .f32⟩
  | .hbm, ⟨4, _⟩ => ⟨S32x4x1536x128, .f32⟩
  | .hbm, ⟨5, _⟩ => ⟨S32x4x1536x128, .f32⟩
  | .hbm, ⟨6, _⟩ => ⟨S32x1, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S16x4x192x128, .f32⟩
  | .local _ .vmem, ⟨1, _⟩ => ⟨S16x4x192x128, .f32⟩
  | .local _ .vmem, ⟨2, _⟩ => ⟨S16x4x192x128, .f32⟩
  | .local _ .vmem, ⟨3, _⟩ => ⟨S16x4x192x128, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | .local _ .vmem, ⟨9, _⟩ => ⟨S16x1, .f32⟩
  | .local _ .vmem, ⟨10, _⟩ => ⟨S16x4x4, .f32⟩
  | .local _ .vmem, ⟨11, _⟩ => ⟨S16x4x4, .f32⟩
  | .local _ .vmem, ⟨12, _⟩ => ⟨S16x4x4, .f32⟩
  | _, _ => ⟨S32x4x196608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v221 : BitVec 1 := Scalar.cmpi .eq arg1 c7_i32
  let v222 : BitVec 32 := Scalar.extui v221
  let c0_i32_97 : BitVec 32 := 0#32
  let v223 : BitVec 1 := Scalar.cmpi .ne v222 c0_i32_97
  v223

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x4x192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x4x192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x4x196608_S32x4x1536x128 : S32x4x196608.ShapeCasts S32x4x1536x128
  bcast_S32_S32x1_0 : S32.BroadcastsInDim S32x1 (![0] : Fin 1 → Fin S32x1.rank)
  inb_S16x4x4_S16x4x4_0_0_0 : ∀ a, (![0, 0, 0] : Fin 3 → Nat) a + S16x4x4.size a ≤ S16x4x4.size a
  h_S16x4x4 : 0 < S16x4x4.numel
  shapeCasts_S16x4x4_S16x4x4 : S16x4x4.ShapeCasts S16x4x4
  inb_S16x4x192x128_S16x4x192x128_0_0_0_0 : ∀ a, (![0, 0, 0, 0] : Fin 4 → Nat) a + S16x4x192x128.size a ≤ S16x4x192x128.size a
  h_S16x4x192x128 : 0 < S16x4x192x128.numel
  shapeCasts_S16x4x192x128_S16x4x192x128 : S16x4x192x128.ShapeCasts S16x4x192x128
  slices_S16x4x192x128_o0_0_0_0_S16x1x192x128 : S16x4x192x128.Slices ![0, 0, 0, 0] S16x1x192x128
  shapeCasts_S16x1x192x128_S16x192x128 : S16x1x192x128.ShapeCasts S16x192x128
  slices_S16x4x192x128_o0_1_0_0_S16x1x192x128 : S16x4x192x128.Slices ![0, 1, 0, 0] S16x1x192x128
  slices_S16x4x192x128_o0_2_0_0_S16x1x192x128 : S16x4x192x128.Slices ![0, 2, 0, 0] S16x1x192x128
  slices_S16x4x192x128_o0_3_0_0_S16x1x192x128 : S16x4x192x128.Slices ![0, 3, 0, 0] S16x1x192x128
  reduces_S16x192x128_S16x192 : S16x192x128.Reduces [2] S16x192
  reduces_S16x192_S16 : S16x192.Reduces [1] S16
  shapeCasts_S16_S16x1 : S16.ShapeCasts S16x1
  concatenates_S16x1_S16x1_S16x1_S16x1_S16x4_d1 : Shape.Concatenates [S16x1, S16x1, S16x1, S16x1] S16x4 1
  shapeCasts_S16x4_S16x1x4 : S16x4.ShapeCasts S16x1x4
  concatenates_S16x1x4_S16x1x4_S16x1x4_S16x1x4_S16x4x4_d1 : Shape.Concatenates [S16x1x4, S16x1x4, S16x1x4, S16x1x4] S16x4x4 1
  slices_S16x4x4_o0_0_0_S16x1x1 : S16x4x4.Slices ![0, 0, 0] S16x1x1
  shapeCasts_S16x1x1_S16 : S16x1x1.ShapeCasts S16
  slices_S16x4x4_o0_1_1_S16x1x1 : S16x4x4.Slices ![0, 1, 1] S16x1x1
  slices_S16x4x4_o0_2_2_S16x1x1 : S16x4x4.Slices ![0, 2, 2] S16x1x1
  slices_S16x4x4_o0_3_3_S16x1x1 : S16x4x4.Slices ![0, 3, 3] S16x1x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x1_S16 : S16x1.ShapeCasts S16
  shapeCasts_S16x4_S16x4x1 : S16x4.ShapeCasts S16x4x1
  broadcasts_S16x4x1_S16x4x4 : S16x4x1.Broadcasts S16x4x4
  broadcasts_S16x1x4_S16x4x4 : S16x1x4.Broadcasts S16x4x4
  shapeCasts_S16_S16x1x1 : S16.ShapeCasts S16x1x1
  broadcasts_S16x1x1_S16x4x4 : S16x1x1.Broadcasts S16x4x4
  reduces_S16x4x4_S16x4 : S16x4x4.Reduces [2] S16x4
  reduces_S16x4_S16 : S16x4.Reduces [1] S16
  reducesTo_S32x1_S_d0_1 : S32x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x192x128.size a ≤ S32x4x1536x128.size a
  hwx0_0 : ∀ i : grid0.Coords, EltTy.bits .f32 = 32 ∨ (Rect.block (s := S32x4x1536x128) S16x4x192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4x192x128.size a ≤ S32x4x1536x128.size a
  hwx0_1 : ∀ i : grid0.Coords, EltTy.bits .f32 = 32 ∨ (Rect.block (s := S32x4x1536x128) S16x4x192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S32x1.size a
  hwx0_2 : ∀ i : grid0.Coords, EltTy.bits .f32 = 32 ∨ (Rect.block (s := S32x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S32x1.size a
  hwx0_3 : ∀ i : grid0.Coords, EltTy.bits .f32 = 32 ∨ (Rect.block (s := S32x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S32x1.size a
  hwx0_4 : ∀ i : grid0.Coords, EltTy.bits .f32 = 32 ∨ (Rect.block (s := S32x1) S16x1.size (cc0_transform_4 i) (hinb0_4 i)).WholeWords (EltTy.packing .f32)

variable [Facts₀]

abbrev win0_0 : Pipeline.Window sig grid0 :=
  Pipeline.Window.ofSpec (Memref.whole main_v0) S16x4x192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x4x192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x4x196608 : Shape := ⟨3, ![32, 4, 196608]⟩
abbrev S32 : Shape := ⟨1, ![32]⟩
abbrev S_ : Shape := ⟨0, ![]⟩
abbrev S32x4 : Shape := ⟨2, ![32, 4]⟩
abbrev S32x4x4 : Shape := ⟨3, ![32, 4, 4]⟩
abbrev S32x4x1 : Shape := ⟨3, ![32, 4, 1]⟩
abbrev S32x1x4 : Shape := ⟨3, ![32, 1, 4]⟩
abbrev S32x1x1 : Shape := ⟨3, ![32, 1, 1]⟩

abbrev nBuf : Space → Nat
  | .hbm => 288
  | .vmem => 0
  | .smem => 0
  | _ => 0

abbrev hbmTy0_0 (i : Nat) : BufTy := match i % 128 with
  | 0 => ⟨S32x4x196608, .f32⟩
  | 1 => ⟨S32x4x196608, .f32⟩
  | 2 => ⟨S32, .f32⟩
  | 3 => ⟨S32, .f32⟩
  | 4 => ⟨S32x4x196608, .f32⟩
  | 5 => ⟨S_, .f32⟩
  | 6 => ⟨S32x4, .f32⟩
  | 7 => ⟨S32x4x196608, .f32⟩
  | 8 => ⟨S_, .f32⟩
  | 9 => ⟨S32x4, .f32⟩
  | 10 => ⟨S32x4x4, .f32⟩
  | 11 => ⟨S32x4x1, .f32⟩
  | 12 => ⟨S32x1x4, .f32⟩
  | 13 => ⟨S32x4x4, .f32⟩
  | 14 => ⟨S32x4x4, .f32⟩
  | 15 => ⟨S32x4x4, .f32⟩
  | 16 => ⟨S_, .f32⟩
  | 17 => ⟨S32x4x4, .f32⟩
  | 18 => ⟨S32x4x4, .f32⟩
  | 19 => ⟨S32x4x4, .f32⟩
  | 20 => ⟨S_, .f32⟩
  | 21 => ⟨S32x4x4, .f32⟩
  | 22 => ⟨S32x4x4, .f32⟩
  | 23 => ⟨S32x4x4, .f32⟩
  | 24 => ⟨S_, .f32⟩
  | 25 => ⟨S32x4x4, .f32⟩
  | 26 => ⟨S32x4x4, .f32⟩
  | 27 => ⟨S_, .f32⟩
  | 28 => ⟨S32x4x4, .f32⟩
  | 29 => ⟨S32x4x4, .f32⟩
  | 30 => ⟨S32x4x4, .f32⟩
  | 31 => ⟨S32x1x1, .f32⟩
  | 32 => ⟨S32x4x4, .f32⟩
  | 33 => ⟨S32x4x4, .f32⟩
  | 34 => ⟨S_, .f32⟩
  | 35 => ⟨S_, .f32⟩
  | 36 => ⟨S_, .f32⟩
  | 37 => ⟨S32x4x4, .f32⟩
  | 38 => ⟨S32x4x4, .f32⟩
  | 39 => ⟨S_, .f32⟩
  | 40 => ⟨S32x4x4, .f32⟩
  | 41 => ⟨S32x4x4, .f32⟩
  | 42 => ⟨S32x4x4, .f32⟩
  | 43 => ⟨S_, .f32⟩
  | 44 => ⟨S_, .f32⟩
  | 45 => ⟨S_, .f32⟩
  | 46 => ⟨S32x4x4, .i1⟩
  | 47 => ⟨S_, .f32⟩
  | 48 => ⟨S32x4x4, .f32⟩
  | 49 => ⟨S32x4x4, .f32⟩
  | 50 => ⟨S_, .f32⟩
  | 51 => ⟨S32x4x4, .f32⟩
  | 52 => ⟨S32x4x4, .i1⟩
  | 53 => ⟨S_, .f32⟩
  | 54 => ⟨S32x4x4, .f32⟩
  | 55 => ⟨S32x4x4, .f32⟩
  | 56 => ⟨S_, .f32⟩
  | 57 => ⟨S32x4x4, .f32⟩
  | 58 => ⟨S32x4x4, .i1⟩
  | 59 => ⟨S_, .f32⟩
  | 60 => ⟨S32x4x4, .f32⟩
  | 61 => ⟨S32x4x4, .f32⟩
  | 62 => ⟨S_, .f32⟩
  | 63 => ⟨S32, .f32⟩
  | 64 => ⟨S_, .f32⟩
  | 65 => ⟨S32, .f32⟩
  | 66 => ⟨S32, .f32⟩
  | 67 => ⟨S_, .f32⟩
  | 68 => ⟨S32, .i1⟩
  | 69 => ⟨S_, .f32⟩
  | 70 => ⟨S32, .f32⟩
  | 71 => ⟨S32, .f32⟩
  | 72 => ⟨S_, .f32⟩
  | 73 => ⟨S32, .f32⟩
  | 74 => ⟨S32, .i1⟩
  | 75 => ⟨S_, .f32⟩
  | 76 => ⟨S32, .f32⟩
  | 77 => ⟨S32, .f32⟩
  | 78 => ⟨S_, .f32⟩
  | 79 => ⟨S32, .f32⟩
  | 80 => ⟨S32, .i1⟩
  | 81 => ⟨S_, .f32⟩
  | 82 => ⟨S32, .f32⟩
  | 83 => ⟨S32, .f32⟩
  | 84 => ⟨S32x4x196608, .f32⟩
  | 85 => ⟨S_, .f32⟩
  | 86 => ⟨S32x4, .f32⟩
  | 87 => ⟨S32x4x196608, .f32⟩
  | 88 => ⟨S_, .f32⟩
  | 89 => ⟨S32x4, .f32⟩
  | 90 => ⟨S32x4x4, .f32⟩
  | 91 => ⟨S32x4x1, .f32⟩
  | 92 => ⟨S32x1x4, .f32⟩
  | 93 => ⟨S32x4x4, .f32⟩
  | 94 => ⟨S32x4x4, .f32⟩
  | 95 => ⟨S32x4x4, .f32⟩
  | 96 => ⟨S_, .f32⟩
  | 97 => ⟨S32x4x4, .f32⟩
  | 98 => ⟨S32x4x4, .f32⟩
  | 99 => ⟨S32x4x4, .f32⟩
  | 100 => ⟨S_, .f32⟩
  | 101 => ⟨S32x4x4, .f32⟩
  | 102 => ⟨S32x4x4, .f32⟩
  | 103 => ⟨S32x4x4, .f32⟩
  | 104 => ⟨S_, .f32⟩
  | 105 => ⟨S32x4x4, .f32⟩
  | 106 => ⟨S32x4x4, .f32⟩
  | 107 => ⟨S_, .f32⟩
  | 108 => ⟨S32x4x4, .f32⟩
  | 109 => ⟨S32x4x4, .f32⟩
  | 110 => ⟨S32x4x4, .f32⟩
  | 111 => ⟨S32x1x1, .f32⟩
  | 112 => ⟨S32x4x4, .f32⟩
  | 113 => ⟨S32x4x4, .f32⟩
  | 114 => ⟨S_, .f32⟩
  | 115 => ⟨S_, .f32⟩
  | 116 => ⟨S_, .f32⟩
  | 117 => ⟨S32x4x4, .f32⟩
  | 118 => ⟨S32x4x4, .f32⟩
  | 119 => ⟨S_, .f32⟩
  | 120 => ⟨S32x4x4, .f32⟩
  | 121 => ⟨S32x4x4, .f32⟩
  | 122 => ⟨S32x4x4, .f32⟩
  | 123 => ⟨S_, .f32⟩
  | 124 => ⟨S_, .f32⟩
  | 125 => ⟨S_, .f32⟩
  | 126 => ⟨S32x4x4, .i1⟩
  | 127 => ⟨S_, .f32⟩
  | _ => ⟨S32x4x196608, .f32⟩

abbrev hbmTy0_1 (i : Nat) : BufTy := match i % 128 with
  | 0 => ⟨S32x4x4, .f32⟩
  | 1 => ⟨S32x4x4, .f32⟩
  | 2 => ⟨S_, .f32⟩
  | 3 => ⟨S32x4x4, .f32⟩
  | 4 => ⟨S32x4x4, .i1⟩
  | 5 => ⟨S_, .f32⟩
  | 6 => ⟨S32x4x4, .f32⟩
  | 7 => ⟨S32x4x4, .f32⟩
  | 8 => ⟨S_, .f32⟩
  | 9 => ⟨S32x4x4, .f32⟩
  | 10 => ⟨S32x4x4, .i1⟩
  | 11 => ⟨S_, .f32⟩
  | 12 => ⟨S32x4x4, .f32⟩
  | 13 => ⟨S32x4x4, .f32⟩
  | 14 => ⟨S_, .f32⟩
  | 15 => ⟨S32, .f32⟩
  | 16 => ⟨S_, .f32⟩
  | 17 => ⟨S32, .f32⟩
  | 18 => ⟨S32, .f32⟩
  | 19 => ⟨S_, .f32⟩
  | 20 => ⟨S32, .i1⟩
  | 21 => ⟨S_, .f32⟩
  | 22 => ⟨S32, .f32⟩
  | 23 => ⟨S32, .f32⟩
  | 24 => ⟨S_, .f32⟩
  | 25 => ⟨S32, .f32⟩
  | 26 => ⟨S32, .i1⟩
  | 27 => ⟨S_, .f32⟩
  | 28 => ⟨S32, .f32⟩
  | 29 => ⟨S32, .f32⟩
  | 30 => ⟨S_, .f32⟩
  | 31 => ⟨S32, .f32⟩
  | 32 => ⟨S32, .i1⟩
  | 33 => ⟨S_, .f32⟩
  | 34 => ⟨S32, .f32⟩
  | 35 => ⟨S32, .f32⟩
  | 36 => ⟨S32x4x196608, .f32⟩
  | 37 => ⟨S_, .f32⟩
  | 38 => ⟨S32x4, .f32⟩
  | 39 => ⟨S32x4x196608, .f32⟩
  | 40 => ⟨S_, .f32⟩
  | 41 => ⟨S32x4, .f32⟩
  | 42 => ⟨S32x4x4, .f32⟩
  | 43 => ⟨S32x4x1, .f32⟩
  | 44 => ⟨S32x1x4, .f32⟩
  | 45 => ⟨S32x4x4, .f32⟩
  | 46 => ⟨S32x4x4, .f32⟩
  | 47 => ⟨S32x4x4, .f32⟩
  | 48 => ⟨S_, .f32⟩
  | 49 => ⟨S32x4x4, .f32⟩
  | 50 => ⟨S32x4x4, .f32⟩
  | 51 => ⟨S32x4x4, .f32⟩
  | 52 => ⟨S_, .f32⟩
  | 53 => ⟨S32x4x4, .f32⟩
  | 54 => ⟨S32x4x4, .f32⟩
  | 55 => ⟨S32x4x4, .f32⟩
  | 56 => ⟨S_, .f32⟩
  | 57 => ⟨S32x4x4, .f32⟩
  | 58 => ⟨S32x4x4, .f32⟩
  | 59 => ⟨S_, .f32⟩
  | 60 => ⟨S32x4x4, .f32⟩
  | 61 => ⟨S32x4x4, .f32⟩
  | 62 => ⟨S32x4x4, .f32⟩
  | 63 => ⟨S32x1x1, .f32⟩
  | 64 => ⟨S32x4x4, .f32⟩
  | 65 => ⟨S32x4x4, .f32⟩
  | 66 => ⟨S_, .f32⟩
  | 67 => ⟨S_, .f32⟩
  | 68 => ⟨S_, .f32⟩
  | 69 => ⟨S32x4x4, .f32⟩
  | 70 => ⟨S32x4x4, .f32⟩
  | 71 => ⟨S_, .f32⟩
  | 72 => ⟨S32x4x4, .f32⟩
  | 73 => ⟨S32x4x4, .f32⟩
  | 74 => ⟨S32x4x4, .f32⟩
  | 75 => ⟨S_, .f32⟩
  | 76 => ⟨S_, .f32⟩
  | 77 => ⟨S_, .f32⟩
  | 78 => ⟨S32x4x4, .i1⟩
  | 79 => ⟨S_, .f32⟩
  | 80 => ⟨S32x4x4, .f32⟩
  | 81 => ⟨S32x4x4, .f32⟩
  | 82 => ⟨S_, .f32⟩
  | 83 => ⟨S32x4x4, .f32⟩
  | 84 => ⟨S32x4x4, .i1⟩
  | 85 => ⟨S_, .f32⟩
  | 86 => ⟨S32x4x4, .f32⟩
  | 87 => ⟨S32x4x4, .f32⟩
  | 88 => ⟨S_, .f32⟩
  | 89 => ⟨S32x4x4, .f32⟩
  | 90 => ⟨S32x4x4, .i1⟩
  | 91 => ⟨S_, .f32⟩
  | 92 => ⟨S32x4x4, .f32⟩
  | 93 => ⟨S32x4x4, .f32⟩
  | 94 => ⟨S_, .f32⟩
  | 95 => ⟨S32, .f32⟩
  | 96 => ⟨S_, .f32⟩
  | 97 => ⟨S32, .f32⟩
  | 98 => ⟨S32, .f32⟩
  | 99 => ⟨S_, .f32⟩
  | 100 => ⟨S32, .i1⟩
  | 101 => ⟨S_, .f32⟩
  | 102 => ⟨S32, .f32⟩
  | 103 => ⟨S32, .f32⟩
  | 104 => ⟨S_, .f32⟩
  | 105 => ⟨S32, .f32⟩
  | 106 => ⟨S32, .i1⟩
  | 107 => ⟨S_, .f32⟩
  | 108 => ⟨S32, .f32⟩
  | 109 => ⟨S32, .f32⟩
  | 110 => ⟨S_, .f32⟩
  | 111 => ⟨S32, .f32⟩
  | 112 => ⟨S32, .i1⟩
  | 113 => ⟨S_, .f32⟩
  | 114 => ⟨S32, .f32⟩
  | 115 => ⟨S32, .f32⟩
  | 116 => ⟨S32, .f32⟩
  | 117 => ⟨S_, .f32⟩
  | 118 => ⟨S32, .f32⟩
  | 119 => ⟨S32, .f32⟩
  | 120 => ⟨S32, .f32⟩
  | 121 => ⟨S_, .f32⟩
  | 122 => ⟨S32, .i1⟩
  | 123 => ⟨S_, .f32⟩
  | 124 => ⟨S32, .f32⟩
  | 125 => ⟨S32, .f32⟩
  | 126 => ⟨S_, .f32⟩
  | 127 => ⟨S32, .f32⟩
  | _ => ⟨S32x4x196608, .f32⟩

abbrev hbmTy0_2 (i : Nat) : BufTy := match i % 128 with
  | 0 => ⟨S32, .i1⟩
  | 1 => ⟨S_, .f32⟩
  | 2 => ⟨S32, .f32⟩
  | 3 => ⟨S32, .f32⟩
  | 4 => ⟨S_, .f32⟩
  | 5 => ⟨S32, .f32⟩
  | 6 => ⟨S32, .i1⟩
  | 7 => ⟨S_, .f32⟩
  | 8 => ⟨S32, .f32⟩
  | 9 => ⟨S32, .f32⟩
  | 10 => ⟨S32, .f32⟩
  | 11 => ⟨S_, .f32⟩
  | 12 => ⟨S32, .i1⟩
  | 13 => ⟨S_, .f32⟩
  | 14 => ⟨S32, .f32⟩
  | 15 => ⟨S32, .f32⟩
  | 16 => ⟨S_, .f32⟩
  | 17 => ⟨S32, .f32⟩
  | 18 => ⟨S32, .i1⟩
  | 19 => ⟨S_, .f32⟩
  | 20 => ⟨S32, .f32⟩
  | 21 => ⟨S32, .f32⟩
  | 22 => ⟨S_, .f32⟩
  | 23 => ⟨S32, .f32⟩
  | 24 => ⟨S32, .i1⟩
  | 25 => ⟨S_, .f32⟩
  | 26 => ⟨S32, .f32⟩
  | 27 => ⟨S32, .f32⟩
  | 28 => ⟨S_, .f32⟩
  | 29 => ⟨S_, .f32⟩
  | 30 => ⟨S_, .f32⟩
  | 31 => ⟨S_, .f32⟩
  | _ => ⟨S32x4x196608, .f32⟩

abbrev hbmTy (i : Nat) : BufTy := match i / 128 with
  | 0 => hbmTy0_0 i
  | 1 => hbmTy0_1 i
  | 2 => hbmTy0_2 i
  | _ => ⟨S32x4x196608, .f32⟩

abbrev bufTy : (tb : Table) → Fin (tcTables nBuf tb) → BufTy
  | .hbm, ⟨i, _⟩ => hbmTy i
  | _, _ => ⟨S32x4x196608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_cst_6 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_cst_8 : Ref sig .tc := ⟨.hbm, 44, rfl⟩
abbrev main_cst_9 : Ref sig .tc := ⟨.hbm, 45, rfl⟩
abbrev main_call1_v0 : Ref sig .tc := ⟨.hbm, 46, rfl⟩
abbrev main_call1_v1 : Ref sig .tc := ⟨.hbm, 47, rfl⟩
abbrev main_call1_call0_v0 : Ref sig .tc := ⟨.hbm, 48, rfl⟩
abbrev main_call1_v2 : Ref sig .tc := ⟨.hbm, 49, rfl⟩
abbrev main_call1_cst : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_call1_v0 : Ref sig .tc := ⟨.hbm, 54, rfl⟩
abbrev main_call1_v6 : Ref sig .tc := ⟨.hbm, 55, rfl⟩
abbrev main_call1_cst_0 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_call2_v0 : Ref sig .tc := ⟨.hbm, 60, rfl⟩
abbrev main_v26 : Ref sig .tc := ⟨.hbm, 61, rfl⟩
abbrev main_cst_10 : Ref sig .tc := ⟨.hbm, 62, rfl⟩
abbrev main_v27 : Ref sig .tc := ⟨.hbm, 63, rfl⟩
abbrev main_cst_11 : Ref sig .tc := ⟨.hbm, 64, rfl⟩
abbrev main_v28 : Ref sig .tc := ⟨.hbm, 65, rfl⟩
abbrev main_v29 : Ref sig .tc := ⟨.hbm, 66, rfl⟩
abbrev main_cst_12 : Ref sig .tc := ⟨.hbm, 67, rfl⟩
abbrev main_call2_v0 : Ref sig .tc := ⟨.hbm, 68, rfl⟩
abbrev main_call2_v1 : Ref sig .tc := ⟨.hbm, 69, rfl⟩
abbrev main_call2_call0_v0 : Ref sig .tc := ⟨.hbm, 70, rfl⟩
abbrev main_call2_v2 : Ref sig .tc := ⟨.hbm, 71, rfl⟩
abbrev main_call2_cst : Ref sig .tc := ⟨.hbm, 72, rfl⟩
abbrev main_call2_v3 : Ref sig .tc := ⟨.hbm, 73, rfl⟩
abbrev main_call2_v4 : Ref sig .tc := ⟨.hbm, 74, rfl⟩
abbrev main_call2_cst_0 : Ref sig .tc := ⟨.hbm, 75, rfl⟩
abbrev main_call2_call1_v0 : Ref sig .tc := ⟨.hbm, 76, rfl⟩
abbrev main_call2_v5 : Ref sig .tc := ⟨.hbm, 77, rfl⟩
abbrev main_call2_cst_1 : Ref sig .tc := ⟨.hbm, 78, rfl⟩
abbrev main_call2_v6 : Ref sig .tc := ⟨.hbm, 79, rfl⟩
abbrev main_call2_v7 : Ref sig .tc := ⟨.hbm, 80, rfl⟩
abbrev main_call2_cst_2 : Ref sig .tc := ⟨.hbm, 81, rfl⟩
abbrev main_call2_call2_v0 : Ref sig .tc := ⟨.hbm, 82, rfl⟩
abbrev main_v30 : Ref sig .tc := ⟨.hbm, 83, rfl⟩
abbrev main_v31 : Ref sig .tc := ⟨.hbm, 84, rfl⟩
abbrev main_cst_13 : Ref sig .tc := ⟨.hbm, 85, rfl⟩
abbrev main_v32 : Ref sig .tc := ⟨.hbm, 86, rfl⟩
abbrev main_v33 : Ref sig .tc := ⟨.hbm, 87, rfl⟩
abbrev main_cst_14 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_15 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_cst_16 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_cst_17 : Ref sig .tc := ⟨.hbm, 104, rfl⟩
abbrev main_v47 : Ref sig .tc := ⟨.hbm, 105, rfl⟩
abbrev main_v48 : Ref sig .tc := ⟨.hbm, 106, rfl⟩
abbrev main_cst_18 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_19 : Ref sig .tc := ⟨.hbm, 114, rfl⟩
abbrev main_cst_20 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_v55 : Ref sig .tc := ⟨.hbm, 121, rfl⟩
abbrev main_v56 : Ref sig .tc := ⟨.hbm, 122, rfl⟩
abbrev main_cst_21 : Ref sig .tc := ⟨.hbm, 123, rfl⟩
abbrev main_cst_22 : Ref sig .tc := ⟨.hbm, 124, rfl⟩
abbrev main_cst_23 : Ref sig .tc := ⟨.hbm, 125, rfl⟩
abbrev main_call4_v0 : Ref sig .tc := ⟨.hbm, 126, rfl⟩
abbrev main_call4_v1 : Ref sig .tc := ⟨.hbm, 127, rfl⟩
abbrev main_call4_call0_v0 : Ref sig .tc := ⟨.hbm, 128, rfl⟩
abbrev main_call4_v2 : Ref sig .tc := ⟨.hbm, 129, rfl⟩
abbrev main_call4_cst : Ref sig .tc := ⟨.hbm, 130, rfl⟩
abbrev main_call4_v3 : Ref sig .tc := ⟨.hbm, 131, rfl⟩
abbrev main_call4_v4 : Ref sig .tc := ⟨.hbm, 132, rfl⟩
abbrev main_call4_v5 : Ref sig .tc := ⟨.hbm, 133, rfl⟩
abbrev main_call4_call1_v0 : Ref sig .tc := ⟨.hbm, 134, rfl⟩
abbrev main_call4_v6 : Ref sig .tc := ⟨.hbm, 135, rfl⟩
abbrev main_call4_cst_0 : Ref sig .tc := ⟨.hbm, 136, rfl⟩
abbrev main_call4_v7 : Ref sig .tc := ⟨.hbm, 137, rfl⟩
abbrev main_call4_v8 : Ref sig .tc := ⟨.hbm, 138, rfl⟩
abbrev main_call4_v9 : Ref sig .tc := ⟨.hbm, 139, rfl⟩
abbrev main_call4_call2_v0 : Ref sig .tc := ⟨.hbm, 140, rfl⟩
abbrev main_v57 : Ref sig .tc := ⟨.hbm, 141, rfl⟩
abbrev main_cst_24 : Ref sig .tc := ⟨.hbm, 142, rfl⟩
abbrev main_v58 : Ref sig .tc := ⟨.hbm, 143, rfl⟩
abbrev main_cst_25 : Ref sig .tc := ⟨.hbm, 144, rfl⟩
abbrev main_v59 : Ref sig .tc := ⟨.hbm, 145, rfl⟩
abbrev main_v60 : Ref sig .tc := ⟨.hbm, 146, rfl⟩
abbrev main_cst_26 : Ref sig .tc := ⟨.hbm, 147, rfl⟩
abbrev main_call5_v0 : Ref sig .tc := ⟨.hbm, 148, rfl⟩
abbrev main_call5_v1 : Ref sig .tc := ⟨.hbm, 149, rfl⟩
abbrev main_call5_call0_v0 : Ref sig .tc := ⟨.hbm, 150, rfl⟩
abbrev main_call5_v2 : Ref sig .tc := ⟨.hbm, 151, rfl⟩
abbrev main_call5_cst : Ref sig .tc := ⟨.hbm, 152, rfl⟩
abbrev main_call5_v3 : Ref sig .tc := ⟨.hbm, 153, rfl⟩
abbrev main_call5_v4 : Ref sig .tc := ⟨.hbm, 154, rfl⟩
abbrev main_call5_cst_0 : Ref sig .tc := ⟨.hbm, 155, rfl⟩
abbrev main_call5_call1_v0 : Ref sig .tc := ⟨.hbm, 156, rfl⟩
abbrev main_call5_v5 : Ref sig .tc := ⟨.hbm, 157, rfl⟩
abbrev main_call5_cst_1 : Ref sig .tc := ⟨.hbm, 158, rfl⟩
abbrev main_call5_v6 : Ref sig .tc := ⟨.hbm, 159, rfl⟩
abbrev main_call5_v7 : Ref sig .tc := ⟨.hbm, 160, rfl⟩
abbrev main_call5_cst_2 : Ref sig .tc := ⟨.hbm, 161, rfl⟩
abbrev main_call5_call2_v0 : Ref sig .tc := ⟨.hbm, 162, rfl⟩
abbrev main_v61 : Ref sig .tc := ⟨.hbm, 163, rfl⟩
abbrev main_v62 : Ref sig .tc := ⟨.hbm, 164, rfl⟩
abbrev main_cst_27 : Ref sig .tc := ⟨.hbm, 165, rfl⟩
abbrev main_v63 : Ref sig .tc := ⟨.hbm, 166, rfl⟩
abbrev main_v64 : Ref sig .tc := ⟨.hbm, 167, rfl⟩
abbrev main_cst_28 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_cst_29 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_cst_30 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_cst_31 : Ref sig .tc := ⟨.hbm, 184, rfl⟩
abbrev main_v78 : Ref sig .tc := ⟨.hbm, 185, rfl⟩
abbrev main_v79 : Ref sig .tc := ⟨.hbm, 186, rfl⟩
abbrev main_cst_32 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_cst_33 : Ref sig .tc := ⟨.hbm, 194, rfl⟩
abbrev main_cst_34 : Ref sig .tc := ⟨.hbm, 195, rfl⟩
abbrev main_call6_v0 : Ref sig .tc := ⟨.hbm, 196, rfl⟩
abbrev main_call6_v1 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_v86 : Ref sig .tc := ⟨.hbm, 201, rfl⟩
abbrev main_v87 : Ref sig .tc := ⟨.hbm, 202, rfl⟩
abbrev main_cst_35 : Ref sig .tc := ⟨.hbm, 203, rfl⟩
abbrev main_cst_36 : Ref sig .tc := ⟨.hbm, 204, rfl⟩
abbrev main_cst_37 : Ref sig .tc := ⟨.hbm, 205, rfl⟩
abbrev main_call7_v0 : Ref sig .tc := ⟨.hbm, 206, rfl⟩
abbrev main_call7_v1 : Ref sig .tc := ⟨.hbm, 207, rfl⟩
abbrev main_call7_call0_v0 : Ref sig .tc := ⟨.hbm, 208, rfl⟩
abbrev main_call7_v2 : Ref sig .tc := ⟨.hbm, 209, rfl⟩
abbrev main_call7_cst : Ref sig .tc := ⟨.hbm, 210, rfl⟩
abbrev main_call7_v3 : Ref sig .tc := ⟨.hbm, 211, rfl⟩
abbrev main_call7_v4 : Ref sig .tc := ⟨.hbm, 212, rfl⟩
abbrev main_call7_v5 : Ref sig .tc := ⟨.hbm, 213, rfl⟩
abbrev main_call7_call1_v0 : Ref sig .tc := ⟨.hbm, 214, rfl⟩
abbrev main_call7_v6 : Ref sig .tc := ⟨.hbm, 215, rfl⟩
abbrev main_call7_cst_0 : Ref sig .tc := ⟨.hbm, 216, rfl⟩
abbrev main_call7_v7 : Ref sig .tc := ⟨.hbm, 217, rfl⟩
abbrev main_call7_v8 : Ref sig .tc := ⟨.hbm, 218, rfl⟩
abbrev main_call7_v9 : Ref sig .tc := ⟨.hbm, 219, rfl⟩
abbrev main_call7_call2_v0 : Ref sig .tc := ⟨.hbm, 220, rfl⟩
abbrev main_v88 : Ref sig .tc := ⟨.hbm, 221, rfl⟩
abbrev main_cst_38 : Ref sig .tc := ⟨.hbm, 222, rfl⟩
abbrev main_v89 : Ref sig .tc := ⟨.hbm, 223, rfl⟩
abbrev main_cst_39 : Ref sig .tc := ⟨.hbm, 224, rfl⟩
abbrev main_v90 : Ref sig .tc := ⟨.hbm, 225, rfl⟩
abbrev main_v91 : Ref sig .tc := ⟨.hbm, 226, rfl⟩
abbrev main_cst_40 : Ref sig .tc := ⟨.hbm, 227, rfl⟩
abbrev main_call8_v0 : Ref sig .tc := ⟨.hbm, 228, rfl⟩
abbrev main_call8_v1 : Ref sig .tc := ⟨.hbm, 229, rfl⟩
abbrev main_call8_call0_v0 : Ref sig .tc := ⟨.hbm, 230, rfl⟩
abbrev main_call8_v2 : Ref sig .tc := ⟨.hbm, 231, rfl⟩
abbrev main_call8_cst : Ref sig .tc := ⟨.hbm, 232, rfl⟩
abbrev main_call8_v3 : Ref sig .tc := ⟨.hbm, 233, rfl⟩
abbrev main_call8_v4 : Ref sig .tc := ⟨.hbm, 234, rfl⟩
abbrev main_call8_cst_0 : Ref sig .tc := ⟨.hbm, 235, rfl⟩
abbrev main_call8_call1_v0 : Ref sig .tc := ⟨.hbm, 236, rfl⟩
abbrev main_call8_v5 : Ref sig .tc := ⟨.hbm, 237, rfl⟩
abbrev main_call8_cst_1 : Ref sig .tc := ⟨.hbm, 238, rfl⟩
abbrev main_call8_v6 : Ref sig .tc := ⟨.hbm, 239, rfl⟩
abbrev main_call8_v7 : Ref sig .tc := ⟨.hbm, 240, rfl⟩
abbrev main_call8_cst_2 : Ref sig .tc := ⟨.hbm, 241, rfl⟩
abbrev main_call8_call2_v0 : Ref sig .tc := ⟨.hbm, 242, rfl⟩
abbrev main_v92 : Ref sig .tc := ⟨.hbm, 243, rfl⟩
abbrev main_v93 : Ref sig .tc := ⟨.hbm, 244, rfl⟩
abbrev main_cst_41 : Ref sig .tc := ⟨.hbm, 245, rfl⟩
abbrev main_v94 : Ref sig .tc := ⟨.hbm, 246, rfl⟩
abbrev main_v95 : Ref sig .tc := ⟨.hbm, 247, rfl⟩
abbrev main_v96 : Ref sig .tc := ⟨.hbm, 248, rfl⟩
abbrev main_cst_42 : Ref sig .tc := ⟨.hbm, 249, rfl⟩
abbrev main_call9_v0 : Ref sig .tc := ⟨.hbm, 250, rfl⟩
abbrev main_call9_v1 : Ref sig .tc := ⟨.hbm, 251, rfl⟩
abbrev main_call9_call0_v0 : Ref sig .tc := ⟨.hbm, 252, rfl⟩
abbrev main_call9_v2 : Ref sig .tc := ⟨.hbm, 253, rfl⟩
abbrev main_call9_cst : Ref sig .tc := ⟨.hbm, 254, rfl⟩
abbrev main_call9_v3 : Ref sig .tc := ⟨.hbm, 255, rfl⟩
abbrev main_call9_v4 : Ref sig .tc := ⟨.hbm, 256, rfl⟩
abbrev main_call9_cst_0 : Ref sig .tc := ⟨.hbm, 257, rfl⟩
abbrev main_call9_call1_v0 : Ref sig .tc := ⟨.hbm, 258, rfl⟩
abbrev main_call9_v5 : Ref sig .tc := ⟨.hbm, 259, rfl⟩
abbrev main_call9_cst_1 : Ref sig .tc := ⟨.hbm, 260, rfl⟩
abbrev main_call9_v6 : Ref sig .tc := ⟨.hbm, 261, rfl⟩
abbrev main_call9_v7 : Ref sig .tc := ⟨.hbm, 262, rfl⟩
abbrev main_call9_cst_2 : Ref sig .tc := ⟨.hbm, 263, rfl⟩
abbrev main_call9_call2_v0 : Ref sig .tc := ⟨.hbm, 264, rfl⟩
abbrev main_v97 : Ref sig .tc := ⟨.hbm, 265, rfl⟩
abbrev main_v98 : Ref sig .tc := ⟨.hbm, 266, rfl⟩
abbrev main_cst_43 : Ref sig .tc := ⟨.hbm, 267, rfl⟩
abbrev main_call10_v0 : Ref sig .tc := ⟨.hbm, 268, rfl⟩
abbrev main_call10_v1 : Ref sig .tc := ⟨.hbm, 269, rfl⟩
abbrev main_call10_call0_v0 : Ref sig .tc := ⟨.hbm, 270, rfl⟩
abbrev main_call10_v2 : Ref sig .tc := ⟨.hbm, 271, rfl⟩
abbrev main_call10_cst : Ref sig .tc := ⟨.hbm, 272, rfl⟩
abbrev main_call10_v3 : Ref sig .tc := ⟨.hbm, 273, rfl⟩
abbrev main_call10_v4 : Ref sig .tc := ⟨.hbm, 274, rfl⟩
abbrev main_call10_cst_0 : Ref sig .tc := ⟨.hbm, 275, rfl⟩
abbrev main_call10_call1_v0 : Ref sig .tc := ⟨.hbm, 276, rfl⟩
abbrev main_call10_v5 : Ref sig .tc := ⟨.hbm, 277, rfl⟩
abbrev main_call10_cst_1 : Ref sig .tc := ⟨.hbm, 278, rfl⟩
abbrev main_call10_v6 : Ref sig .tc := ⟨.hbm, 279, rfl⟩
abbrev main_call10_v7 : Ref sig .tc := ⟨.hbm, 280, rfl⟩
abbrev main_call10_cst_2 : Ref sig .tc := ⟨.hbm, 281, rfl⟩
abbrev main_call10_call2_v0 : Ref sig .tc := ⟨.hbm, 282, rfl⟩
abbrev main_v99 : Ref sig .tc := ⟨.hbm, 283, rfl⟩
abbrev main_cst_44 : Ref sig .tc := ⟨.hbm, 284, rfl⟩
abbrev main_v100 : Ref sig .tc := ⟨.hbm, 285, rfl⟩
abbrev main_cst_45 : Ref sig .tc := ⟨.hbm, 286, rfl⟩
abbrev main_v101 : Ref sig .tc := ⟨.hbm, 287, rfl⟩

abbrev nD : Nat := 1
abbrev τ : Topo := Topo.v7x

variable {F : FTy → Type} [FloatOps F]

class Facts₀ : Prop where
  reducesTo_S32x4x196608_S32x4_d2 : S32x4x196608.ReducesTo [2] S32x4
  h_S_ : 0 < S_.numel
  bcast_S32x4_S32x4x1_0_1 : S32x4.BroadcastsInDim S32x4x1 (![0, 1] : Fin 2 → Fin S32x4x1.rank)
  bcast_S32x4_S32x1x4_0_2 : S32x4.BroadcastsInDim S32x1x4 (![0, 2] : Fin 2 → Fin S32x1x4.rank)
  bcast_S32x4x1_S32x4x4_0_1_2 : S32x4x1.BroadcastsInDim S32x4x4 (![0, 1, 2] : Fin 3 → Fin S32x4x4.rank)
  bcast_S32x1x4_S32x4x4_0_1_2 : S32x1x4.BroadcastsInDim S32x4x4 (![0, 1, 2] : Fin 3 → Fin S32x4x4.rank)
  bcast_S_S32x4x4 : S_.BroadcastsInDim S32x4x4 (![] : Fin 0 → Fin S32x4x4.rank)
  bcast_S32_S32x1x1_0 : S32.BroadcastsInDim S32x1x1 (![0] : Fin 1 → Fin S32x1x1.rank)
  bcast_S32x1x1_S32x4x4_0_1_2 : S32x1x1.BroadcastsInDim S32x4x4 (![0, 1, 2] : Fin 3 → Fin S32x4x4.rank)
  reducesTo_S32x4x4_S32_d1_2 : S32x4x4.ReducesTo [1, 2] S32
  bcast_S_S32 : S_.BroadcastsInDim S32 (![] : Fin 0 → Fin S32.rank)
  reducesTo_S32_S_d0 : S32.ReducesTo [0] S_
  dot_S32x4x196608_S32x4x196608_S32x4x4_2_2_1_1_0_0_wf : DotDims.WF S32x4x196608 S32x4x196608 S32x4x4 [2] [2] [1] [1] [0] [0]

variable [Facts₀]

def dot_S32x4x196608_S32x4x196608_S32x4x4_2_2_1_1_0_0 : DotDims S32x4x196608 S32x4x196608 S32x4x4 where
  lhsContracting := [2]
  rhsContracting := [2]
  lhsNonContracting := [1]
  rhsNonContracting := [1]
  lhsBatch := [0]
  rhsBatch := [0]
  wf := dot_S32x4x196608_S32x4x196608_S32x4x4_2_2_1_1_0_0_wf

class Facts : Prop extends Facts₀ where

variable [Facts]
-- ==== Proof.KPieces.lean ====
/-
  What one run of the kernel body leaves behind, as pure functions of what it loaded.

  The body adds to three 16×4×4 accumulators (kept in scratch between grid points) the Gram products of the current
  16×4×192×128 blocks: first input with itself, second input with itself, first with second — each product summed over
  the 192×128 positions of the block, lanes first.  At the first point of a row of the grid the accumulators start from
  zero; at the last point the body also turns the three accumulated Gram matrices, the two 16×1 weight columns and a
  handful of constants into the 16×1 block of per-batch losses.  Below, the accumulator updates are named accSS, accRR,
  accSR and the closing computation epi; each is the composition of the body's arithmetic, nothing else.
-/
import proofs.«134037_j72430328480133_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The first input's Gram block added to the accumulator `xs0`: entry (b, i, j) gains the sum over the block of
    x(b, i, ·)·x(b, j, ·), computed once for each unordered pair. -/
def accSS (xs0 : Vec F S16x4x4 .f32) (x0 : Vec F S16x4x192x128 .f32) : FVec F S16x4x4 .f32 :=
  k0_pay71 xs0 (k0_pay67 (k0_pay28 x0) (k0_pay30 x0) (k0_pay33 (k0_pay32 x0)) (k0_pay35 (k0_pay20 x0) (k0_pay23 x0))) (k0_pay68 (k0_pay30 x0) (k0_pay37 (k0_pay21 x0)) (k0_pay39 (k0_pay21 x0) (k0_pay22 x0)) (k0_pay41 (k0_pay21 x0) (k0_pay23 x0))) (k0_pay69 (k0_pay33 (k0_pay32 x0)) (k0_pay39 (k0_pay21 x0) (k0_pay22 x0)) (k0_pay43 (k0_pay22 x0)) (k0_pay46 (k0_pay45 (k0_pay22 x0) (k0_pay23 x0)))) (k0_pay70 (k0_pay35 (k0_pay20 x0) (k0_pay23 x0)) (k0_pay41 (k0_pay21 x0) (k0_pay23 x0)) (k0_pay46 (k0_pay45 (k0_pay22 x0) (k0_pay23 x0))) (k0_pay48 (k0_pay23 x0)))

/-- The same for the second input. -/
def accRR (xs1 : Vec F S16x4x4 .f32) (x1 : Vec F S16x4x192x128 .f32) : FVec F S16x4x4 .f32 :=
  k0_pay72 (k0_pay29 x1) (k0_pay31 x1) (k0_pay34 (k0_pay24 x1) (k0_pay26 x1)) (k0_pay36 (k0_pay24 x1) (k0_pay27 x1)) (k0_pay38 (k0_pay25 x1)) (k0_pay40 (k0_pay25 x1) (k0_pay26 x1)) (k0_pay42 (k0_pay25 x1) (k0_pay27 x1)) (k0_pay44 (k0_pay26 x1)) (k0_pay47 (k0_pay26 x1) (k0_pay27 x1)) (k0_pay49 (k0_pay27 x1)) xs1

/-- The cross Gram block, first input against second, added to the accumulator `xs2`. -/
def accSR (xs2 : Vec F S16x4x4 .f32) (x0 x1 : Vec F S16x4x192x128 .f32) : FVec F S16x4x4 .f32 :=
  k0_pay1 (k0_pay55 (k0_pay21 x0) (k0_pay25 x1)) (k0_pay56 (k0_pay21 x0) (k0_pay26 x1)) (k0_pay57 (k0_pay21 x0) (k0_pay27 x1)) (k0_pay59 (k0_pay58 (k0_pay22 x0) (k0_pay24 x1))) (k0_pay60 (k0_pay22 x0) (k0_pay25 x1)) (k0_pay61 (k0_pay22 x0) (k0_pay26 x1)) (k0_pay62 (k0_pay22 x0) (k0_pay27 x1)) (k0_pay63 (k0_pay23 x0) (k0_pay24 x1)) (k0_pay64 (k0_pay23 x0) (k0_pay25 x1)) (k0_pay65 (k0_pay23 x0) (k0_pay26 x1)) (k0_pay66 (k0_pay23 x0) (k0_pay27 x1)) xs2 (k0_pay73 (k0_pay50 (k0_pay20 x0) (k0_pay24 x1)) (k0_pay51 (k0_pay20 x0) (k0_pay25 x1)) (k0_pay52 (k0_pay20 x0) (k0_pay26 x1)) (k0_pay53 (k0_pay20 x0) (k0_pay27 x1))) (k0_pay74 (k0_pay54 (k0_pay21 x0) (k0_pay24 x1)))

/-- The closing computation: from the three accumulated Gram matrices and the two weight columns to the block of losses. -/
def epi (s0 s1 s2 : FVec F S16x4x4 .f32) (x2 x3 : Vec F S16x1 .f32) : FVec F S16x1 .f32 :=
  k0_pay2 (k0_pay13 (k0_pay7 (k0_pay5 x2) (k0_pay6 s0) (FloatOps.ofBits (F := F) FTy.f32 1065353216#32)) (k0_pay11 (k0_pay10 s1 (k0_pay5 x2) (k0_pay8 (k0_pay4 s1)) (k0_pay9 (k0_pay4 s1))) (FloatOps.ofBits (F := F) FTy.f32 2139095040#32)) (k0_pay12 s2 (k0_pay3 s0) (k0_pay4 s1) (k0_pay5 x2)) x3) (k0_pay14 (k0_pay7 (k0_pay5 x2) (k0_pay6 s0) (FloatOps.ofBits (F := F) FTy.f32 1065353216#32)) (k0_pay11 (k0_pay10 s1 (k0_pay5 x2) (k0_pay8 (k0_pay4 s1)) (k0_pay9 (k0_pay4 s1))) (FloatOps.ofBits (F := F) FTy.f32 2139095040#32)) (k0_pay12 s2 (k0_pay3 s0) (k0_pay4 s1) (k0_pay5 x2)) x3) (FloatOps.ofBits (F := F) FTy.f32 2139095039#32)

theorem sout0_A_0_eq (c : Dev nD) (i : grid0.Coords) (arg2 : Memref sig .tc .vmem S16x4x192x128 .f32) (harg2 : arg2.IsWhole) (arg3 : Memref sig .tc .vmem S16x4x192x128 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x4x4 .f32) (harg7 : arg7.IsWhole) (arg8 : Memref sig .tc .vmem S16x4x4 .f32) (harg8 : arg8.IsWhole) (arg9 : Memref sig .tc .vmem S16x4x4 .f32) (harg9 : arg9.IsWhole) (hc0 : cond0_0 i) (hc1 : ¬cond0_1 i) (x0 : Vec F S16x4x192x128 .f32) (x1 : Vec F S16x4x192x128 .f32) (x2 : Vec F S16x1 .f32) (x3 : Vec F S16x1 .f32) :
    sout0_A_0 c i arg2 harg2 arg3 harg3 arg4 harg4 arg5 harg5 arg6 harg6 arg7 harg7 arg8 harg8 arg9 harg9 hc0 hc1 x0 x1 x2 x3 = accSS k0_pay15 x0 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_run_names
  rw [View.canon_cons_unit_zero hz3]
  simp only [View.readCov_unit_zero (S := S16x4x4) arg7.view hz3, View.readCov_unit_zero (S := S16x4x4) arg8.view hz3, View.readCov_unit_zero (S := S16x4x4) arg9.view hz3,
    View.readAt_eq_ld, harg2.read_unread, harg3.read_unread, harg4.read_unread, harg5.read_unread, harg7.read_unread, harg8.read_unread, harg9.read_unread,
    View.ld_unit_zero (S := S16x4x192x128) hz4, View.ld_unit_zero (S := S16x4x4) hz3, View.ld_unit_zero (S := S16x1) hz2]
  rfl

theorem sout0_B_0_eq (c : Dev nD) (i : grid0.Coords) (arg2 : Memref sig .tc .vmem S16x4x192x128 .f32) (harg2 : arg2.IsWhole) (arg3 : Memref sig .tc .vmem S16x4x192x128 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x4x4 .f32) (harg7 : arg7.IsWhole) (arg8 : Memref sig .tc .vmem S16x4x4 .f32) (harg8 : arg8.IsWhole) (arg9 : Memref sig .tc .vmem S16x4x4 .f32) (harg9 : arg9.IsWhole) (hc0 : ¬cond0_0 i) (hc1 : ¬cond0_1 i) (x0 : Vec F S16x4x192x128 .f32) (x1 : Vec F S16x4x192x128 .f32) (x2 : Vec F S16x1 .f32) (x3 : Vec F S16x1 .f32) (xs0 : Vec F S16x4x4 .f32) (xs1 : Vec F S16x4x4 .f32) (xs2 : Vec F S16x4x4 .f32) :
    sout0_B_0 c i arg2 harg2 arg3 harg3 arg4 harg4 arg5 harg5 arg6 harg6 arg7 harg7 arg8 harg8 arg9 harg9 hc0 hc1 x0 x1 x2 x3 xs0 xs1 xs2 = accSS xs0 x0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_run_names
  rw [View.canon_unit_zero hz3]
  simp only [View.readCov_unit_zero (S := S16x4x4) arg7.view hz3, View.readCov_unit_zero (S := S16x4x4) arg8.view hz3, View.readCov_unit_zero (S := S16x4x4) arg9.view hz3,
    View.readAt_eq_ld, harg2.read_unread, harg3.read_unread, harg4.read_unread, harg5.read_unread, harg7.read_unread, harg8.read_unread, harg9.read_unread,
    View.ld_unit_zero (S := S16x4x192x128) hz4, View.ld_unit_zero (S := S16x4x4) hz3, View.ld_unit_zero (S := S16x1) hz2]
  rfl

theorem sout0_C_0_eq (c : Dev nD) (i : grid0.Coords) (arg2 : Memref sig .tc .vmem S16x4x192x128 .f32) (harg2 : arg2.IsWhole) (arg3 : Memref sig .tc .vmem S16x4x192x128 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x4x4 .f32) (harg7 : arg7.IsWhole) (arg8 : Memref sig .tc .vmem S16x4x4 .f32) (harg8 : arg8.IsWhole) (arg9 : Memref sig .tc .vmem S16x4x4 .f32) (harg9 : arg9.IsWhole) (hc0 : ¬cond0_0 i) (hc1 : cond0_1 i) (x0 : Vec F S16x4x192x128 .f32) (x1 : Vec F S16x4x192x128 .f32) (x2 : Vec F S16x1 .f32) (x3 : Vec F S16x1 .f32) (xs0 : Vec F S16x4x4 .f32) (xs1 : Vec F S16x4x4 .f32) (xs2 : Vec F S16x4x4 .f32) :
    sout0_C_0 c i arg2 harg2 arg3 harg3 arg4 harg4 arg5 harg5 arg6 harg6 arg7 harg7 arg8 harg8 arg9 harg9 hc0 hc1 x0 x1 x2 x3 xs0 xs1 xs2 = accSS xs0 x0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_run_names
  rw [View.canon_unit_zero hz3]
  simp only [View.readCov_unit_zero (S := S16x4x4) arg7.view hz3, View.readCov_unit_zero (S := S16x4x4) arg8.view hz3, View.readCov_unit_zero (S := S16x4x4) arg9.view hz3,
    View.readAt_eq_ld, harg2.read_unread, harg3.read_unread, harg4.read_unread, harg5.read_unread, harg7.read_unread, harg8.read_unread, harg9.read_unread,
    View.ld_unit_zero (S := S16x4x192x128) hz4, View.ld_unit_zero (S := S16x4x4) hz3, View.ld_unit_zero (S := S16x1) hz2]
  rfl

theorem sout0_A_1_eq (c : Dev nD) (i : grid0.Coords) (arg2 : Memref sig .tc .vmem S16x4x192x128 .f32) (harg2 : arg2.IsWhole) (arg3 : Memref sig .tc .vmem S16x4x192x128 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x4x4 .f32) (harg7 : arg7.IsWhole) (arg8 : Memref sig .tc .vmem S16x4x4 .f32) (harg8 : arg8.IsWhole) (arg9 : Memref sig .tc .vmem S16x4x4 .f32) (harg9 : arg9.IsWhole) (hc0 : cond0_0 i) (hc1 : ¬cond0_1 i) (x0 : Vec F S16x4x192x128 .f32) (x1 : Vec F S16x4x192x128 .f32) (x2 : Vec F S16x1 .f32) (x3 : Vec F S16x1 .f32) :
    sout0_A_1 c i arg2 harg2 arg3 harg3 arg4 harg4 arg5 harg5 arg6 harg6 arg7 harg7 arg8 harg8 arg9 harg9 hc0 hc1 x0 x1 x2 x3 = accRR k0_pay16 x1 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_run_names
  rw [View.canon_cons_unit_zero hz3]
  simp only [View.readCov_unit_zero (S := S16x4x4) arg7.view hz3, View.readCov_unit_zero (S := S16x4x4) arg8.view hz3, View.readCov_unit_zero (S := S16x4x4) arg9.view hz3,
    View.readAt_eq_ld, harg2.read_unread, harg3.read_unread, harg4.read_unread, harg5.read_unread, harg7.read_unread, harg8.read_unread, harg9.read_unread,
    View.ld_unit_zero (S := S16x4x192x128) hz4, View.ld_unit_zero (S := S16x4x4) hz3, View.ld_unit_zero (S := S16x1) hz2]
  rfl

theorem sout0_B_1_eq (c : Dev nD) (i : grid0.Coords) (arg2 : Memref sig .tc .vmem S16x4x192x128 .f32) (harg2 : arg2.IsWhole) (arg3 : Memref sig .tc .vmem S16x4x192x128 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x4x4 .f32) (harg7 : arg7.IsWhole) (arg8 : Memref sig .tc .vmem S16x4x4 .f32) (harg8 : arg8.IsWhole) (arg9 : Memref sig .tc .vmem S16x4x4 .f32) (harg9 : arg9.IsWhole) (hc0 : ¬cond0_0 i) (hc1 : ¬cond0_1 i) (x0 : Vec F S16x4x192x128 .f32) (x1 : Vec F S16x4x192x128 .f32) (x2 : Vec F S16x1 .f32) (x3 : Vec F S16x1 .f32) (xs0 : Vec F S16x4x4 .f32) (xs1 : Vec F S16x4x4 .f32) (xs2 : Vec F S16x4x4 .f32) :
    sout0_B_1 c i arg2 harg2 arg3 harg3 arg4 harg4 arg5 harg5 arg6 harg6 arg7 harg7 arg8 harg8 arg9 harg9 hc0 hc1 x0 x1 x2 x3 xs0 xs1 xs2 = accRR xs1 x1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_run_names
  rw [View.canon_unit_zero hz3]
  simp only [View.readCov_unit_zero (S := S16x4x4) arg7.view hz3, View.readCov_unit_zero (S := S16x4x4) arg8.view hz3, View.readCov_unit_zero (S := S16x4x4) arg9.view hz3,
    View.readAt_eq_ld, harg2.read_unread, harg3.read_unread, harg4.read_unread, harg5.read_unread, harg7.read_unread, harg8.read_unread, harg9.read_unread,
    View.ld_unit_zero (S := S16x4x192x128) hz4, View.ld_unit_zero (S := S16x4x4) hz3, View.ld_unit_zero (S := S16x1) hz2]
  rfl

theorem sout0_C_1_eq (c : Dev nD) (i : grid0.Coords) (arg2 : Memref sig .tc .vmem S16x4x192x128 .f32) (harg2 : arg2.IsWhole) (arg3 : Memref sig .tc .vmem S16x4x192x128 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x4x4 .f32) (harg7 : arg7.IsWhole) (arg8 : Memref sig .tc .vmem S16x4x4 .f32) (harg8 : arg8.IsWhole) (arg9 : Memref sig .tc .vmem S16x4x4 .f32) (harg9 : arg9.IsWhole) (hc0 : ¬cond0_0 i) (hc1 : cond0_1 i) (x0 : Vec F S16x4x192x128 .f32) (x1 : Vec F S16x4x192x128 .f32) (x2 : Vec F S16x1 .f32) (x3 : Vec F S16x1 .f32) (xs0 : Vec F S16x4x4 .f32) (xs1 : Vec F S16x4x4 .f32) (xs2 : Vec F S16x4x4 .f32) :
    sout0_C_1 c i arg2 harg2 arg3 harg3 arg4 harg4 arg5 harg5 arg6 harg6 arg7 harg7 arg8 harg8 arg9 harg9 hc0 hc1 x0 x1 x2 x3 xs0 xs1 xs2 = accRR xs1 x1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_run_names
  rw [View.canon_unit_zero hz3]
  simp only [View.readCov_unit_zero (S := S16x4x4) arg7.view hz3, View.readCov_unit_zero (S := S16x4x4) arg8.view hz3, View.readCov_unit_zero (S := S16x4x4) arg9.view hz3,
    View.readAt_eq_ld, harg2.read_unread, harg3.read_unread, harg4.read_unread, harg5.read_unread, harg7.read_unread, harg8.read_unread, harg9.read_unread,
    View.ld_unit_zero (S := S16x4x192x128) hz4, View.ld_unit_zero (S := S16x4x4) hz3, View.ld_unit_zero (S := S16x1) hz2]
  rfl

theorem sout0_A_2_eq (c : Dev nD) (i : grid0.Coords) (arg2 : Memref sig .tc .vmem S16x4x192x128 .f32) (harg2 : arg2.IsWhole) (arg3 : Memref sig .tc .vmem S16x4x192x128 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x4x4 .f32) (harg7 : arg7.IsWhole) (arg8 : Memref sig .tc .vmem S16x4x4 .f32) (harg8 : arg8.IsWhole) (arg9 : Memref sig .tc .vmem S16x4x4 .f32) (harg9 : arg9.IsWhole) (hc0 : cond0_0 i) (hc1 : ¬cond0_1 i) (x0 : Vec F S16x4x192x128 .f32) (x1 : Vec F S16x4x192x128 .f32) (x2 : Vec F S16x1 .f32) (x3 : Vec F S16x1 .f32) :
    sout0_A_2 c i arg2 harg2 arg3 harg3 arg4 harg4 arg5 harg5 arg6 harg6 arg7 harg7 arg8 harg8 arg9 harg9 hc0 hc1 x0 x1 x2 x3 = accSR k0_pay17 x0 x1 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_run_names
  rw [View.canon_cons_unit_zero hz3]
  simp only [View.readCov_unit_zero (S := S16x4x4) arg7.view hz3, View.readCov_unit_zero (S := S16x4x4) arg8.view hz3, View.readCov_unit_zero (S := S16x4x4) arg9.view hz3,
    View.readAt_eq_ld, harg2.read_unread, harg3.read_unread, harg4.read_unread, harg5.read_unread, harg7.read_unread, harg8.read_unread, harg9.read_unread,
    View.ld_unit_zero (S := S16x4x192x128) hz4, View.ld_unit_zero (S := S16x4x4) hz3, View.ld_unit_zero (S := S16x1) hz2]
  rfl

theorem sout0_B_2_eq (c : Dev nD) (i : grid0.Coords) (arg2 : Memref sig .tc .vmem S16x4x192x128 .f32) (harg2 : arg2.IsWhole) (arg3 : Memref sig .tc .vmem S16x4x192x128 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x4x4 .f32) (harg7 : arg7.IsWhole) (arg8 : Memref sig .tc .vmem S16x4x4 .f32) (harg8 : arg8.IsWhole) (arg9 : Memref sig .tc .vmem S16x4x4 .f32) (harg9 : arg9.IsWhole) (hc0 : ¬cond0_0 i) (hc1 : ¬cond0_1 i) (x0 : Vec F S16x4x192x128 .f32) (x1 : Vec F S16x4x192x128 .f32) (x2 : Vec F S16x1 .f32) (x3 : Vec F S16x1 .f32) (xs0 : Vec F S16x4x4 .f32) (xs1 : Vec F S16x4x4 .f32) (xs2 : Vec F S16x4x4 .f32) :
    sout0_B_2 c i arg2 harg2 arg3 harg3 arg4 harg4 arg5 harg5 arg6 harg6 arg7 harg7 arg8 harg8 arg9 harg9 hc0 hc1 x0 x1 x2 x3 xs0 xs1 xs2 = accSR xs2 x0 x1 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_run_names
  rw [View.canon_unit_zero hz3]
  simp only [View.readCov_unit_zero (S := S16x4x4) arg7.view hz3, View.readCov_unit_zero (S := S16x4x4) arg8.view hz3, View.readCov_unit_zero (S := S16x4x4) arg9.view hz3,
    View.readAt_eq_ld, harg2.read_unread, harg3.read_unread, harg4.read_unread, harg5.read_unread, harg7.read_unread, harg8.read_unread, harg9.read_unread,
    View.ld_unit_zero (S := S16x4x192x128) hz4, View.ld_unit_zero (S := S16x4x4) hz3, View.ld_unit_zero (S := S16x1) hz2]
  rfl

theorem sout0_C_2_eq (c : Dev nD) (i : grid0.Coords) (arg2 : Memref sig .tc .vmem S16x4x192x128 .f32) (harg2 : arg2.IsWhole) (arg3 : Memref sig .tc .vmem S16x4x192x128 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x4x4 .f32) (harg7 : arg7.IsWhole) (arg8 : Memref sig .tc .vmem S16x4x4 .f32) (harg8 : arg8.IsWhole) (arg9 : Memref sig .tc .vmem S16x4x4 .f32) (harg9 : arg9.IsWhole) (hc0 : ¬cond0_0 i) (hc1 : cond0_1 i) (x0 : Vec F S16x4x192x128 .f32) (x1 : Vec F S16x4x192x128 .f32) (x2 : Vec F S16x1 .f32) (x3 : Vec F S16x1 .f32) (xs0 : Vec F S16x4x4 .f32) (xs1 : Vec F S16x4x4 .f32) (xs2 : Vec F S16x4x4 .f32) :
    sout0_C_2 c i arg2 harg2 arg3 harg3 arg4 harg4 arg5 harg5 arg6 harg6 arg7 harg7 arg8 harg8 arg9 harg9 hc0 hc1 x0 x1 x2 x3 xs0 xs1 xs2 = accSR xs2 x0 x1 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_run_names
  rw [View.canon_unit_zero hz3]
  simp only [View.readCov_unit_zero (S := S16x4x4) arg7.view hz3, View.readCov_unit_zero (S := S16x4x4) arg8.view hz3, View.readCov_unit_zero (S := S16x4x4) arg9.view hz3,
    View.readAt_eq_ld, harg2.read_unread, harg3.read_unread, harg4.read_unread, harg5.read_unread, harg7.read_unread, harg8.read_unread, harg9.read_unread,
    View.ld_unit_zero (S := S16x4x192x128) hz4, View.ld_unit_zero (S := S16x4x4) hz3, View.ld_unit_zero (S := S16x1) hz2]
  rfl

theorem out0_C_4_eq (c : Dev nD) (i : grid0.Coords) (arg2 : Memref sig .tc .vmem S16x4x192x128 .f32) (harg2 : arg2.IsWhole) (arg3 : Memref sig .tc .vmem S16x4x192x128 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x4x4 .f32) (harg7 : arg7.IsWhole) (arg8 : Memref sig .tc .vmem S16x4x4 .f32) (harg8 : arg8.IsWhole) (arg9 : Memref sig .tc .vmem S16x4x4 .f32) (harg9 : arg9.IsWhole) (hc0 : ¬cond0_0 i) (hc1 : cond0_1 i) (x0 : Vec F S16x4x192x128 .f32) (x1 : Vec F S16x4x192x128 .f32) (x2 : Vec F S16x1 .f32) (x3 : Vec F S16x1 .f32) (xs0 : Vec F S16x4x4 .f32) (xs1 : Vec F S16x4x4 .f32) (xs2 : Vec F S16x4x4 .f32) :
    out0_C_4 c i arg2 harg2 arg3 harg3 arg4 harg4 arg5 harg5 arg6 harg6 arg7 harg7 arg8 harg8 arg9 harg9 hc0 hc1 x0 x1 x2 x3 xs0 xs1 xs2 = epi (accSS xs0 x0) (accRR xs1 x1) (accSR xs2 x0 x1) x2 x3 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_run_names
  rw [View.canon_unit_zero hz2]
  simp only [View.readCov_unit_zero (S := S16x4x4) arg7.view hz3, View.readCov_unit_zero (S := S16x4x4) arg8.view hz3, View.readCov_unit_zero (S := S16x4x4) arg9.view hz3,
    View.readAt_eq_ld, harg2.read_unread, harg3.read_unread, harg4.read_unread, harg5.read_unread, harg7.read_unread, harg8.read_unread, harg9.read_unread,
    View.ld_unit_zero (S := S16x4x192x128) hz4, View.ld_unit_zero (S := S16x4x4) hz3, View.ld_unit_zero (S := S16x1) hz2]
  rfl

end Cert.KernelIdeal.Pieces

end
-- ==== Proof.KChain.lean ====
import proofs.«134037_j72430328480133_2_alg».proof.Proof.KPieces

set_option maxRecDepth 16384

noncomputable section

namespace Cert.KernelIdeal.Chain

open Cert.KernelIdeal Cert.KernelIdeal.Gen Cert.KernelIdeal.Pieces
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ)

/-! What the three accumulators hold after each grid point, one step at a time: at the first point of a row of the grid
    they are the block's Gram sums added to zero, at every other point the block's Gram sums added to what the point
    before left; at the last point of a row the output block is the closing computation of the accumulators as they
    stand after that point. -/
theorem stepA_0 (c : Dev nD) (t : Fin cfg0.N) (h0 : t.val % 8 = 0) (h1 : ¬t.val % 8 = 7) :
    (outsAt0 m c t.val t.isLt).2.1 = accSS k0_pay15 (iblk m c 0 t) := by
  rw [outsAt0_A m c t h0 h1]; dsimp only; rw [sout0_A_0_eq]
theorem stepB_0 (c : Dev nD) (t : Fin cfg0.N) (h0 : ¬t.val % 8 = 0) (h1 : ¬t.val % 8 = 7) :
    (outsAt0 m c t.val t.isLt).2.1 = accSS (outsAt0 m c (t.val - 1) (Nat.lt_of_le_of_lt (Nat.sub_le _ _) t.isLt)).2.1 (iblk m c 0 t) := by
  rw [outsAt0_B m c t h0 h1]; dsimp only; rw [sout0_B_0_eq]
theorem stepC_0 (c : Dev nD) (t : Fin cfg0.N) (h0 : ¬t.val % 8 = 0) (h1 : t.val % 8 = 7) :
    (outsAt0 m c t.val t.isLt).2.1 = accSS (outsAt0 m c (t.val - 1) (Nat.lt_of_le_of_lt (Nat.sub_le _ _) t.isLt)).2.1 (iblk m c 0 t) := by
  rw [outsAt0_C m c t h0 h1]; dsimp only; rw [sout0_C_0_eq]
theorem stepA_1 (c : Dev nD) (t : Fin cfg0.N) (h0 : t.val % 8 = 0) (h1 : ¬t.val % 8 = 7) :
    (outsAt0 m c t.val t.isLt).2.2.1 = accRR k0_pay16 (iblk m c 1 t) := by
  rw [outsAt0_A m c t h0 h1]; dsimp only; rw [sout0_A_1_eq]
theorem stepB_1 (c : Dev nD) (t : Fin cfg0.N) (h0 : ¬t.val % 8 = 0) (h1 : ¬t.val % 8 = 7) :
    (outsAt0 m c t.val t.isLt).2.2.1 = accRR (outsAt0 m c (t.val - 1) (Nat.lt_of_le_of_lt (Nat.sub_le _ _) t.isLt)).2.2.1 (iblk m c 1 t) := by
  rw [outsAt0_B m c t h0 h1]; dsimp only; rw [sout0_B_1_eq]
theorem stepC_1 (c : Dev nD) (t : Fin cfg0.N) (h0 : ¬t.val % 8 = 0) (h1 : t.val % 8 = 7) :
    (outsAt0 m c t.val t.isLt).2.2.1 = accRR (outsAt0 m c (t.val - 1) (Nat.lt_of_le_of_lt (Nat.sub_le _ _) t.isLt)).2.2.1 (iblk m c 1 t) := by
  rw [outsAt0_C m c t h0 h1]; dsimp only; rw [sout0_C_1_eq]
theorem stepA_2 (c : Dev nD) (t : Fin cfg0.N) (h0 : t.val % 8 = 0) (h1 : ¬t.val % 8 = 7) :
    (outsAt0 m c t.val t.isLt).2.2.2 = accSR k0_pay17 (iblk m c 0 t) (iblk m c 1 t) := by
  rw [outsAt0_A m c t h0 h1]; dsimp only; rw [sout0_A_2_eq]
theorem stepB_2 (c : Dev nD) (t : Fin cfg0.N) (h0 : ¬t.val % 8 = 0) (h1 : ¬t.val % 8 = 7) :
    (outsAt0 m c t.val t.isLt).2.2.2 = accSR (outsAt0 m c (t.val - 1) (Nat.lt_of_le_of_lt (Nat.sub_le _ _) t.isLt)).2.2.2 (iblk m c 0 t) (iblk m c 1 t) := by
  rw [outsAt0_B m c t h0 h1]; dsimp only; rw [sout0_B_2_eq]
theorem stepC_2 (c : Dev nD) (t : Fin cfg0.N) (h0 : ¬t.val % 8 = 0) (h1 : t.val % 8 = 7) :
    (outsAt0 m c t.val t.isLt).2.2.2 = accSR (outsAt0 m c (t.val - 1) (Nat.lt_of_le_of_lt (Nat.sub_le _ _) t.isLt)).2.2.2 (iblk m c 0 t) (iblk m c 1 t) := by
  rw [outsAt0_C m c t h0 h1]; dsimp only; rw [sout0_C_2_eq]
theorem outC (c : Dev nD) (t : Fin cfg0.N) (h0 : ¬t.val % 8 = 0) (h1 : t.val % 8 = 7) :
    (outsAt0 m c t.val t.isLt).1
      = epi (outsAt0 m c t.val t.isLt).2.1 (outsAt0 m c t.val t.isLt).2.2.1 (outsAt0 m c t.val t.isLt).2.2.2 (iblk m c 2 t) (iblk m c 3 t) := by
  rw [stepC_0 m c t h0 h1, stepC_1 m c t h0 h1, stepC_2 m c t h0 h1, outsAt0_C m c t h0 h1]; dsimp only; rw [out0_C_4_eq]

end Cert.KernelIdeal.Chain

end
-- ==== Proof.LibRank3.lean ====
/-
  Rank-3 arrays of extended reals read at an entry, for any literal sizes a, b, c.

  • Layout: an a × b × c array viewed as an (a·b) × c matrix, and back: row p·b + r of the matrix is row r of slab p;
    an a × b matrix viewed as a × b × 1; an a × b × 1 array stretched to a × b × c reads (p, r, 0) at every (p, r, k);
    the entries off, off + 1, … of the last axis, cut out, read at (p, r, q) the entry (p, r, q + off).
  • Reductions along the last axis: the sum is, at (p, r), the sum over k of the entries (p, r, k); the maximum from a
    starting word is the fold of `max` from that word's value over the same entries.
  • Reductions along the middle axis: the same with the entries (p, k, r).
-/
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-! ## Layout -/

/-- An a × b × c array cast to m × c with m = a·b reads, at (q, k) with q = p·b + r, the entry (p, r, k). -/
theorem shapeCast_abc_mc_apply {a b c m : ℕ} (x : (⟨3, ![a, b, c]⟩ : Shape).Idx → α)
    (h : (⟨3, ![a, b, c]⟩ : Shape).ShapeCasts ⟨2, ![m, c]⟩) (p : Fin a) (r : Fin b) (k : Fin c) (q : Fin m)
    (hq : q.val = p.val * b + r.val) : shapeCast ⟨2, ![m, c]⟩ x h (ix2 q k) = x (ix3 p r k) :=
  shapeCast_apply x h _ _ (by
    rw [Shape.rowMajor_val_three, Shape.rowMajor_val_two]
    show (p.val * b + r.val) * c + k.val = q.val * c + k.val
    rw [hq])

/-- An m × c matrix with m = a·b cast to a × b × c reads, at (p, r, k), the entry (p·b + r, k). -/
theorem shapeCast_mc_abc_apply {a b c m : ℕ} (x : (⟨2, ![m, c]⟩ : Shape).Idx → α)
    (h : (⟨2, ![m, c]⟩ : Shape).ShapeCasts ⟨3, ![a, b, c]⟩) (p : Fin a) (r : Fin b) (k : Fin c) (q : Fin m)
    (hq : q.val = p.val * b + r.val) : shapeCast ⟨3, ![a, b, c]⟩ x h (ix3 p r k) = x (ix2 q k) :=
  shapeCast_apply x h _ _ (by
    rw [Shape.rowMajor_val_three, Shape.rowMajor_val_two]
    show q.val * c + k.val = (p.val * b + r.val) * c + k.val
    rw [hq])

/-- An a × b matrix cast to a × b × 1 reads, at (p, r, u), the entry (p, r). -/
theorem shapeCast_ab_ab1_apply {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_three, Shape.rowMajor_val_two]
    show p.val * b + r.val = (p.val * b + r.val) * 1 + u.val
    rw [hu, Nat.mul_one, Nat.add_zero])

/-- An a × b × 1 array broadcast to a × b × c reads, at (p, r, k), the entry (p, r, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (r : Fin b) (k : Fin c) :
    broadcastTo ⟨3, ![a, b, c]⟩ v h (ix3 p r k) = v (ix3 p r (0 : Fin 1)) := by
  refine broadcastTo_apply v h (ix3 p r k) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- Entries off … off + c' − 1 of the last axis of an a × b × c array: entry (p, r, q) of the cut is entry
    (p, r, q + off) of the array. -/
theorem slice_last_apply {a b c c' : ℕ} (off : ℕ) (x : (⟨3, ![a, b, c]⟩ : Shape).Idx → α)
    (h : (⟨3, ![a, b, c]⟩ : Shape).Slices ![0, 0, off] ⟨3, ![a, b, c']⟩) (p : Fin a) (r : Fin b) (q : Fin c') (k : Fin c)
    (hk : k.val = off + q.val) :
    extractStridedSlice ⟨3, ![a, b, c']⟩ ![0, 0, off] x h (ix3 p r q) = x (ix3 p r k) := by
  refine extractStridedSlice_apply ![0, 0, off] x h (ix3 p r q) (ix3 p r k) fun ax => ?_
  match ax with
  | ⟨0, _⟩ => exact (Nat.zero_add p.val).symm
  | ⟨1, _⟩ => exact (Nat.zero_add r.val).symm
  | ⟨2, _⟩ => exact hk

/-! ## Reductions along the last axis -/

/-- (p, r) with coordinate k inserted on the last axis is (p, r, k). -/
theorem lift_last {a b c : ℕ} (h : (⟨3, ![a, b, c]⟩ : Shape).Reduces [2] ⟨2, ![a, b]⟩) (p : Fin a) (r : Fin b) (k : Fin c) :
    h.lift (ix2 p r) k = ix3 p r k := by
  funext ax; apply Fin.ext
  match ax with
  | ⟨0, _⟩ => rfl
  | ⟨1, _⟩ => rfl
  | ⟨2, _⟩ => rfl

/-- The sum over the last axis, at (p, r): the sum over k of the entries (p, r, k). -/
theorem lastSum_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (r : Fin b) :
    multiReduction .add [2] ⟨2, ![a, b]⟩ src acc h hφ hacc (ix2 p r) = ∑ k : Fin c, src (ix3 p r k) :=
  (Ideal.multiReduction_add_single src acc h hφ hacc (ix2 p r)).trans
    (Finset.sum_congr rfl fun k _ => congrArg src (lift_last h p r k))

/-- The maximum over the last axis from a starting word, at (p, r): the fold of `max` from the word's value over the
    entries (p, r, k). -/
theorem lastMax_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (p : Fin a) (r : Fin b) :
    multiReduction .maximumf [2] ⟨2, ![a, b]⟩ src acc h hφ hacc (ix2 p r)
      = (Finset.univ : Finset (Fin c)).fold max (Ideal.ofBits φ acc) (fun k => src (ix3 p r k)) :=
  (Ideal.multiReduction_maximumf_single src acc h hφ hacc (ix2 p r)).trans
    (congrArg (fun f : Fin c → EReal => (Finset.univ : Finset (Fin c)).fold max (Ideal.ofBits φ acc) f)
      (funext fun k => congrArg src (lift_last h p r k)))

/-! ## Reductions along the middle axis -/

/-- (p, r) with coordinate k inserted on the middle axis is (p, k, r). -/
theorem lift_mid {a b c : ℕ} (h : (⟨3, ![a, b, c]⟩ : Shape).Reduces [1] ⟨2, ![a, c]⟩) (p : Fin a) (r : Fin c) (k : Fin b) :
    h.lift (ix2 p r) k = ix3 p k r := by
  funext ax; apply Fin.ext
  match ax with
  | ⟨0, _⟩ => rfl
  | ⟨1, _⟩ => rfl
  | ⟨2, _⟩ => rfl

/-- The sum over the middle axis, at (p, r): the sum over k of the entries (p, k, r). -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) :=
  (Ideal.multiReduction_add_single src acc h hφ hacc (ix2 p r)).trans
    (Finset.sum_congr rfl fun k _ => congrArg src (lift_mid h p r k))

/-- The maximum over the middle axis from a starting word, at (p, r): the fold of `max` over the entries (p, k, r). -/
theorem midMax_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (p : Fin a) (r : Fin c) :
    multiReduction .maximumf [1] ⟨2, ![a, c]⟩ src acc h hφ hacc (ix2 p r)
      = (Finset.univ : Finset (Fin b)).fold max (Ideal.ofBits φ acc) (fun k => src (ix3 p k r)) :=
  (Ideal.multiReduction_maximumf_single src acc h hφ hacc (ix2 p r)).trans
    (congrArg (fun f : Fin b → EReal => (Finset.univ : Finset (Fin b)).fold max (Ideal.ofBits φ acc) f)
      (funext fun k => congrArg src (lift_mid h p r k)))

end Cert.LibRank3

end
-- ==== Proof.LibRowOps.lean ====
/-
  Rows of a matrix, at the exact extended-real reading of the float operations.

  • Layout: a length-a vector viewed as an a × 1 column reads entry i at (i, 0); an a × 1 column broadcast along its
    rows to a × b reads (i, 0) at every (i, c); a 1 × 1 × a × b block viewed as an a × b matrix, and back.
  • Reductions along a row: the sum of an a × b matrix over its second axis is, at row r, the sum over k < b of the
    entries (r, k); its maximum from a starting value is the fold of `max` over the same entries.
  • The same for the last axis of a rank-4 array reduced on the host: at (x, y, z) the fold, from the initial value,
    over k of the entries (x, y, z, k).
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

variable {α : Type}

/-! ## Layout -/

/-- A length-a vector cast to an a × 1 column reads, at (i, u), entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column's entry (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 1 × 1 × a × b block cast to an a × b matrix reads, at (i, j), the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An a × b matrix cast to a 1 × 1 × a × b block reads, at (u, w, i, j), the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_two, Shape.rowMajor_val_four]
    show i.val * b + j.val = ((u.val * 1 + w.val) * a + i.val) * b + j.val
    rw [hu, hw]
    simp only [Nat.zero_mul, Nat.zero_add])

/-! ## Reductions along the rows of a matrix -/

/-- Row r of the matrix with coordinate k inserted on the reduced axis is the entry (r, k). -/
theorem lift_row {a b : ℕ} (h : (⟨2, ![a, b]⟩ : Shape).Reduces [1] ⟨1, ![a]⟩) (r : Fin a) (k : Fin b) :
    h.lift (ix1 r) k = ix2 r k := by
  funext c; apply Fin.ext
  match c with
  | ⟨0, _⟩ => rfl
  | ⟨1, _⟩ => rfl

/-- The sum of a matrix over its second axis, at row r: the sum over k of the entries (r, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum of a matrix over its second axis, at row r: the fold of `max`, from the starting word's value, over
    the entries (r, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f : Fin b → EReal => (Finset.univ : Finset (Fin b)).fold max (Ideal.ofBits φ acc) f)
      (funext fun k => congrArg src (lift_row h r k)))

/-! ## A host reduction along the last axis of a rank-4 array -/

/-- (x, y, z) with coordinate k inserted on the last axis is (x, y, z, k). -/
theorem lift_last4 {n0 n1 n2 n3 : ℕ} (h : (⟨4, ![n0, n1, n2, n3]⟩ : Shape).Reduces [3] ⟨3, ![n0, n1, n2]⟩)
    (x : Fin n0) (y : Fin n1) (z : Fin n2) (k : Fin n3) : h.lift (ix3 x y z) k = ix4 x y z k := by
  funext c; apply Fin.ext
  match c with
  | ⟨0, _⟩ => rfl
  | ⟨1, _⟩ => rfl
  | ⟨2, _⟩ => rfl
  | ⟨3, _⟩ => rfl

/-- A host reduction by `max` along the last axis of a rank-4 array, at (x, y, z): the fold of `max`, from the initial
    value, over the entries (x, y, z, k). -/
theorem hostMax_last4_apply {n0 n1 n2 n3 : ℕ} {u : Shape} (src : (⟨4, ![n0, n1, n2, n3]⟩ : Shape).Idx → EReal) (init : u.Idx → EReal)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel)
    (x : Fin n0) (y : Fin n1) (z : Fin n2) :
    Host.reduce (max : EReal → EReal → EReal) src init h' hu (ix3 x y z)
      = (Finset.univ : Finset (Fin n3)).fold max (init (Shape.Idx.first hu)) (fun k => src (ix4 x y z k)) :=
  (Host.reduce_eq_fold_single (max : EReal → EReal → EReal) src init h' h hu (ix3 x y z)).trans
    (congrArg (fun f : Fin n3 → EReal => (Finset.univ : Finset (Fin n3)).fold max (init (Shape.Idx.first hu)) f)
      (funext fun k => congrArg src (lift_last4 h x y z k)))

end Cert.LibRowOps

end
-- ==== Proof.LibStack.lean ====
/-
  Reading small stacked arrays at an entry, for any element type and any leading extent a.

  • An a×n×b×c array cut at position k of its second axis (an a×1×b×c slab) and the slab cast to a×b×c read, at (p, s, l),
    the entry (p, k, s, l).
  • Four a×1 columns laid side by side form an a×4 matrix whose entry (p, q) is entry (p, 0) of column q; four a×1×4 rows
    stacked along the middle axis form an a×4×4 array whose entry (p, q, r) is entry (p, 0, r) of row q.
  • An a×b matrix cast to a×1×b reads, at (p, 0, r), the entry (p, r).
  • A length-a vector cast to a×1×1, an a×1 column cast back to a vector, an a×1×1 or a×1×c array broadcast to a×b×c, and
    the entry (k, k') of every a-th slice of an a×b×c array taken out as a vector, each read at an entry.
  • At the exact extended reals, the sum over the last axis and then over the remaining axis of the entrywise product of two
    a×b×c arrays is, at row p, the double sum over (s, l) of the products of the entries (p, s, l).
-/
import Idealize.ShloMosaic.Lib.Pipeline.Value
import Idealize.ShloMosaic.Lib.ValueIdx
import Idealize.ShloMosaic.PureOps.Ideal.Laws
import proofs.«134037_j72430328480133_2_alg».proof.Proof.LibRank3
import proofs.«134037_j72430328480133_2_alg».proof.Proof.LibRowOps

noncomputable section

namespace Cert.LibStack

open Idealize.ShloMosaic Idealize.ShloMosaic.ValueIdx

variable {α : Type}

/-- The slab at position k of the second axis, at (p, 0, s, l). -/
theorem slab_apply {a n b c : ℕ} (k : ℕ) (x : (⟨4, ![a, n, b, c]⟩ : Shape).Idx → α)
    (h : (⟨4, ![a, n, b, c]⟩ : Shape).Slices ![0, k, 0, 0] ⟨4, ![a, 1, b, c]⟩) (p : Fin a) (u : Fin 1) (s : Fin b) (l : Fin c)
    (q : Fin n) (hq : q.val = k) :
    extractStridedSlice ⟨4, ![a, 1, b, c]⟩ ![0, k, 0, 0] x h (ix4 p u s l) = x (ix4 p q s l) := by
  refine extractStridedSlice_apply ![0, k, 0, 0] x h (ix4 p u s l) (ix4 p q s l) fun ax => ?_
  match ax with
  | ⟨0, _⟩ => exact (Nat.zero_add p.val).symm
  | ⟨1, _⟩ => show q.val = k + u.val; omega
  | ⟨2, _⟩ => exact (Nat.zero_add s.val).symm
  | ⟨3, _⟩ => exact (Nat.zero_add l.val).symm

/-- An a×1×b×c array cast to a×b×c, at (p, s, l). -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (s : Fin b) (l : Fin c) :
    shapeCast ⟨3, ![a, b, c]⟩ x h (ix3 p s l) = x (ix4 p (0 : Fin 1) s l) :=
  shapeCast_apply x h _ _ (by
    rw [Shape.rowMajor_val_four, Shape.rowMajor_val_three]
    show ((p.val * 1 + 0) * b + s.val) * c + l.val = (p.val * b + s.val) * c + l.val
    rw [Nat.mul_one, Nat.add_zero])

/-- The slab at position k cast to a×b×c, at (p, s, l): the entry (p, k, s, l). -/
theorem slabCast_apply {a n b c : ℕ} (k : ℕ) (x : (⟨4, ![a, n, b, c]⟩ : Shape).Idx → α)
    (h : (⟨4, ![a, n, b, c]⟩ : Shape).Slices ![0, k, 0, 0] ⟨4, ![a, 1, b, c]⟩)
    (hc : (⟨4, ![a, 1, b, c]⟩ : Shape).ShapeCasts ⟨3, ![a, b, c]⟩) (p : Fin a) (s : Fin b) (l : Fin c) (q : Fin n) (hq : q.val = k) :
    shapeCast ⟨3, ![a, b, c]⟩ (extractStridedSlice ⟨4, ![a, 1, b, c]⟩ ![0, k, 0, 0] x h) hc (ix3 p s l) = x (ix4 p q s l) :=
  (shapeCast_a1bc_abc_apply _ hc p s l).trans (slab_apply k x h p 0 s l q hq)

/-- An a×b matrix cast to a×1×b, at (p, 0, r). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (r : Fin b) :
    shapeCast ⟨3, ![a, 1, b]⟩ x h (ix3 p u r) = x (ix2 p r) :=
  shapeCast_apply x h _ _ (by
    have hu : u.val = 0 := by omega
    rw [Shape.rowMajor_val_two, Shape.rowMajor_val_three]
    show p.val * b + r.val = (p.val * 1 + u.val) * b + r.val
    rw [hu, Nat.mul_one, Nat.add_zero])

/-- Four a×1 columns side by side, at (p, q): column q at (p, 0). -/
theorem cat_cols_apply {a : ℕ} (v0 v1 v2 v3 : (⟨2, ![a, 1]⟩ : Shape).Idx → α)
    (h : Shape.Concatenates (([⟨⟨2, ![a, 1]⟩, v0⟩, ⟨⟨2, ![a, 1]⟩, v1⟩, ⟨⟨2, ![a, 1]⟩, v2⟩, ⟨⟨2, ![a, 1]⟩, v3⟩] :
      List ((s : Shape) × (s.Idx → α))).map (·.1)) ⟨2, ![a, 4]⟩ 1) (p : Fin a) (q : Fin 4) :
    concatenate ⟨2, ![a, 4]⟩ 1 [⟨⟨2, ![a, 1]⟩, v0⟩, ⟨⟨2, ![a, 1]⟩, v1⟩, ⟨⟨2, ![a, 1]⟩, v2⟩, ⟨⟨2, ![a, 1]⟩, v3⟩] h (ix2 p q)
      = (![v0, v1, v2, v3] q) (ix2 p (0 : Fin 1)) := by
  have hi : ∀ b : Fin 2, b.cast (rfl : (2 : ℕ) = 2) ≠ (1 : Fin 2) → ((ix2 p (0 : Fin 1) : (⟨2, ![a, 1]⟩ : Shape).Idx) b).val = ((ix2 p q : (⟨2, ![a, 4]⟩ : Shape).Idx) (b.cast rfl)).val := by
    intro b hb
    match b with
    | ⟨0, _⟩ => rfl
    | ⟨1, _⟩ => exact absurd rfl hb
  match q with
  | ⟨0, _⟩ => exact concatenate_apply_piece 1 _ h _ 0 (by show 0 < 4; decide) ⟨2, ![a, 1]⟩ v0 rfl rfl 0 rfl (ix2 p 0) hi rfl
  | ⟨1, _⟩ => exact concatenate_apply_piece 1 _ h _ 1 (by show 1 < 4; decide) ⟨2, ![a, 1]⟩ v1 rfl rfl 1 rfl (ix2 p 0) hi rfl
  | ⟨2, _⟩ => exact concatenate_apply_piece 1 _ h _ 2 (by show 2 < 4; decide) ⟨2, ![a, 1]⟩ v2 rfl rfl 2 rfl (ix2 p 0) hi rfl
  | ⟨3, _⟩ => exact concatenate_apply_piece 1 _ h _ 3 (by show 3 < 4; decide) ⟨2, ![a, 1]⟩ v3 rfl rfl 3 rfl (ix2 p 0) hi rfl

/-- Four a×1×4 rows stacked along the middle axis, at (p, q, r): row q at (p, 0, r). -/
theorem cat_rows_apply {a : ℕ} (v0 v1 v2 v3 : (⟨3, ![a, 1, 4]⟩ : Shape).Idx → α)
    (h : Shape.Concatenates (([⟨⟨3, ![a, 1, 4]⟩, v0⟩, ⟨⟨3, ![a, 1, 4]⟩, v1⟩, ⟨⟨3, ![a, 1, 4]⟩, v2⟩, ⟨⟨3, ![a, 1, 4]⟩, v3⟩] :
      List ((s : Shape) × (s.Idx → α))).map (·.1)) ⟨3, ![a, 4, 4]⟩ 1) (p : Fin a) (q r : Fin 4) :
    concatenate ⟨3, ![a, 4, 4]⟩ 1 [⟨⟨3, ![a, 1, 4]⟩, v0⟩, ⟨⟨3, ![a, 1, 4]⟩, v1⟩, ⟨⟨3, ![a, 1, 4]⟩, v2⟩, ⟨⟨3, ![a, 1, 4]⟩, v3⟩] h (ix3 p q r)
      = (![v0, v1, v2, v3] q) (ix3 p (0 : Fin 1) r) := by
  have hi : ∀ b : Fin 3, b.cast (rfl : (3 : ℕ) = 3) ≠ (1 : Fin 3) → ((ix3 p (0 : Fin 1) r : (⟨3, ![a, 1, 4]⟩ : Shape).Idx) b).val = ((ix3 p q r : (⟨3, ![a, 4, 4]⟩ : Shape).Idx) (b.cast rfl)).val := by
    intro b hb
    match b with
    | ⟨0, _⟩ => rfl
    | ⟨1, _⟩ => exact absurd rfl hb
    | ⟨2, _⟩ => rfl
  match q with
  | ⟨0, _⟩ => exact concatenate_apply_piece 1 _ h _ 0 (by show 0 < 4; decide) ⟨3, ![a, 1, 4]⟩ v0 rfl rfl 0 rfl (ix3 p 0 r) hi rfl
  | ⟨1, _⟩ => exact concatenate_apply_piece 1 _ h _ 1 (by show 1 < 4; decide) ⟨3, ![a, 1, 4]⟩ v1 rfl rfl 1 rfl (ix3 p 0 r) hi rfl
  | ⟨2, _⟩ => exact concatenate_apply_piece 1 _ h _ 2 (by show 2 < 4; decide) ⟨3, ![a, 1, 4]⟩ v2 rfl rfl 2 rfl (ix3 p 0 r) hi rfl
  | ⟨3, _⟩ => exact concatenate_apply_piece 1 _ h _ 3 (by show 3 < 4; decide) ⟨3, ![a, 1, 4]⟩ v3 rfl rfl 3 rfl (ix3 p 0 r) hi rfl

/-- Lanes first, then the remaining axis: the sum of the entrywise product of two a×b×c arrays at row p. -/
theorem pairSum_apply {a b c : ℕ} (u v : FVec Ideal ⟨3, ![a, b, c]⟩ .f32) (acc₁ acc₂ : BitVec 32)
    (h₁ : (⟨3, ![a, b, c]⟩ : Shape).Reduces [2] ⟨2, ![a, b]⟩) (h₂ : (⟨2, ![a, b]⟩ : Shape).Reduces [1] ⟨1, ![a]⟩)
    (hφ : FKind.Formats .f32) (hacc₁ : acc₁ = FKind.add.neutral .f32 hφ) (hacc₂ : acc₂ = FKind.add.neutral .f32 hφ) (p : Fin a) :
    multiReduction .add [1] ⟨1, ![a]⟩ (multiReduction .add [2] ⟨2, ![a, b]⟩ (mulf u v) acc₁ h₁ hφ hacc₁) acc₂ h₂ hφ hacc₂ (ix1 p)
      = ∑ s : Fin b, ∑ l : Fin c, u (ix3 p s l) * v (ix3 p s l) :=
  (Cert.LibRowOps.rowSum_apply _ acc₂ h₂ hφ hacc₂ p).trans
    (Finset.sum_congr rfl fun s _ => Cert.LibRank3.lastSum_apply _ acc₁ h₁ hφ hacc₁ p s)

/-- A length-a vector cast to a×1×1, at (p, 0, 0). -/
theorem shapeCast_a_a11_apply {a : ℕ} (x : (⟨1, ![a]⟩ : Shape).Idx → α) (h : (⟨1, ![a]⟩ : Shape).ShapeCasts ⟨3, ![a, 1, 1]⟩)
    (p : Fin a) (u w : Fin 1) : shapeCast ⟨3, ![a, 1, 1]⟩ x h (ix3 p u w) = x (ix1 p) :=
  shapeCast_apply x h _ _ (by
    have hu : u.val = 0 := by omega
    have hw : w.val = 0 := by omega
    rw [Shape.rowMajor_val_three, Shape.rowMajor_val_one]
    show p.val = (p.val * 1 + u.val) * 1 + w.val
    rw [hu, hw]; omega)

/-- An a×1 column cast to a length-a vector, at p. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- An a×1×1 array broadcast to a×b×c, at (p, q, r). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- An a×1×c array broadcast to a×b×c, at (p, q, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- The entry (k, k') of each a-th 2-dimensional slice, as a length-a vector, at p. -/
theorem corner_apply {a b c : ℕ} (k k' : ℕ) (x : (⟨3, ![a, b, c]⟩ : Shape).Idx → α)
    (h : (⟨3, ![a, b, c]⟩ : Shape).Slices ![0, k, k'] ⟨3, ![a, 1, 1]⟩) (hc : (⟨3, ![a, 1, 1]⟩ : Shape).ShapeCasts ⟨1, ![a]⟩)
    (p : Fin a) (q : Fin b) (q' : Fin c) (hq : q.val = k) (hq' : q'.val = k') :
    shapeCast ⟨1, ![a]⟩ (extractStridedSlice ⟨3, ![a, 1, 1]⟩ ![0, k, k'] x h) hc (ix1 p) = x (ix3 p q q') := by
  refine (shapeCast_apply _ hc (ix1 p) (ix3 p (0 : Fin 1) (0 : Fin 1)) (by
    rw [Shape.rowMajor_val_three, Shape.rowMajor_val_one]
    show (p.val * 1 + 0) * 1 + 0 = p.val
    omega)).trans ?_
  refine extractStridedSlice_apply ![0, k, k'] x h (ix3 p (0 : Fin 1) (0 : Fin 1)) (ix3 p q q') fun ax => ?_
  match ax with
  | ⟨0, _⟩ => exact (Nat.zero_add p.val).symm
  | ⟨1, _⟩ => show q.val = k + 0; omega
  | ⟨2, _⟩ => show q'.val = k' + 0; omega

end Cert.LibStack

end
-- ==== Proof.KGram.lean ====
/-
  The accumulator updates read at an entry, at the exact extended reals: entry (b, i, j) of an updated accumulator is the old
  entry plus the Gram sum of the current block, the sum over its 192×128 positions of row i of one input times row j of
  the other.  For an input against itself the body computes each unordered pair once and uses it for both (i, j) and
  (j, i); the two readings agree because multiplication of extended reals is commutative.
-/
import proofs.«134037_j72430328480133_2_alg».proof.Proof.KPieces
import proofs.«134037_j72430328480133_2_alg».proof.Proof.LibStack

set_option maxRecDepth 16384

noncomputable section

namespace Cert.KernelIdeal.Gram

open Cert.KernelIdeal Cert.KernelIdeal.Gen Cert.KernelIdeal.Pieces
open Idealize.ShloMosaic Idealize.ShloMosaic.ValueIdx

/-- The Gram sum of one block: over its 192×128 positions, row i of x against row j of y. -/
def tile (x y : Vec Ideal S16x4x192x128 .f32) (b : Fin 16) (i j : Fin 4) : EReal :=
  ∑ s : Fin 192, ∑ l : Fin 128, x (ix4 b i s l) * y (ix4 b j s l)

theorem slab0 (x : Vec Ideal S16x4x192x128 .f32) (h hc) (p : Fin 16) (s : Fin 192) (l : Fin 128) :
    shapeCast S16x192x128 (extractStridedSlice S16x1x192x128 ![0, 0, 0, 0] x h) hc (ix3 p s l) = x (ix4 p 0 s l) :=
  Cert.LibStack.slabCast_apply 0 x h hc p s l 0 rfl
theorem slab1 (x : Vec Ideal S16x4x192x128 .f32) (h hc) (p : Fin 16) (s : Fin 192) (l : Fin 128) :
    shapeCast S16x192x128 (extractStridedSlice S16x1x192x128 ![0, 1, 0, 0] x h) hc (ix3 p s l) = x (ix4 p 1 s l) :=
  Cert.LibStack.slabCast_apply 1 x h hc p s l 1 rfl
theorem slab2 (x : Vec Ideal S16x4x192x128 .f32) (h hc) (p : Fin 16) (s : Fin 192) (l : Fin 128) :
    shapeCast S16x192x128 (extractStridedSlice S16x1x192x128 ![0, 2, 0, 0] x h) hc (ix3 p s l) = x (ix4 p 2 s l) :=
  Cert.LibStack.slabCast_apply 2 x h hc p s l 2 rfl
theorem slab3 (x : Vec Ideal S16x4x192x128 .f32) (h hc) (p : Fin 16) (s : Fin 192) (l : Fin 128) :
    shapeCast S16x192x128 (extractStridedSlice S16x1x192x128 ![0, 3, 0, 0] x h) hc (ix3 p s l) = x (ix4 p 3 s l) :=
  Cert.LibStack.slabCast_apply 3 x h hc p s l 3 rfl

theorem vec4_0 {β : Type} (a b c d : β) (h) : ![a, b, c, d] ⟨0, h⟩ = a := rfl
theorem vec4_1 {β : Type} (a b c d : β) (h) : ![a, b, c, d] ⟨1, h⟩ = b := rfl
theorem vec4_2 {β : Type} (a b c d : β) (h) : ![a, b, c, d] ⟨2, h⟩ = c := rfl
theorem vec4_3 {β : Type} (a b c d : β) (h) : ![a, b, c, d] ⟨3, h⟩ = d := rfl

/-- The double sum of a product of two 16×192×128 arrays, in the spelling the kernel body uses (zero words as the sums' starts). -/
theorem pairSum0_apply (u v : FVec Ideal S16x192x128 .f32) (h₁ : S16x192x128.Reduces [2] S16x192) (h₂ : S16x192.Reduces [1] S16)
    (hacc₁ hacc₂ : (0x00000000#32 : BitVec 32) = 0x00000000#32) (p : Fin 16) :
    multiReduction .add [1] S16 (multiReduction .add [2] S16x192 (mulf u v) 0x00000000#32 h₁ (.inl rfl) hacc₁) 0x00000000#32 h₂ (.inl rfl) hacc₂ (ix1 p)
      = ∑ s : Fin 192, ∑ l : Fin 128, u (ix3 p s l) * v (ix3 p s l) :=
  Cert.LibStack.pairSum_apply u v _ _ h₁ h₂ (.inl rfl) hacc₁ hacc₂ p

theorem slabAny (x : Vec Ideal S16x4x192x128 .f32) (k : Fin 4) (h : S16x4x192x128.Slices ![0, k.val, 0, 0] S16x1x192x128)
    (hc : S16x1x192x128.ShapeCasts S16x192x128) (p : Fin 16) (s : Fin 192) (l : Fin 128) :
    shapeCast S16x192x128 (extractStridedSlice S16x1x192x128 ![0, k.val, 0, 0] x h) hc (ix3 p s l) = x (ix4 p k s l) :=
  Cert.LibStack.slabCast_apply k.val x h hc p s l k rfl

theorem accSS_apply (xs0 : Vec Ideal S16x4x4 .f32) (x0 : Vec Ideal S16x4x192x128 .f32) (b : Fin 16) (i j : Fin 4) :
    accSS (F := Ideal) xs0 x0 (ix3 b i j) = xs0 (ix3 b i j) + tile x0 x0 b i j := by
  unfold accSS k0_pay71
  try dsimp only
  rw [shapeCast_self]
  show xs0 (ix3 b i j) + _ = _
  congr 1
  rw [Cert.LibStack.cat_rows_apply]
  rcases i with ⟨i, hi⟩; rcases j with ⟨j, hj⟩
  interval_cases i <;> interval_cases j
  all_goals
    (simp only [vec4_0, vec4_1, vec4_2, vec4_3, Cert.LibStack.shapeCast_ab_a1b_apply, Cert.LibStack.cat_cols_apply, Cert.LibRowOps.shapeCast_a_a1_apply,
      k0_pay67, k0_pay68, k0_pay69, k0_pay70, k0_pay28, k0_pay30, k0_pay32, k0_pay33, k0_pay35, k0_pay37, k0_pay39, k0_pay41, k0_pay43, k0_pay45, k0_pay46, k0_pay48, k0_pay18, k0_pay19, k0_pay20, k0_pay21, k0_pay22, k0_pay23, shapeCast_self, tile]
     refine (pairSum0_apply _ _ _ _ _ _ b).trans (Finset.sum_congr rfl fun s _ => Finset.sum_congr rfl fun l _ => ?_))
  · exact congrArg₂ (· * ·) (slabAny _ (⟨0, by decide⟩ : Fin 4) _ _ b s l) (slabAny _ (⟨0, by decide⟩ : Fin 4) _ _ b s l)
  · exact congrArg₂ (· * ·) (slabAny _ (⟨0, by decide⟩ : Fin 4) _ _ b s l) (slabAny _ (⟨1, by decide⟩ : Fin 4) _ _ b s l)
  · exact congrArg₂ (· * ·) (slabAny _ (⟨0, by decide⟩ : Fin 4) _ _ b s l) (slabAny _ (⟨2, by decide⟩ : Fin 4) _ _ b s l)
  · exact congrArg₂ (· * ·) (slabAny _ (⟨0, by decide⟩ : Fin 4) _ _ b s l) (slabAny _ (⟨3, by decide⟩ : Fin 4) _ _ b s l)
  · exact (mul_comm (_ : EReal) _).trans (congrArg₂ (· * ·) (slabAny _ (⟨1, by decide⟩ : Fin 4) _ _ b s l) (slabAny _ (⟨0, by decide⟩ : Fin 4) _ _ b s l))
  · exact congrArg₂ (· * ·) (slabAny _ (⟨1, by decide⟩ : Fin 4) _ _ b s l) (slabAny _ (⟨1, by decide⟩ : Fin 4) _ _ b s l)
  · exact congrArg₂ (· * ·) (slabAny _ (⟨1, by decide⟩ : Fin 4) _ _ b s l) (slabAny _ (⟨2, by decide⟩ : Fin 4) _ _ b s l)
  · exact congrArg₂ (· * ·) (slabAny _ (⟨1, by decide⟩ : Fin 4) _ _ b s l) (slabAny _ (⟨3, by decide⟩ : Fin 4) _ _ b s l)
  · exact (mul_comm (_ : EReal) _).trans (congrArg₂ (· * ·) (slabAny _ (⟨2, by decide⟩ : Fin 4) _ _ b s l) (slabAny _ (⟨0, by decide⟩ : Fin 4) _ _ b s l))
  · exact (mul_comm (_ : EReal) _).trans (congrArg₂ (· * ·) (slabAny _ (⟨2, by decide⟩ : Fin 4) _ _ b s l) (slabAny _ (⟨1, by decide⟩ : Fin 4) _ _ b s l))
  · exact congrArg₂ (· * ·) (slabAny _ (⟨2, by decide⟩ : Fin 4) _ _ b s l) (slabAny _ (⟨2, by decide⟩ : Fin 4) _ _ b s l)
  · exact congrArg₂ (· * ·) (slabAny _ (⟨2, by decide⟩ : Fin 4) _ _ b s l) (slabAny _ (⟨3, by decide⟩ : Fin 4) _ _ b s l)
  · exact (mul_comm (_ : EReal) _).trans (congrArg₂ (· * ·) (slabAny _ (⟨3, by decide⟩ : Fin 4) _ _ b s l) (slabAny _ (⟨0, by decide⟩ : Fin 4) _ _ b s l))
  · exact (mul_comm (_ : EReal) _).trans (congrArg₂ (· * ·) (slabAny _ (⟨3, by decide⟩ : Fin 4) _ _ b s l) (slabAny _ (⟨1, by decide⟩ : Fin 4) _ _ b s l))
  · exact (mul_comm (_ : EReal) _).trans (congrArg₂ (· * ·) (slabAny _ (⟨3, by decide⟩ : Fin 4) _ _ b s l) (slabAny _ (⟨2, by decide⟩ : Fin 4) _ _ b s l))
  · exact congrArg₂ (· * ·) (slabAny _ (⟨3, by decide⟩ : Fin 4) _ _ b s l) (slabAny _ (⟨3, by decide⟩ : Fin 4) _ _ b s l)

theorem accRR_apply (xs1 : Vec Ideal S16x4x4 .f32) (x1 : Vec Ideal S16x4x192x128 .f32) (b : Fin 16) (i j : Fin 4) :
    accRR (F := Ideal) xs1 x1 (ix3 b i j) = xs1 (ix3 b i j) + tile x1 x1 b i j := by
  unfold accRR k0_pay72
  try dsimp only
  rw [shapeCast_self]
  show xs1 (ix3 b i j) + _ = _
  congr 1
  rw [Cert.LibStack.cat_rows_apply]
  rcases i with ⟨i, hi⟩; rcases j with ⟨j, hj⟩
  interval_cases i <;> interval_cases j
  all_goals
    (simp only [vec4_0, vec4_1, vec4_2, vec4_3, Cert.LibStack.shapeCast_ab_a1b_apply, Cert.LibStack.cat_cols_apply, Cert.LibRowOps.shapeCast_a_a1_apply,
      k0_pay29, k0_pay31, k0_pay34, k0_pay36, k0_pay38, k0_pay40, k0_pay42, k0_pay44, k0_pay47, k0_pay49, k0_pay18, k0_pay19, k0_pay24, k0_pay25, k0_pay26, k0_pay27, shapeCast_self, tile]
     refine (pairSum0_apply _ _ _ _ _ _ b).trans (Finset.sum_congr rfl fun s _ => Finset.sum_congr rfl fun l _ => ?_))
  · exact congrArg₂ (· * ·) (slabAny _ (⟨0, by decide⟩ : Fin 4) _ _ b s l) (slabAny _ (⟨0, by decide⟩ : Fin 4) _ _ b s l)
  · exact congrArg₂ (· * ·) (slabAny _ (⟨0, by decide⟩ : Fin 4) _ _ b s l) (slabAny _ (⟨1, by decide⟩ : Fin 4) _ _ b s l)
  · exact congrArg₂ (· * ·) (slabAny _ (⟨0, by decide⟩ : Fin 4) _ _ b s l) (slabAny _ (⟨2, by decide⟩ : Fin 4) _ _ b s l)
  · exact congrArg₂ (· * ·) (slabAny _ (⟨0, by decide⟩ : Fin 4) _ _ b s l) (slabAny _ (⟨3, by decide⟩ : Fin 4) _ _ b s l)
  · exact (mul_comm (_ : EReal) _).trans (congrArg₂ (· * ·) (slabAny _ (⟨1, by decide⟩ : Fin 4) _ _ b s l) (slabAny _ (⟨0, by decide⟩ : Fin 4) _ _ b s l))
  · exact congrArg₂ (· * ·) (slabAny _ (⟨1, by decide⟩ : Fin 4) _ _ b s l) (slabAny _ (⟨1, by decide⟩ : Fin 4) _ _ b s l)
  · exact congrArg₂ (· * ·) (slabAny _ (⟨1, by decide⟩ : Fin 4) _ _ b s l) (slabAny _ (⟨2, by decide⟩ : Fin 4) _ _ b s l)
  · exact congrArg₂ (· * ·) (slabAny _ (⟨1, by decide⟩ : Fin 4) _ _ b s l) (slabAny _ (⟨3, by decide⟩ : Fin 4) _ _ b s l)
  · exact (mul_comm (_ : EReal) _).trans (congrArg₂ (· * ·) (slabAny _ (⟨2, by decide⟩ : Fin 4) _ _ b s l) (slabAny _ (⟨0, by decide⟩ : Fin 4) _ _ b s l))
  · exact (mul_comm (_ : EReal) _).trans (congrArg₂ (· * ·) (slabAny _ (⟨2, by decide⟩ : Fin 4) _ _ b s l) (slabAny _ (⟨1, by decide⟩ : Fin 4) _ _ b s l))
  · exact congrArg₂ (· * ·) (slabAny _ (⟨2, by decide⟩ : Fin 4) _ _ b s l) (slabAny _ (⟨2, by decide⟩ : Fin 4) _ _ b s l)
  · exact congrArg₂ (· * ·) (slabAny _ (⟨2, by decide⟩ : Fin 4) _ _ b s l) (slabAny _ (⟨3, by decide⟩ : Fin 4) _ _ b s l)
  · exact (mul_comm (_ : EReal) _).trans (congrArg₂ (· * ·) (slabAny _ (⟨3, by decide⟩ : Fin 4) _ _ b s l) (slabAny _ (⟨0, by decide⟩ : Fin 4) _ _ b s l))
  · exact (mul_comm (_ : EReal) _).trans (congrArg₂ (· * ·) (slabAny _ (⟨3, by decide⟩ : Fin 4) _ _ b s l) (slabAny _ (⟨1, by decide⟩ : Fin 4) _ _ b s l))
  · exact (mul_comm (_ : EReal) _).trans (congrArg₂ (· * ·) (slabAny _ (⟨3, by decide⟩ : Fin 4) _ _ b s l) (slabAny _ (⟨2, by decide⟩ : Fin 4) _ _ b s l))
  · exact congrArg₂ (· * ·) (slabAny _ (⟨3, by decide⟩ : Fin 4) _ _ b s l) (slabAny _ (⟨3, by decide⟩ : Fin 4) _ _ b s l)

theorem accSR_apply (xs2 : Vec Ideal S16x4x4 .f32) (x0 x1 : Vec Ideal S16x4x192x128 .f32) (b : Fin 16) (i j : Fin 4) :
    accSR (F := Ideal) xs2 x0 x1 (ix3 b i j) = xs2 (ix3 b i j) + tile x0 x1 b i j := by
  unfold accSR k0_pay1
  try dsimp only
  rw [shapeCast_self]
  show xs2 (ix3 b i j) + _ = _
  congr 1
  rw [Cert.LibStack.cat_rows_apply]
  rcases i with ⟨i, hi⟩; rcases j with ⟨j, hj⟩
  interval_cases i <;> interval_cases j
  all_goals
    (simp only [vec4_0, vec4_1, vec4_2, vec4_3, Cert.LibStack.shapeCast_ab_a1b_apply, Cert.LibStack.cat_cols_apply, Cert.LibRowOps.shapeCast_a_a1_apply,
      k0_pay73, k0_pay74, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay18, k0_pay19, k0_pay20, k0_pay21, k0_pay22, k0_pay23, k0_pay24, k0_pay25, k0_pay26, k0_pay27, shapeCast_self, tile]
     refine (pairSum0_apply _ _ _ _ _ _ b).trans (Finset.sum_congr rfl fun s _ => Finset.sum_congr rfl fun l _ => ?_))
  · exact congrArg₂ (· * ·) (slabAny _ (⟨0, by decide⟩ : Fin 4) _ _ b s l) (slabAny _ (⟨0, by decide⟩ : Fin 4) _ _ b s l)
  · exact congrArg₂ (· * ·) (slabAny _ (⟨0, by decide⟩ : Fin 4) _ _ b s l) (slabAny _ (⟨1, by decide⟩ : Fin 4) _ _ b s l)
  · exact congrArg₂ (· * ·) (slabAny _ (⟨0, by decide⟩ : Fin 4) _ _ b s l) (slabAny _ (⟨2, by decide⟩ : Fin 4) _ _ b s l)
  · exact congrArg₂ (· * ·) (slabAny _ (⟨0, by decide⟩ : Fin 4) _ _ b s l) (slabAny _ (⟨3, by decide⟩ : Fin 4) _ _ b s l)
  · exact congrArg₂ (· * ·) (slabAny _ (⟨1, by decide⟩ : Fin 4) _ _ b s l) (slabAny _ (⟨0, by decide⟩ : Fin 4) _ _ b s l)
  · exact congrArg₂ (· * ·) (slabAny _ (⟨1, by decide⟩ : Fin 4) _ _ b s l) (slabAny _ (⟨1, by decide⟩ : Fin 4) _ _ b s l)
  · exact congrArg₂ (· * ·) (slabAny _ (⟨1, by decide⟩ : Fin 4) _ _ b s l) (slabAny _ (⟨2, by decide⟩ : Fin 4) _ _ b s l)
  · exact congrArg₂ (· * ·) (slabAny _ (⟨1, by decide⟩ : Fin 4) _ _ b s l) (slabAny _ (⟨3, by decide⟩ : Fin 4) _ _ b s l)
  · exact congrArg₂ (· * ·) (slabAny _ (⟨2, by decide⟩ : Fin 4) _ _ b s l) (slabAny _ (⟨0, by decide⟩ : Fin 4) _ _ b s l)
  · exact congrArg₂ (· * ·) (slabAny _ (⟨2, by decide⟩ : Fin 4) _ _ b s l) (slabAny _ (⟨1, by decide⟩ : Fin 4) _ _ b s l)
  · exact congrArg₂ (· * ·) (slabAny _ (⟨2, by decide⟩ : Fin 4) _ _ b s l) (slabAny _ (⟨2, by decide⟩ : Fin 4) _ _ b s l)
  · exact congrArg₂ (· * ·) (slabAny _ (⟨2, by decide⟩ : Fin 4) _ _ b s l) (slabAny _ (⟨3, by decide⟩ : Fin 4) _ _ b s l)
  · exact congrArg₂ (· * ·) (slabAny _ (⟨3, by decide⟩ : Fin 4) _ _ b s l) (slabAny _ (⟨0, by decide⟩ : Fin 4) _ _ b s l)
  · exact congrArg₂ (· * ·) (slabAny _ (⟨3, by decide⟩ : Fin 4) _ _ b s l) (slabAny _ (⟨1, by decide⟩ : Fin 4) _ _ b s l)
  · exact congrArg₂ (· * ·) (slabAny _ (⟨3, by decide⟩ : Fin 4) _ _ b s l) (slabAny _ (⟨2, by decide⟩ : Fin 4) _ _ b s l)
  · exact congrArg₂ (· * ·) (slabAny _ (⟨3, by decide⟩ : Fin 4) _ _ b s l) (slabAny _ (⟨3, by decide⟩ : Fin 4) _ _ b s l)

end Cert.KernelIdeal.Gram
end
-- ==== Proof.KAccum.lean ====
/-
  The accumulators after every grid point, entry by entry.

  A sequence S over the 16 grid points that restarts at every eighth point, S n = 0 + T n when 8 divides n and
  S n = S (n − 1) + T n otherwise, is at every point the running sum of T over the points of its row of the grid so far;
  in particular at the last point of a row it is the sum of T over the row's eight points.  Each entry of each of the
  three accumulators is such a sequence, with T the Gram sum of the point's blocks.
-/
import proofs.«134037_j72430328480133_2_alg».proof.Proof.KChain
import proofs.«134037_j72430328480133_2_alg».proof.Proof.KGram

set_option maxRecDepth 16384

noncomputable section

namespace Cert.KernelIdeal.Accum

open Cert.KernelIdeal Cert.KernelIdeal.Gen Cert.KernelIdeal.Pieces Cert.KernelIdeal.Chain Cert.KernelIdeal.Gram
open Idealize.ShloMosaic Idealize.ShloMosaic.ValueIdx

/-- The running sum from a zero start, as the accumulation associates it. -/
def part (T : ℕ → EReal) : ℕ → EReal
  | 0 => (Ideal.ofBits .f32 0x00000000#32) + T 0
  | d + 1 => part T d + T (d + 1)

theorem part_eq_sum (T : ℕ → EReal) (d : ℕ) : part T d = ∑ e ∈ Finset.range (d + 1), T e := by
  induction d with
  | zero => simp [part, Ideal.ofBits_zero_f32]
  | succ d ih => rw [part, ih, Finset.sum_range_succ _ (d + 1)]

/-- A sequence that restarts every eighth point is the running sum over its row. -/
theorem restart_chain (S : (n : ℕ) → n < 16 → EReal) (T : ℕ → EReal)
    (hA : ∀ n hn, n % 8 = 0 → S n hn = (Ideal.ofBits .f32 0x00000000#32) + T n)
    (hB : ∀ n (hn : n < 16) (h : n % 8 ≠ 0), S n hn = S (n - 1) (by omega) + T n) :
    ∀ n (hn : n < 16), S n hn = part (fun d => T (8 * (n / 8) + d)) (n % 8) := by
  intro n
  induction n with
  | zero => intro hn; rw [hA 0 hn rfl]; rfl
  | succ n ih =>
    intro hn
    by_cases h : (n + 1) % 8 = 0
    · rw [hA (n + 1) hn h, h]
      show _ = (Ideal.ofBits .f32 0x00000000#32) + T (8 * ((n + 1) / 8) + 0)
      congr 2; omega
    · have h1 : (n + 1) % 8 = n % 8 + 1 := by omega
      have h2 : (n + 1) / 8 = n / 8 := by omega
      rw [hB (n + 1) hn h, h1, h2]
      show _ = part (fun d => T (8 * (n / 8) + d)) (n % 8) + T (8 * (n / 8) + (n % 8 + 1))
      have e : S (n + 1 - 1) (by omega) = S n (by omega) := by
        congr 1
      rw [e, ih (by omega)]
      congr 2; omega

variable (m : (ℓ : Loc nD τ sig) → Buf (Elt Ideal) ℓ)

theorem N16 : cfg0.N = 16 := N_0

/-- The block of input window w at grid point k (zero past the grid, which is never consulted). -/
def blk (c : Dev nD) (w : Fin 2) (k : ℕ) : Vec Ideal S16x4x192x128 .f32 :=
  if h : k < cfg0.N then (match w with
    | ⟨0, _⟩ => (iblk m c 0 ⟨k, h⟩ : Vec Ideal S16x4x192x128 .f32)
    | ⟨1, _⟩ => (iblk m c 1 ⟨k, h⟩ : Vec Ideal S16x4x192x128 .f32)) else fun _ => 0

theorem blk0_eq (c : Dev nD) (t : Fin cfg0.N) : blk m c 0 t.val = iblk m c 0 t := by
  unfold blk; rw [dif_pos t.isLt]
theorem blk1_eq (c : Dev nD) (t : Fin cfg0.N) : blk m c 1 t.val = iblk m c 1 t := by
  unfold blk; rw [dif_pos t.isLt]

theorem zero15 (y : S16x4x4.Idx) : k0_pay15 (F := Ideal) y = (Ideal.ofBits .f32 0x00000000#32) := by
  simp only [k0_pay15, shapeCast_self, broadcast, Scalar.ofBits, Ideal.ofBits_def]
theorem zero16 (y : S16x4x4.Idx) : k0_pay16 (F := Ideal) y = (Ideal.ofBits .f32 0x00000000#32) := by
  simp only [k0_pay16, shapeCast_self, broadcast, Scalar.ofBits, Ideal.ofBits_def]
theorem zero17 (y : S16x4x4.Idx) : k0_pay17 (F := Ideal) y = (Ideal.ofBits .f32 0x00000000#32) := by
  simp only [k0_pay17, shapeCast_self, broadcast, Scalar.ofBits, Ideal.ofBits_def]

/-- Entry (b, i, j) of the first accumulator after point n: the running Gram sum of the first input's blocks over the row. -/
theorem accSS_at (c : Dev nD) (b : Fin 16) (i j : Fin 4) (n : ℕ) (hn : n < 16) :
    (outsAt0 m c n (N16 ▸ hn)).2.1 (ix3 b i j)
      = part (fun d => tile (blk m c 0 (8 * (n / 8) + d)) (blk m c 0 (8 * (n / 8) + d)) b i j) (n % 8) := by
  refine restart_chain (fun n hn => (outsAt0 m c n (N16 ▸ hn)).2.1 (ix3 b i j)) (fun k => tile (blk m c 0 k) (blk m c 0 k) b i j) ?_ ?_ n hn
  · intro n hn h0
    show (outsAt0 m c (⟨n, N16 ▸ hn⟩ : Fin cfg0.N).val _).2.1 (ix3 b i j) = _
    rw [stepA_0 m c ⟨n, N16 ▸ hn⟩ h0 (by show ¬ n % 8 = 7; omega), accSS_apply, zero15, ← blk0_eq]
  · intro n hn h0
    show (outsAt0 m c (⟨n, N16 ▸ hn⟩ : Fin cfg0.N).val _).2.1 (ix3 b i j) = _
    by_cases h1 : n % 8 = 7
    · rw [stepC_0 m c ⟨n, N16 ▸ hn⟩ h0 h1, accSS_apply, ← blk0_eq]
    · rw [stepB_0 m c ⟨n, N16 ▸ hn⟩ h0 h1, accSS_apply, ← blk0_eq]

theorem accRR_at (c : Dev nD) (b : Fin 16) (i j : Fin 4) (n : ℕ) (hn : n < 16) :
    (outsAt0 m c n (N16 ▸ hn)).2.2.1 (ix3 b i j)
      = part (fun d => tile (blk m c 1 (8 * (n / 8) + d)) (blk m c 1 (8 * (n / 8) + d)) b i j) (n % 8) := by
  refine restart_chain (fun n hn => (outsAt0 m c n (N16 ▸ hn)).2.2.1 (ix3 b i j)) (fun k => tile (blk m c 1 k) (blk m c 1 k) b i j) ?_ ?_ n hn
  · intro n hn h0
    show (outsAt0 m c (⟨n, N16 ▸ hn⟩ : Fin cfg0.N).val _).2.2.1 (ix3 b i j) = _
    rw [stepA_1 m c ⟨n, N16 ▸ hn⟩ h0 (by show ¬ n % 8 = 7; omega), accRR_apply, zero16, ← blk1_eq]
  · intro n hn h0
    show (outsAt0 m c (⟨n, N16 ▸ hn⟩ : Fin cfg0.N).val _).2.2.1 (ix3 b i j) = _
    by_cases h1 : n % 8 = 7
    · rw [stepC_1 m c ⟨n, N16 ▸ hn⟩ h0 h1, accRR_apply, ← blk1_eq]
    · rw [stepB_1 m c ⟨n, N16 ▸ hn⟩ h0 h1, accRR_apply, ← blk1_eq]

theorem accSR_at (c : Dev nD) (b : Fin 16) (i j : Fin 4) (n : ℕ) (hn : n < 16) :
    (outsAt0 m c n (N16 ▸ hn)).2.2.2 (ix3 b i j)
      = part (fun d => tile (blk m c 0 (8 * (n / 8) + d)) (blk m c 1 (8 * (n / 8) + d)) b i j) (n % 8) := by
  refine restart_chain (fun n hn => (outsAt0 m c n (N16 ▸ hn)).2.2.2 (ix3 b i j)) (fun k => tile (blk m c 0 k) (blk m c 1 k) b i j) ?_ ?_ n hn
  · intro n hn h0
    show (outsAt0 m c (⟨n, N16 ▸ hn⟩ : Fin cfg0.N).val _).2.2.2 (ix3 b i j) = _
    rw [stepA_2 m c ⟨n, N16 ▸ hn⟩ h0 (by show ¬ n % 8 = 7; omega), accSR_apply, zero17, ← blk0_eq, ← blk1_eq]
  · intro n hn h0
    show (outsAt0 m c (⟨n, N16 ▸ hn⟩ : Fin cfg0.N).val _).2.2.2 (ix3 b i j) = _
    by_cases h1 : n % 8 = 7
    · rw [stepC_2 m c ⟨n, N16 ▸ hn⟩ h0 h1, accSR_apply, ← blk0_eq, ← blk1_eq]
    · rw [stepB_2 m c ⟨n, N16 ▸ hn⟩ h0 h1, accSR_apply, ← blk0_eq, ← blk1_eq]

end Cert.KernelIdeal.Accum

end
-- ==== Proof.LibScaledSum.lean ====
/-
  Scaling a finite sum of extended reals.  On the extended reals multiplication does not distribute over addition in
  general (⊤ + ⊥ is ⊥, so a factor that flips a sign breaks it), but a factor c with 0 ≤ c < ⊤ does distribute: it keeps
  the sign of every term and sends ⊤ to ⊤ or 0 and ⊥ to ⊥ or 0 uniformly.  Hence such a factor moves in and out of any
  finite sum, whatever the terms are — no finiteness of the terms is needed.
-/
import Mathlib.Data.EReal.Inv
import Mathlib.Algebra.BigOperators.Group.Finset.Basic

namespace Cert.LibScaledSum

open Finset

/-- A factor c with 0 ≤ c and c ≠ ⊤ distributes over a finite sum of extended reals: (∑ f i) · c = ∑ (f i · c). -/
theorem sum_mul {ι : Type*} (s : Finset ι) (f : ι → EReal) {c : EReal} (h0 : 0 ≤ c) (ht : c ≠ ⊤) :
    (∑ i ∈ s, f i) * c = ∑ i ∈ s, f i * c := by
  classical
  refine Finset.induction_on s ?_ ?_
  · rw [Finset.sum_empty, Finset.sum_empty, zero_mul]
  · intro a s ha ih
    rw [Finset.sum_insert ha, Finset.sum_insert ha, EReal.right_distrib_of_nonneg_of_ne_top h0 ht, ih]

/-- The same with the factor on the left. -/
theorem mul_sum {ι : Type*} (s : Finset ι) (f : ι → EReal) {c : EReal} (h0 : 0 ≤ c) (ht : c ≠ ⊤) :
    c * ∑ i ∈ s, f i = ∑ i ∈ s, c * f i := by
  rw [mul_comm, sum_mul s f h0 ht]
  exact Finset.sum_congr rfl fun i _ => mul_comm _ _

end Cert.LibScaledSum
-- ==== Proof.Spec.lean ====
/-
  The loss both programs compute, written on single extended reals.

  For a batch element with squared norms xn i, yn j and Gram entries xy i j (i, j among four), the pairwise kernel value is
  exp of the clamp to [-10^6, 0] of -(sqrt(max(xn i + yn j - 2·xy i j, 10^-12)) / 196608 / 1)·w, passed through the
  replacement of infinities by zero; the kernel mean is the mean of the sixteen values, passed through the replacement of
  +∞ / -∞ by the largest / smallest finite float; the loss of the batch element combines three such means (first input with
  itself, second with itself, first with second) as wout·(a + b - 2c), with the same replacement after the combination and
  after the weighting; the result is the mean of the thirty-two losses.  The "is it a NaN" test of the source, x ≠ x, is
  never true of an extended real, so that replacement is the identity and is not written.

  The one algebraic fact needed between the two programs' ways of taking the mean of sixteen numbers is at the end: dividing
  each of four sums of four by 4, adding and dividing by 4 again is dividing the sum of the sixteen by 16, for ANY extended
  reals (the factor 1/4 is nonnegative and finite, so it distributes over sums whatever the terms are).
-/
import Idealize.ShloMosaic.PureOps.Ideal
import Idealize.ShloMosaic.PureOps.Ideal.Laws
import proofs.«134037_j72430328480133_2_alg».proof.Proof.LibScaledSum

noncomputable section

namespace Cert.Mmd

open Idealize.ShloMosaic

/-- The replacement of +∞ by p and then of -∞ by n. -/
def clean (p n x : EReal) : EReal :=
  Scalar.select (Ideal.cmp .oeq (Scalar.select (Ideal.cmp .oeq x (Ideal.ofBits .f32 0x7F800000#32)) p x) (Ideal.ofBits .f32 0xFF800000#32)) n
    (Scalar.select (Ideal.cmp .oeq x (Ideal.ofBits .f32 0x7F800000#32)) p x)

/-- One pairwise kernel value. -/
def cell (xn yn xy w : EReal) : EReal :=
  clean (Ideal.ofBits .f32 0x00000000#32) (Ideal.ofBits .f32 0x00000000#32)
    (Ideal.exp (min (Ideal.ofBits .f32 0x00000000#32) (max (Ideal.ofBits .f32 0xC9742400#32)
      (-(Ideal.div (Ideal.div (Ideal.sqrt (max (xn + yn - (Ideal.ofBits .f32 0x40000000#32) * xy) (Ideal.ofBits .f32 0x2B8CBCCC#32))) (Ideal.ofBits .f32 0x48400000#32)) (Ideal.ofBits .f32 0x3F800000#32)) * w))))

/-- The mean of the sixteen kernel values of a batch element. -/
def kmean (xn yn : Fin 4 → EReal) (xy : Fin 4 → Fin 4 → EReal) (w : EReal) : EReal :=
  clean (Ideal.ofBits .f32 0x7F7FFFFF#32) (Ideal.ofBits .f32 0xFF7FFFFF#32)
    (Ideal.div ((Ideal.ofBits .f32 0x00000000#32) + ∑ p : Fin 4 × Fin 4, cell (xn p.1) (yn p.2) (xy p.1 p.2) w) (Ideal.ofBits .f32 0x41800000#32))

/-- The loss of a batch element. -/
def loss (nS nR : Fin 4 → EReal) (gSS gRR gSR : Fin 4 → Fin 4 → EReal) (w wout : EReal) : EReal :=
  clean (Ideal.ofBits .f32 0x7F7FFFFF#32) (Ideal.ofBits .f32 0xFF7FFFFF#32) (wout * clean (Ideal.ofBits .f32 0x7F7FFFFF#32) (Ideal.ofBits .f32 0xFF7FFFFF#32)
    (kmean nS nS gSS w + kmean nR nR gRR w - (Ideal.ofBits .f32 0x40000000#32) * kmean nS nR gSR w))

/-- The mean over the batch. -/
def total (L : Fin 32 → EReal) : EReal := Ideal.div ((Ideal.ofBits .f32 0x00000000#32) + ∑ B : Fin 32, L B) (Ideal.ofBits .f32 0x42000000#32)

/-- No extended real differs from itself (ordered or unordered reading of "not equal"). -/
theorem cmp_one_self (x : EReal) : Ideal.cmp .one x x = 0#1 := by simp [Ideal.cmp]
theorem cmp_une_self (x : EReal) : Ideal.cmp .une x x = 0#1 := by simp [Ideal.cmp]

/-- A selection on the false bit takes its second branch. -/
theorem select_zero {α : Type} (a b : α) : Scalar.select (0#1) a b = b := by simp [Scalar.select]

theorem ofBits_4 : Ideal.ofBits .f32 0x40800000#32 = ((4 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num

/-- The mean of sixteen numbers taken as a mean of four means of four. -/
theorem mean_split (a : Fin 4 → Fin 4 → EReal) :
    Ideal.div (∑ i : Fin 4, Ideal.div (∑ j : Fin 4, a i j) (Ideal.ofBits .f32 0x40800000#32)) (Ideal.ofBits .f32 0x40800000#32)
      = Ideal.div ((Ideal.ofBits .f32 0x00000000#32) + ∑ p : Fin 4 × Fin 4, a p.1 p.2) (Ideal.ofBits .f32 0x41800000#32) := by
  have h4 : (0 : EReal) ≤ ((1 / 4 : ℝ) : EReal) := by exact_mod_cast (by norm_num : (0 : ℝ) ≤ 1 / 4)
  have h4t : ((1 / 4 : ℝ) : EReal) ≠ ⊤ := EReal.coe_ne_top _
  rw [ofBits_4, ofBits_16, Ideal.ofBits_zero_f32, zero_add, Ideal.div_coe (by norm_num), Ideal.div_coe (by norm_num)]
  simp only [Ideal.div_coe (show (4 : ℝ) ≠ 0 by norm_num)]
  rw [← Cert.LibScaledSum.sum_mul Finset.univ _ h4 h4t, mul_assoc, ← EReal.coe_mul, Fintype.sum_prod_type]
  norm_num

end Cert.Mmd

end
-- ==== Proof.KEpi.lean ====
/-
  The closing computation read at a batch row, at the exact extended reals.

  Row p of the 16×1 output block depends on the three accumulated Gram matrices only through their 4×4 slices at p, on the
  two weight columns through their entries at p, and is: the squared norms are the diagonals of the first two slices;
  each pairwise value is the exponential of the clamped, scaled, negated (as 0 − x) root distance, with infinities replaced
  by 0; each kernel mean divides four sums of four by 4 and their sum by 4 again; the three means are combined, weighted
  and passed through the replacement of infinities by the extreme finite floats.  The source's test "x differs from
  itself" is false of every extended real, so the selections on it take their second branch.
-/
import proofs.«134037_j72430328480133_2_alg».proof.Proof.KPieces
import proofs.«134037_j72430328480133_2_alg».proof.Proof.LibStack
import proofs.«134037_j72430328480133_2_alg».proof.Proof.Spec

set_option maxRecDepth 16384

noncomputable section

namespace Cert.KernelIdeal.Epi

open Cert.KernelIdeal Cert.KernelIdeal.Gen Cert.KernelIdeal.Pieces
open Idealize.ShloMosaic Idealize.ShloMosaic.ValueIdx

/-- Sums over the last axis and over the remaining axis, in the spelling the kernel body uses (zero words as the sums' starts). -/
theorem lastSum0 (src : FVec Ideal S16x4x4 .f32) (h : S16x4x4.Reduces [2] S16x4) (hφ : FTy.f32 = FTy.f32 ∨ FTy.f32 = FTy.bf16)
    (hacc : (0x00000000#32 : BitVec 32) = 0x00000000#32) (p : Fin 16) (q : Fin 4) :
    multiReduction .add [2] S16x4 src 0x00000000#32 h hφ hacc (ix2 p q) = ∑ r : Fin 4, src (ix3 p q r) :=
  Cert.LibRank3.lastSum_apply src _ h hφ hacc p q
theorem rowSum0 (src : FVec Ideal S16x4 .f32) (h : S16x4.Reduces [1] S16) (hφ : FTy.f32 = FTy.f32 ∨ FTy.f32 = FTy.bf16)
    (hacc : (0x00000000#32 : BitVec 32) = 0x00000000#32) (p : Fin 16) :
    multiReduction .add [1] S16 src 0x00000000#32 h hφ hacc (ix1 p) = ∑ q : Fin 4, src (ix2 p q) :=
  Cert.LibRowOps.rowSum_apply src _ h hφ hacc p

/-- The same sums as whole arrays. -/
def sumLast (src : FVec Ideal S16x4x4 .f32) : FVec Ideal S16x4 .f32 := fun j => ∑ r : Fin 4, src (ix3 (j 0) (j 1) r)
def sumRow (src : FVec Ideal S16x4 .f32) : FVec Ideal S16 .f32 := fun j => ∑ q : Fin 4, src (ix2 (j 0) q)

theorem lastSumV (src : FVec Ideal S16x4x4 .f32) (h : S16x4x4.Reduces [2] S16x4) (hφ : FTy.f32 = FTy.f32 ∨ FTy.f32 = FTy.bf16)
    (hacc : (0x00000000#32 : BitVec 32) = 0x00000000#32) :
    multiReduction .add [2] S16x4 src 0x00000000#32 h hφ hacc = sumLast src :=
  funext fun j => (congrArg (multiReduction .add [2] S16x4 src 0x00000000#32 h hφ hacc) (eq_ix2 j)).trans (lastSum0 src h hφ hacc (j 0) (j 1))
theorem rowSumV (src : FVec Ideal S16x4 .f32) (h : S16x4.Reduces [1] S16) (hφ : FTy.f32 = FTy.f32 ∨ FTy.f32 = FTy.bf16)
    (hacc : (0x00000000#32 : BitVec 32) = 0x00000000#32) :
    multiReduction .add [1] S16 src 0x00000000#32 h hφ hacc = sumRow src :=
  funext fun j => (congrArg (multiReduction .add [1] S16 src 0x00000000#32 h hφ hacc) (eq_ix1 j)).trans (rowSum0 src h hφ hacc (j 0))
theorem sumLast_apply (src : FVec Ideal S16x4x4 .f32) (p : Fin 16) (q : Fin 4) : sumLast src (ix2 p q) = ∑ r : Fin 4, src (ix3 p q r) := rfl
theorem sumRow_apply (src : FVec Ideal S16x4 .f32) (p : Fin 16) : sumRow src (ix1 p) = ∑ q : Fin 4, src (ix2 p q) := rfl

/-- One pairwise kernel value as the body spells it (the negation written 0 − x). -/
def cellK (xn yn xy w : EReal) : EReal :=
  Cert.Mmd.clean (Ideal.ofBits .f32 0x00000000#32) (Ideal.ofBits .f32 0x00000000#32)
    (Ideal.exp (min (Ideal.ofBits .f32 0x00000000#32) (max (Ideal.ofBits .f32 0xC9742400#32)
      (((Ideal.ofBits .f32 0x00000000#32) - Ideal.div (Ideal.div (Ideal.sqrt (max (xn + yn - (Ideal.ofBits .f32 0x40000000#32) * xy) (Ideal.ofBits .f32 0x2B8CBCCC#32))) (Ideal.ofBits .f32 0x48400000#32)) (Ideal.ofBits .f32 0x3F800000#32)) * w))))

/-- The kernel mean as the body takes it: four means of four, then their mean. -/
def kmeanK (xn yn : Fin 4 → EReal) (xy : Fin 4 → Fin 4 → EReal) (w : EReal) : EReal :=
  Cert.Mmd.clean (Ideal.ofBits .f32 0x7F7FFFFF#32) (Ideal.ofBits .f32 0xFF7FFFFF#32)
    (Ideal.div (∑ q : Fin 4, Ideal.div (∑ r : Fin 4, cellK (xn q) (yn r) (xy q r) w) (Ideal.ofBits .f32 0x40800000#32)) (Ideal.ofBits .f32 0x40800000#32))

/-- The loss of a batch row from its three Gram slices, as the body computes it. -/
def lossK (g0 g1 g2 : Fin 4 → Fin 4 → EReal) (w wo : EReal) : EReal :=
  Cert.Mmd.clean (Ideal.ofBits .f32 0x7F7FFFFF#32) (Ideal.ofBits .f32 0xFF7FFFFF#32) (wo * Cert.Mmd.clean (Ideal.ofBits .f32 0x7F7FFFFF#32) (Ideal.ofBits .f32 0xFF7FFFFF#32)
    (kmeanK (fun i => g0 i i) (fun i => g0 i i) g0 w + kmeanK (fun i => g1 i i) (fun i => g1 i i) g1 w
      - (Ideal.ofBits .f32 0x40000000#32) * kmeanK (fun i => g0 i i) (fun i => g1 i i) g2 w))

/-- The diagonal of each 4×4 slice, laid out as a 16×4 matrix, at (p, q). -/

theorem v4_0 {β : Type} (a b c d : β) (h) : ![a, b, c, d] ⟨0, h⟩ = a := rfl
theorem v4_1 {β : Type} (a b c d : β) (h) : ![a, b, c, d] ⟨1, h⟩ = b := rfl
theorem v4_2 {β : Type} (a b c d : β) (h) : ![a, b, c, d] ⟨2, h⟩ = c := rfl
theorem v4_3 {β : Type} (a b c d : β) (h) : ![a, b, c, d] ⟨3, h⟩ = d := rfl

/-- The diagonal of each 4×4 slice, laid out as a 16×4 matrix, at (p, q). -/
theorem diag3_apply (v : Vec Ideal S16x4x4 .f32) (p : Fin 16) (q : Fin 4) : k0_pay3 v (ix2 p q) = v (ix3 p q q) := by
  unfold k0_pay3
  rw [Cert.LibStack.cat_cols_apply]
  rcases q with ⟨q, hq⟩
  interval_cases q
  · simp only [v4_0]; rw [Cert.LibRowOps.shapeCast_a_a1_apply]; exact Cert.LibStack.corner_apply 0 0 v _ _ p ⟨0, hq⟩ ⟨0, hq⟩ rfl rfl
  · simp only [v4_1]; rw [Cert.LibRowOps.shapeCast_a_a1_apply]; exact Cert.LibStack.corner_apply 1 1 v _ _ p ⟨1, hq⟩ ⟨1, hq⟩ rfl rfl
  · simp only [v4_2]; rw [Cert.LibRowOps.shapeCast_a_a1_apply]; exact Cert.LibStack.corner_apply 2 2 v _ _ p ⟨2, hq⟩ ⟨2, hq⟩ rfl rfl
  · simp only [v4_3]; rw [Cert.LibRowOps.shapeCast_a_a1_apply]; exact Cert.LibStack.corner_apply 3 3 v _ _ p ⟨3, hq⟩ ⟨3, hq⟩ rfl rfl

theorem diag4_apply (v : Vec Ideal S16x4x4 .f32) (p : Fin 16) (q : Fin 4) : k0_pay4 v (ix2 p q) = v (ix3 p q q) := by
  unfold k0_pay4
  rw [Cert.LibStack.cat_cols_apply]
  rcases q with ⟨q, hq⟩
  interval_cases q
  · simp only [v4_0]; rw [Cert.LibRowOps.shapeCast_a_a1_apply]; exact Cert.LibStack.corner_apply 0 0 v _ _ p ⟨0, hq⟩ ⟨0, hq⟩ rfl rfl
  · simp only [v4_1]; rw [Cert.LibRowOps.shapeCast_a_a1_apply]; exact Cert.LibStack.corner_apply 1 1 v _ _ p ⟨1, hq⟩ ⟨1, hq⟩ rfl rfl
  · simp only [v4_2]; rw [Cert.LibRowOps.shapeCast_a_a1_apply]; exact Cert.LibStack.corner_apply 2 2 v _ _ p ⟨2, hq⟩ ⟨2, hq⟩ rfl rfl
  · simp only [v4_3]; rw [Cert.LibRowOps.shapeCast_a_a1_apply]; exact Cert.LibStack.corner_apply 3 3 v _ _ p ⟨3, hq⟩ ⟨3, hq⟩ rfl rfl

/-- The common end of a pairwise kernel value: from the scaled root distance x and the weight w. -/
def tailK (x w : EReal) : EReal :=
  Cert.Mmd.clean (Ideal.ofBits .f32 0x00000000#32) (Ideal.ofBits .f32 0x00000000#32) (Ideal.exp (min (Ideal.ofBits .f32 0x00000000#32) (max (Ideal.ofBits .f32 0xC9742400#32) (((Ideal.ofBits .f32 0x00000000#32) - x) * w))))

theorem pay5_apply (x : Vec Ideal S16x1 .f32) (p : Fin 16) : k0_pay5 x (ix1 p) = x (ix2 p 0) := by
  unfold k0_pay5
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean]

theorem pay6_apply (v : Vec Ideal S16x4x4 .f32) (p : Fin 16) (q r : Fin 4) :
    k0_pay6 v (ix3 p q r) = Ideal.div (Ideal.sqrt (max (v (ix3 p q q) + v (ix3 p r r) - (Ideal.ofBits .f32 0x40000000#32) * v (ix3 p q r)) (Ideal.ofBits .f32 0x2B8CBCCC#32))) (Ideal.ofBits .f32 0x48400000#32) := by
  unfold k0_pay6
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean, diag3_apply]

theorem pay7_apply (w : FVec Ideal S16 .f32) (d : FVec Ideal S16x4x4 .f32) (c1 : Ideal .f32) (p : Fin 16) :
    k0_pay7 w d c1 (ix1 p)
      = Cert.Mmd.clean (Ideal.ofBits .f32 0x7F7FFFFF#32) (Ideal.ofBits .f32 0xFF7FFFFF#32) (Ideal.div (∑ q : Fin 4, Ideal.div (∑ r : Fin 4, tailK (Ideal.div (d (ix3 p q r)) c1) (w (ix1 p))) (Ideal.ofBits .f32 0x40800000#32)) (Ideal.ofBits .f32 0x40800000#32)) := by
  unfold k0_pay7
  rw [rowSumV, lastSumV]
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean]

theorem pay8_apply (y : FVec Ideal S16x4 .f32) (p : Fin 16) (u : Fin 1) (r : Fin 4) : k0_pay8 y (ix3 p u r) = y (ix2 p r) := by
  unfold k0_pay8
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean]

theorem pay9_apply (y : FVec Ideal S16x4 .f32) (p : Fin 16) (q r : Fin 4) : k0_pay9 y (ix3 p q r) = y (ix2 p q) := by
  unfold k0_pay9
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean]

theorem pay10_apply (v : Vec Ideal S16x4x4 .f32) (w : FVec Ideal S16 .f32) (row : FVec Ideal S16x1x4 .f32) (col : FVec Ideal S16x4x4 .f32) (p : Fin 16) :
    k0_pay10 v w row col (ix1 p)
      = Ideal.div (∑ q : Fin 4, Ideal.div (∑ r : Fin 4,
          tailK (Ideal.div (Ideal.div (Ideal.sqrt (max (col (ix3 p q r) + row (ix3 p 0 r) - (Ideal.ofBits .f32 0x40000000#32) * v (ix3 p q r)) (Ideal.ofBits .f32 0x2B8CBCCC#32))) (Ideal.ofBits .f32 0x48400000#32)) (Ideal.ofBits .f32 0x3F800000#32)) (w (ix1 p))) (Ideal.ofBits .f32 0x40800000#32)) (Ideal.ofBits .f32 0x40800000#32) := by
  unfold k0_pay10
  rw [rowSumV, lastSumV]
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean]

theorem pay11_apply (v : FVec Ideal S16 .f32) (p : Fin 16) :
    k0_pay11 v (Ideal.ofBits .f32 0x7F800000#32) (ix1 p) = Cert.Mmd.clean (Ideal.ofBits .f32 0x7F7FFFFF#32) (Ideal.ofBits .f32 0xFF7FFFFF#32) (v (ix1 p)) := by
  unfold k0_pay11
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean]

theorem pay12_apply (s2 : Vec Ideal S16x4x4 .f32) (xn yn : FVec Ideal S16x4 .f32) (w : FVec Ideal S16 .f32) (p : Fin 16) (q r : Fin 4) :
    k0_pay12 s2 xn yn w (ix3 p q r)
      = tailK (Ideal.div (Ideal.div (Ideal.sqrt (max (xn (ix2 p q) + yn (ix2 p r) - (Ideal.ofBits .f32 0x40000000#32) * s2 (ix3 p q r)) (Ideal.ofBits .f32 0x2B8CBCCC#32))) (Ideal.ofBits .f32 0x48400000#32)) (Ideal.ofBits .f32 0x3F800000#32)) (w (ix1 p)) := by
  unfold k0_pay12
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean]

theorem pay13_apply (A B : FVec Ideal S16 .f32) (C : FVec Ideal S16x4x4 .f32) (x3 : Vec Ideal S16x1 .f32) (p : Fin 16) :
    k0_pay13 A B C x3 (ix1 p)
      = x3 (ix2 p 0) * Cert.Mmd.clean (Ideal.ofBits .f32 0x7F7FFFFF#32) (Ideal.ofBits .f32 0xFF7FFFFF#32) (A (ix1 p) + B (ix1 p)
          - (Ideal.ofBits .f32 0x40000000#32) * Cert.Mmd.clean (Ideal.ofBits .f32 0x7F7FFFFF#32) (Ideal.ofBits .f32 0xFF7FFFFF#32) (Ideal.div (∑ q : Fin 4, Ideal.div (∑ r : Fin 4, C (ix3 p q r)) (Ideal.ofBits .f32 0x40800000#32)) (Ideal.ofBits .f32 0x40800000#32))) := by
  unfold k0_pay13
  rw [rowSumV, lastSumV]
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean]

theorem pay2_apply (v : FVec Ideal S16 .f32) (mk : IVec S16 1) (c : Ideal .f32) (p : Fin 16) (u : Fin 1) :
    k0_pay2 v mk c (ix2 p u)
      = Scalar.select (Ideal.cmp .oeq (Scalar.select (mk (ix1 p)) c (v (ix1 p))) (Ideal.ofBits .f32 0xFF800000#32)) (Ideal.ofBits .f32 0xFF7FFFFF#32) (Scalar.select (mk (ix1 p)) c (v (ix1 p))) := by
  unfold k0_pay2
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean]

theorem pay14_apply (A B : FVec Ideal S16 .f32) (C : FVec Ideal S16x4x4 .f32) (x3 : Vec Ideal S16x1 .f32) (p : Fin 16) :
    k0_pay14 A B C x3 (ix1 p) = Ideal.cmp .oeq (k0_pay13 A B C x3 (ix1 p)) (Ideal.ofBits .f32 0x7F800000#32) := by
  unfold k0_pay14
  simp only [select, cmpf, broadcast, divf, subf, mulf, addf, maximumf, minimumf, exp, sqrt, Scalar.ofBits, shapeCast_self,
    Ideal.ofBits_def, Ideal.mulf_def, Ideal.addf_def, Ideal.subf_def, Ideal.divf_def, Ideal.maximumf_def, Ideal.minimumf_def, Ideal.exp_def, Ideal.sqrt_def, Ideal.cmpf_def,
    sumLast_apply, sumRow_apply, Cert.LibStack.shapeCast_a_a11_apply, Cert.LibStack.broadcastTo_a11_abc_apply, Cert.LibStack.broadcastTo_a1c_abc_apply,
    Cert.LibStack.shapeCast_a1_a_apply, Cert.LibStack.shapeCast_ab_a1b_apply, Cert.LibRank3.shapeCast_ab_ab1_apply, Cert.LibRank3.broadcastTo_ab1_abc_apply,
    Cert.LibRowOps.shapeCast_a_a1_apply, Cert.Mmd.cmp_one_self, Cert.Mmd.select_zero, tailK, Cert.Mmd.clean]

theorem epi_apply (s0 s1 s2 : FVec Ideal S16x4x4 .f32) (x2 x3 : Vec Ideal S16x1 .f32) (p : Fin 16) :
    epi (F := Ideal) s0 s1 s2 x2 x3 (ix2 p 0)
      = lossK (fun i j => s0 (ix3 p i j)) (fun i j => s1 (ix3 p i j)) (fun i j => s2 (ix3 p i j)) (x2 (ix2 p 0)) (x3 (ix2 p 0)) := by
  unfold epi
  rw [pay2_apply, pay14_apply, pay13_apply]
  simp only [Ideal.ofBits_def, pay7_apply, pay6_apply, pay11_apply, pay10_apply, pay8_apply, pay9_apply, pay12_apply, pay5_apply, diag3_apply, diag4_apply,
    lossK, kmeanK, cellK, tailK, Cert.Mmd.clean]

end Cert.KernelIdeal.Epi
end
-- ==== Proof.KLoss.lean ====
/-
  The body's way of writing the loss is the common one: 0 − x is −x, and the mean of four means of four is the mean of
  the sixteen.
-/
import proofs.«134037_j72430328480133_2_alg».proof.Proof.KEpi

noncomputable section

namespace Cert.KernelIdeal.Epi

open Idealize.ShloMosaic

theorem cellK_eq (xn yn xy w : EReal) : cellK xn yn xy w = Cert.Mmd.cell xn yn xy w := by
  unfold cellK Cert.Mmd.cell
  rw [Ideal.ofBits_zero_f32, zero_sub]

theorem kmeanK_eq (xn yn : Fin 4 → EReal) (xy : Fin 4 → Fin 4 → EReal) (w : EReal) :
    kmeanK xn yn xy w = Cert.Mmd.kmean xn yn xy w := by
  unfold kmeanK Cert.Mmd.kmean
  simp only [cellK_eq]
  rw [Cert.Mmd.mean_split (fun q r => Cert.Mmd.cell (xn q) (yn r) (xy q r) w)]

theorem lossK_eq (g0 g1 g2 : Fin 4 → Fin 4 → EReal) (w wo : EReal) :
    lossK g0 g1 g2 w wo = Cert.Mmd.loss (fun i => g0 i i) (fun i => g1 i i) g0 g1 g2 w wo := by
  unfold lossK Cert.Mmd.loss
  simp only [kmeanK_eq]

end Cert.KernelIdeal.Epi

end
-- ==== Proof.KBlocks.lean ====
/-
  Where the kernel's blocks sit in the arrays.  Grid point t = 8·r + d (row r of two, step d of eight) stages, of each
  32×4×1536×128 input, the block of batch rows 16r … 16r+15 and positions 192d … 192d+191 of the third axis, and of each
  32×1 weight column the rows 16r … 16r+15; the output block of point t is rows 16r … 16r+15 of the 32×1 result.  The
  4-dimensional inputs are the 32×4×196608 arguments re-laid (entry (B, i, r, l) is entry (B, i, 128·r + l)), the columns
  the 32-vectors.
-/
import proofs.«134037_j72430328480133_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The printed index maps over the sixteen grid points. -/
theorem idx_facts : ∀ t : Fin cfg0.N,
    win0_0.index t (0 : Fin 4) = t.val / 8 ∧ win0_0.index t (1 : Fin 4) = 0 ∧ win0_0.index t (2 : Fin 4) = t.val % 8 ∧ win0_0.index t (3 : Fin 4) = 0
    ∧ win0_1.index t (0 : Fin 4) = t.val / 8 ∧ win0_1.index t (1 : Fin 4) = 0 ∧ win0_1.index t (2 : Fin 4) = t.val % 8 ∧ win0_1.index t (3 : Fin 4) = 0
    ∧ win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

theorem N16 : cfg0.N = 16 := N_0

/-- Entry (b, i, s, l) of the first input's block at point t. -/
theorem blk0_read (c : Dev nD) (t : Fin cfg0.N) (b : Fin 16) (i : Fin 4) (s : Fin 192) (l : Fin 128)
    (B : Fin 32) (r : Fin 1536) (hB : B.val = 16 * (t.val / 8) + b.val) (hr : r.val = 192 * (t.val % 8) + s.val) :
    (iblk m c 0 t : S16x4x192x128.Idx → EReal) (ix4 b i s l) = (V m c main_v0 : S32x4x1536x128.Idx → EReal) (ix4 B i r l) := by
  obtain ⟨e0, e1, e2, e3, -⟩ := idx_facts t
  show V m c main_v0 (((cfg0.win 0).blk t).view.emb (ix4 b i s l)) = _
  refine congrArg (V m c main_v0) (funext fun a => Fin.ext ?_)
  match a with
  | ⟨0, _⟩ => show win0_0.index t (0 : Fin 4) * 16 + 1 * b.val = B.val; omega
  | ⟨1, _⟩ => show win0_0.index t (1 : Fin 4) * 4 + 1 * i.val = i.val; omega
  | ⟨2, _⟩ => show win0_0.index t (2 : Fin 4) * 192 + 1 * s.val = r.val; omega
  | ⟨3, _⟩ => show win0_0.index t (3 : Fin 4) * 128 + 1 * l.val = l.val; omega

/-- The same for the second input. -/
theorem blk1_read (c : Dev nD) (t : Fin cfg0.N) (b : Fin 16) (i : Fin 4) (s : Fin 192) (l : Fin 128)
    (B : Fin 32) (r : Fin 1536) (hB : B.val = 16 * (t.val / 8) + b.val) (hr : r.val = 192 * (t.val % 8) + s.val) :
    (iblk m c 1 t : S16x4x192x128.Idx → EReal) (ix4 b i s l) = (V m c main_v1 : S32x4x1536x128.Idx → EReal) (ix4 B i r l) := by
  obtain ⟨-, -, -, -, e0, e1, e2, e3, -⟩ := idx_facts t
  show V m c main_v1 (((cfg0.win 1).blk t).view.emb (ix4 b i s l)) = _
  refine congrArg (V m c main_v1) (funext fun a => Fin.ext ?_)
  match a with
  | ⟨0, _⟩ => show win0_1.index t (0 : Fin 4) * 16 + 1 * b.val = B.val; omega
  | ⟨1, _⟩ => show win0_1.index t (1 : Fin 4) * 4 + 1 * i.val = i.val; omega
  | ⟨2, _⟩ => show win0_1.index t (2 : Fin 4) * 192 + 1 * s.val = r.val; omega
  | ⟨3, _⟩ => show win0_1.index t (3 : Fin 4) * 128 + 1 * l.val = l.val; omega

/-- Entry (b, 0) of the weight columns' blocks at point t. -/
theorem blk2_read (c : Dev nD) (t : Fin cfg0.N) (b : Fin 16) (B : Fin 32) (hB : B.val = 16 * (t.val / 8) + b.val) :
    (iblk m c 2 t : S16x1.Idx → EReal) (ix2 b 0) = (V m c main_v2 : S32x1.Idx → EReal) (ix2 B 0) := by
  obtain ⟨-, -, -, -, -, -, -, -, e0, e1, -⟩ := idx_facts t
  show V m c main_v2 (((cfg0.win 2).blk t).view.emb (ix2 b 0)) = _
  refine congrArg (V m c main_v2) (funext fun a => Fin.ext ?_)
  match a with
  | ⟨0, _⟩ => show win0_2.index t (0 : Fin 2) * 16 + 1 * b.val = B.val; omega
  | ⟨1, _⟩ => show win0_2.index t (1 : Fin 2) * 1 + 1 * 0 = 0; omega
theorem blk3_read (c : Dev nD) (t : Fin cfg0.N) (b : Fin 16) (B : Fin 32) (hB : B.val = 16 * (t.val / 8) + b.val) :
    (iblk m c 3 t : S16x1.Idx → EReal) (ix2 b 0) = (V m c main_v3 : S32x1.Idx → EReal) (ix2 B 0) := by
  obtain ⟨-, -, -, -, -, -, -, -, -, -, e0, e1, -⟩ := idx_facts t
  show V m c main_v3 (((cfg0.win 3).blk t).view.emb (ix2 b 0)) = _
  refine congrArg (V m c main_v3) (funext fun a => Fin.ext ?_)
  match a with
  | ⟨0, _⟩ => show win0_3.index t (0 : Fin 2) * 16 + 1 * b.val = B.val; omega
  | ⟨1, _⟩ => show win0_3.index t (1 : Fin 2) * 1 + 1 * 0 = 0; omega

/-- The arrays the region finds: the arguments re-laid. -/
theorem V_v0 (c : Dev nD) : (V m c main_v0 : S32x4x1536x128.Idx → EReal)
    = shapeCast S32x4x1536x128 (m ((c : Thread nD τ).loc main_arg0) : S32x4x196608.Idx → EReal) shapeCasts_S32x4x196608_S32x4x1536x128 := by
  show StableHlo.after hostOps0 (fun b => m (c, b)) (Proc.devRef .tc main_v0) = _
  after_results; rfl
theorem V_v1 (c : Dev nD) : (V m c main_v1 : S32x4x1536x128.Idx → EReal)
    = shapeCast S32x4x1536x128 (m ((c : Thread nD τ).loc main_arg1) : S32x4x196608.Idx → EReal) shapeCasts_S32x4x196608_S32x4x1536x128 := by
  show StableHlo.after hostOps0 (fun b => m (c, b)) (Proc.devRef .tc main_v1) = _
  after_results; rfl
theorem V_v2 (c : Dev nD) : (V m c main_v2 : S32x1.Idx → EReal)
    = broadcastInDim S32x1 ![0] bcast_S32_S32x1_0 (m ((c : Thread nD τ).loc main_arg2) : S32.Idx → EReal) := by
  show StableHlo.after hostOps0 (fun b => m (c, b)) (Proc.devRef .tc main_v2) = _
  after_results
theorem V_v3 (c : Dev nD) : (V m c main_v3 : S32x1.Idx → EReal)
    = broadcastInDim S32x1 ![0] bcast_S32_S32x1_0 (m ((c : Thread nD τ).loc main_arg3) : S32.Idx → EReal) := by
  show StableHlo.after hostOps0 (fun b => m (c, b)) (Proc.devRef .tc main_v3) = _
  after_results

end Cert.KernelIdeal.Blocks

end
-- ==== Proof.KValue.lean ====
/-
  What the kernel's program computes, at the exact extended reals.

  Row B of the 32×1 array the region writes is the closing computation of the three Gram slices accumulated over the eight
  points of B's row of the grid, at B's entry of the two weight columns: the last point of each row of the grid writes
  its 16 rows back, and the two rows of the grid cover the array.  After the region the program sums the 32 entries from
  zero and divides by 32.
-/
import proofs.«134037_j72430328480133_2_alg».proof.Proof.KAccum
import proofs.«134037_j72430328480133_2_alg».proof.Proof.KLoss
import proofs.«134037_j72430328480133_2_alg».proof.Proof.KBlocks

set_option maxRecDepth 16384

noncomputable section

namespace Cert.KernelIdeal.KValue

open Cert.KernelIdeal Cert.KernelIdeal.Gen Cert.KernelIdeal.Pieces Cert.KernelIdeal.Chain Cert.KernelIdeal.Gram
open Cert.KernelIdeal.Accum Cert.KernelIdeal.Epi Cert.KernelIdeal.Blocks
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- A batch row's position inside its block of sixteen. -/
def bIdx (B : Fin 32) : Fin 16 := ⟨B.val % 16, Nat.mod_lt _ (by decide)⟩

/-- The Gram slice of batch row b of grid row r, accumulated over the row's eight points. -/
def gramRow (c : Dev nD) (w w' : Fin 2) (r : ℕ) (b : Fin 16) (i j : Fin 4) : EReal :=
  part (fun d => tile (blk m c w (8 * r + d)) (blk m c w' (8 * r + d)) b i j) 7

/-- The loss of batch row B as the kernel computes it. -/
def lossB (c : Dev nD) (B : Fin 32) : EReal :=
  lossK (gramRow m c 0 0 (B.val / 16) (bIdx B)) (gramRow m c 1 1 (B.val / 16) (bIdx B)) (gramRow m c 0 1 (B.val / 16) (bIdx B))
    ((V m c main_v2 : S32x1.Idx → EReal) (ix2 B 0)) ((V m c main_v3 : S32x1.Idx → EReal) (ix2 B 0))

/-- The array the region writes. -/
def Gout (c : Dev nD) : S32x1.Idx → EReal := fun idx => lossB m c (idx 0)

/-- What a write-back writes is its block of that array. -/
theorem flushed_eq (c : Dev nD) (t : Fin cfg0.N) (hf : (cfg0.win 4).flush t = true) :
    (dats m 0 c).flushed 4 t = ((cfg0.win 4).blk t).view.read (Elt Ideal) (Gout m c) := by
  have h1 : t.val % 8 = 7 := (flush0_4 t).mp hf
  have h0 : ¬ t.val % 8 = 0 := by omega
  have hN : t.val < 16 := lt_of_lt_of_eq t.isLt Accum.N16
  obtain ⟨-, -, -, -, -, -, -, -, -, -, -, -, e0, e1⟩ := idx_facts t
  show (cfg0.win 4).cut (grid0.coords t) ((dats m 0 c).after 4 t) = _
  rw [after0_4, outC m c t h0 h1]
  funext y
  obtain ⟨b, u, rfl⟩ : ∃ (b : Fin 16) (u : Fin 1), y = ix2 b u := ⟨y 0, y 1, eq_ix2 y⟩
  obtain rfl : u = 0 := Subsingleton.elim _ _
  have hemb : ((cfg0.win 4).blk t).view.emb (ix2 b 0) = ix2 (⟨16 * (t.val / 8) + b.val, by omega⟩ : Fin 32) (0 : Fin 1) := by
    funext a; apply Fin.ext
    match a with
    | ⟨0, _⟩ => show win0_4.index t (0 : Fin 2) * 16 + 1 * b.val = 16 * (t.val / 8) + b.val; omega
    | ⟨1, _⟩ => show win0_4.index t (1 : Fin 2) * 1 + 1 * 0 = 0; omega
  show epi (F := Ideal) _ _ _ _ _ (ix2 b 0) = Gout m c (((cfg0.win 4).blk t).view.emb (ix2 b 0))
  rw [epi_apply, hemb]
  show _ = lossB m c ⟨16 * (t.val / 8) + b.val, by omega⟩
  unfold lossB
  have q1 : (16 * (t.val / 8) + b.val) / 16 = t.val / 8 := by omega
  have q2 : bIdx ⟨16 * (t.val / 8) + b.val, by omega⟩ = b := Fin.ext (by show (16 * (t.val / 8) + b.val) % 16 = b.val; omega)
  have a1 : (fun i j => (outsAt0 m c t.val t.isLt).2.1 (ix3 b i j)) = gramRow m c 0 0 (t.val / 8) b := by
    funext i j
    have := accSS_at m c b i j t.val hN
    rw [h1] at this
    exact this
  have a2 : (fun i j => (outsAt0 m c t.val t.isLt).2.2.1 (ix3 b i j)) = gramRow m c 1 1 (t.val / 8) b := by
    funext i j
    have := accRR_at m c b i j t.val hN
    rw [h1] at this
    exact this
  have a3 : (fun i j => (outsAt0 m c t.val t.isLt).2.2.2 (ix3 b i j)) = gramRow m c 0 1 (t.val / 8) b := by
    funext i j
    have := accSR_at m c b i j t.val hN
    rw [h1] at this
    exact this
  have a4 := blk2_read m c t b ⟨16 * (t.val / 8) + b.val, by omega⟩ rfl
  have a5 := blk3_read m c t b ⟨16 * (t.val / 8) + b.val, by omega⟩ rfl
  rw [a1, a2, a3, a4, a5]
  show _ = lossK (gramRow m c 0 0 ((16 * (t.val / 8) + b.val) / 16) _) (gramRow m c 1 1 ((16 * (t.val / 8) + b.val) / 16) _) (gramRow m c 0 1 ((16 * (t.val / 8) + b.val) / 16) _) _ _
  rw [q1, q2]

/-- The two write-backs cover the array. -/
theorem final4 (c : Dev nD) : (dats m 0 c).arrAt 4 cfg0.N = Gout m c :=
  (dats m 0 c).arrAt_eq_of_cover 4 (Gout m c) (flushed_eq m c) fun i => by
    have hi0 : (i 0 : Nat) < 32 := (i 0).isLt
    have hi1 : (i 1 : Nat) < 1 := (i 1).isLt
    by_cases hlo : (i 0 : Nat) < 16
    · refine ⟨t0_7, (flush0_4 t0_7).mpr rfl, ?_⟩
      show i ∈ ((View.whole main_v4).slice (win0_4.rect t0_7)).set
      rw [View.set_slice_whole, Rect.mem_set_unit]
      intro a
      match a with
      | ⟨0, _⟩ =>
        show win0_4.index t0_7 0 * win0_4.size 0 ≤ (i 0 : Nat) ∧ (i 0 : Nat) < win0_4.index t0_7 0 * win0_4.size 0 + win0_4.xsize (grid0.coords t0_7) 0
        rw [show win0_4.index t0_7 0 * win0_4.size 0 = 0 from by decide +kernel, show win0_4.xsize (grid0.coords t0_7) 0 = 16 from by decide +kernel]; omega
      | ⟨1, _⟩ =>
        show win0_4.index t0_7 1 * win0_4.size 1 ≤ (i 1 : Nat) ∧ (i 1 : Nat) < win0_4.index t0_7 1 * win0_4.size 1 + win0_4.xsize (grid0.coords t0_7) 1
        rw [show win0_4.index t0_7 1 * win0_4.size 1 = 0 from by decide +kernel, show win0_4.xsize (grid0.coords t0_7) 1 = 1 from by decide +kernel]; omega
    · refine ⟨t0_15, (flush0_4 t0_15).mpr rfl, ?_⟩
      show i ∈ ((View.whole main_v4).slice (win0_4.rect t0_15)).set
      rw [View.set_slice_whole, Rect.mem_set_unit]
      intro a
      match a with
      | ⟨0, _⟩ =>
        show win0_4.index t0_15 0 * win0_4.size 0 ≤ (i 0 : Nat) ∧ (i 0 : Nat) < win0_4.index t0_15 0 * win0_4.size 0 + win0_4.xsize (grid0.coords t0_15) 0
        rw [show win0_4.index t0_15 0 * win0_4.size 0 = 16 from by decide +kernel, show win0_4.xsize (grid0.coords t0_15) 0 = 16 from by decide +kernel]; omega
      | ⟨1, _⟩ =>
        show win0_4.index t0_15 1 * win0_4.size 1 ≤ (i 1 : Nat) ∧ (i 1 : Nat) < win0_4.index t0_15 1 * win0_4.size 1 + win0_4.xsize (grid0.coords t0_15) 1
        rw [show win0_4.index t0_15 1 * win0_4.size 1 = 0 from by decide +kernel, show win0_4.xsize (grid0.coords t0_15) 1 = 1 from by decide +kernel]; omega

/-- After the region the program divides by 32 the sum, from zero, of the array the region wrote. -/
theorem tail_v6 (c : Dev nD) :
    Pipeline.afterTail₀ cfgs (dats m) 0 (V0 m) [hostOps1] c main_v6
      = Host.divf (Host.reduceAdd (Gout m c) (constant (F := Ideal) S_ .f32 0x00000000#32) reducesTo_S32x1_S_d0_1 h_S_) (constant (F := Ideal) S_ .f32 0x42000000#32) := by
  unfold Pipeline.afterTail₀
  simp only [List.flatten_cons, List.flatten_nil, List.append_nil]
  show StableHlo.after hostOps1 _ (Proc.devRef .tc main_v6) = _
  after_results
  rw [show Pipeline.withArrays (cfgs 0).spec c (V0 m c) (fun w => (dats m 0 c).arrAt w (cfgs 0).N) (Proc.devRef .tc main_v4) = Gout m c from
    (Pipeline.withArrays_arr spec0 launch0.win.arr_inj c _ _ 4).trans (final4 m c)]

end Cert.KernelIdeal.KValue

end
-- ==== Proof.RefOps.lean ====
/-
  The reference program as a straight line.  Its @main is 150 statements, eleven of them calls of small outlined functions
  (clip; nan_to_num on a 32×4×4 array and on a 32-vector, each of which calls a three-operation "where" three
  times).  Executing a call is executing the callee's operations on the call's own buffers, so with every call replaced
  by its callee's operations @main is one list of 284 host operations.  The list is kept in the three stretches in
  which @main is printed; each stretch of @main is the sequence of its list, hence @main is the sequence of the whole
  list, and every weakly fair execution ends with every buffer at the fold of the list over the launch contents.
-/
import proofs.«134037_j72430328480133_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch: the squared norms and the Gram matrix of the first argument with itself, the pairwise kernel
    values and their mean (statements 1 … 60, calls opened). -/
abbrev ops0 : List (HloOp τ sig (Elt F)) :=
  [ binary main_arg0 main_arg0 main_v0 (mulf : (⟨S32x4x196608, .f32⟩ : BufTy).Contents (Elt F) → (⟨S32x4x196608, .f32⟩ : BufTy).Contents (Elt F) → (⟨S32x4x196608, .f32⟩ : BufTy).Contents (Elt F)),
    nullary main_cst (constant S_ .f32 0x00000000#32),
    binary main_v0 main_cst main_v1 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg0 main_arg0 main_v2 (mulf : (⟨S32x4x196608, .f32⟩ : BufTy).Contents (Elt F) → (⟨S32x4x196608, .f32⟩ : BufTy).Contents (Elt F) → (⟨S32x4x196608, .f32⟩ : BufTy).Contents (Elt F)),
    nullary main_cst_0 (constant S_ .f32 0x00000000#32),
    binary main_v2 main_cst_0 main_v3 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg0 main_arg0 main_v4 ((fun l r => Host.dotGeneral dot_S32x4x196608_S32x4x196608_S32x4x4_2_2_1_1_0_0 none l r) : (⟨S32x4x196608, .f32⟩ : BufTy).Contents (Elt F) → (⟨S32x4x196608, .f32⟩ : BufTy).Contents (Elt F) → (⟨S32x4x4, .f32⟩ : BufTy).Contents (Elt F)),
    unary main_v1 main_v5 (broadcastInDim S32x4x1 ![0, 1] bcast_S32x4_S32x4x1_0_1 : (⟨S32x4, .f32⟩ : BufTy).Contents (Elt F) → (⟨S32x4x1, .f32⟩ : BufTy).Contents (Elt F)),
    unary main_v3 main_v6 (broadcastInDim S32x1x4 ![0, 2] bcast_S32x4_S32x1x4_0_2 : (⟨S32x4, .f32⟩ : BufTy).Contents (Elt F) → (⟨S32x1x4, .f32⟩ : BufTy).Contents (Elt F)),
    unary main_v5 main_v7 (broadcastInDim S32x4x4 ![0, 1, 2] bcast_S32x4x1_S32x4x4_0_1_2 : (⟨S32x4x1, .f32⟩ : BufTy).Contents (Elt F) → (⟨S32x4x4, .f32⟩ : BufTy).Contents (Elt F)),
    unary main_v6 main_v8 (broadcastInDim S32x4x4 ![0, 1, 2] bcast_S32x1x4_S32x4x4_0_1_2 : (⟨S32x1x4, .f32⟩ : BufTy).Contents (Elt F) → (⟨S32x4x4, .f32⟩ : BufTy).Contents (Elt F)),
    binary main_v7 main_v8 main_v9 (addf : (⟨S32x4x4, .f32⟩ : BufTy).Contents (Elt F) → (⟨S32x4x4, .f32⟩ : BufTy).Contents (Elt F) → (⟨S32x4x4, .f32⟩ : BufTy).Contents (Elt F)),
    nullary main_cst_1 (constant S_ .f32 0x40000000#32),
    unary main_cst_1 main_v10 (broadcastInDim S32x4x4 ![] bcast_S_S32x4x4 : (⟨S_, .f32⟩ : BufTy).Contents (Elt F) → (⟨S32x4x4, .f32⟩ : BufTy).Contents (Elt F)),
    binary main_v10 main_v4 main_v11 (mulf : (⟨S32x4x4, .f32⟩ : BufTy).Contents (Elt F) → (⟨S32x4x4, .f32⟩ : BufTy).Contents (Elt F) → (⟨S32x4x4, .f32⟩ : BufTy).Contents (Elt F)),
    binary main_v9 main_v11 main_v12 (subf : (⟨S32x4x4, .f32⟩ : BufTy).Contents (Elt F) → (⟨S32x4x4, .f32⟩ : BufTy).Contents (Elt F) → (⟨S32x4x4, .f32⟩ : BufTy).Contents (Elt F)),
    nullary main_cst_2 (constant S_ .f32 0x2B8CBCCC#32),
    unary main_cst_2 main_v13 (broadcastInDim S32x4x4 ![] bcast_S_S32x4x4 : (⟨S_, .f32⟩ : BufTy).Contents (Elt F) → (⟨S32x4x4, .f32⟩ : BufTy).Contents (Elt F)),
    binary main_v12 main_v13 main_v14 (maximumf : (⟨S32x4x4, .f32⟩ : BufTy).Contents (Elt F) → (⟨S32x4x4, .f32⟩ : BufTy).Contents (Elt F) → (⟨S32x4x4, .f32⟩ : BufTy).Contents (Elt F)),
    unary main_v14 main_v15 (Host.sqrt : (⟨S32x4x4, .f32⟩ : BufTy).Contents (Elt F) → (⟨S32x4x4, .f32⟩ : BufTy).Contents (Elt F)),
    nullary main_cst_3 (constant S_ .f32 0x48400000#32),
    unary main_cst_3 main_v16 (broadcastInDim S32x4x4 ![] bcast_S_S32x4x4 : (⟨S_, .f32⟩ : BufTy).Contents (Elt F) → (⟨S32x4x4, .f32⟩ : BufTy).Contents (Elt F)),
    binary main_v15 main_v16 main_v17 (Host.divf : (⟨S32x4x4, .f32⟩ : BufTy).Contents (Elt F) → (⟨S32x4x4, .f32⟩ : BufTy).Contents (Elt F) → (⟨S32x4x4, .f32⟩ : BufTy).Contents (Elt F)),
    nullary main_cst_4 (constant S_ .f32 0x3F800000#32),
    unary main_cst_4 main_v18 (broadcastInDim S32x4x4 ![] bcast_S_S32x4x4 : (⟨S_, .f32⟩ : BufTy).Contents (Elt F) → (⟨S32x4x4, .f32⟩ : BufTy).Contents (Elt F)),
    binary main_v17 main_v18 main_v19 (Host.divf : (⟨S32x4x4, .f32⟩ : BufTy).Contents (Elt F) → (⟨S32x4x4, .f32⟩ : BufTy).Contents (Elt F) → (⟨S32x4x4, .f32⟩ : BufTy).Contents (Elt F)),
    unary main_v19 main_v20 (Host.negf : (⟨S32x4x4, .f32⟩ : BufTy).Contents (Elt F) → (⟨S32x4x4, .f32⟩ : BufTy).Contents (Elt F)),
    unary main_arg2 main_v21 (broadcastInDim S32x1x1 ![0] bcast_S32_S32x1x1_0 : (⟨S32, .f32⟩ : BufTy).Contents (Elt F) → (⟨S32x1x1, .f32⟩ : BufTy).Contents (Elt F)),
    unary main_v21 main_v22 (broadcastInDim S32x4x4 ![0, 1, 2] bcast_S32x1x1_S32x4x4_0_1_2 : (⟨S32x1x1, .f32⟩ : BufTy).Contents (Elt F) → (⟨S32x4x4, .f32⟩ : BufTy).Contents (Elt F)),
    binary main_v20 main_v22 main_v23 (mulf : (⟨S32x4x4, .f32⟩ : BufTy).Contents (Elt F) → (⟨S32x4x4, .f32⟩ : BufTy).Contents (Elt F) → (⟨S32x4x4, .f32⟩ : BufTy).Contents (Elt F)),
    nullary main_cst_5 (constant S_ .f32 0xC9742400#32),
    nullary main_cst_6 (constant S_ .f32 0x00000000#32),
    TRef.unary (.of main_cst_5) main_call0.v0 id,
    TRef.unary main_call0.v0 main_call0.v1 (broadcastInDim S32x4x4 ![] bcast_S_S32x4x4),
    TRef.binary main_call0.v1 (.of main_v23) main_call0.v2 maximumf,
    TRef.unary (.of main_cst_6) main_call0.v3 id,
    TRef.unary main_call0.v3 main_call0.v4 (broadcastInDim S32x4x4 ![] bcast_S_S32x4x4),
    TRef.binary main_call0.v4 main_call0.v2 main_call0.v5 minimumf,
    unary main_v24 main_v25 (Host.exp : (⟨S32x4x4, .f32⟩ : BufTy).Contents (Elt F) → (⟨S32x4x4, .f32⟩ : BufTy).Contents (Elt F)),
    nullary main_cst_7 (constant S_ .f32 0x00000000#32),
    nullary main_cst_8 (constant S_ .f32 0x00000000#32),
    nullary main_cst_9 (constant S_ .f32 0x00000000#32),
    TRef.binary (.of main_v25) (.of main_v25) main_call1.v0 (cmpf .une),
    TRef.unary (.of main_cst_7) main_call1.v1 id,
    TRef.unary main_call1.v1 main_call1.call0.v0 (broadcastInDim S32x4x4 ![] bcast_S_S32x4x4),
    TRef.ternary main_call1.v0 main_call1.call0.v0 (.of main_v25) main_call1.call0.v1 select,
    TRef.nullary main_call1.cst (constant S_ .f32 0x7F800000#32),
    TRef.unary main_call1.cst main_call1.v3 (broadcastInDim S32x4x4 ![] bcast_S_S32x4x4),
    TRef.binary main_call1.call0.v1 main_call1.v3 main_call1.v4 (cmpf .oeq),
    TRef.unary (.of main_cst_9) main_call1.v5 id,
    TRef.unary main_call1.v5 main_call1.call1.v0 (broadcastInDim S32x4x4 ![] bcast_S_S32x4x4),
    TRef.ternary main_call1.v4 main_call1.call1.v0 main_call1.call0.v1 main_call1.call1.v1 select,
    TRef.nullary main_call1.cst_0 (constant S_ .f32 0xFF800000#32),
    TRef.unary main_call1.cst_0 main_call1.v7 (broadcastInDim S32x4x4 ![] bcast_S_S32x4x4),
    TRef.binary main_call1.call1.v1 main_call1.v7 main_call1.v8 (cmpf .oeq),
    TRef.unary (.of main_cst_8) main_call1.v9 id,
    TRef.unary main_call1.v9 main_call1.call2.v0 (broadcastInDim S32x4x4 ![] bcast_S_S32x4x4),
    TRef.ternary main_call1.v8 main_call1.call2.v0 main_call1.call1.v1 main_call1.call2.v1 select,
    nullary main_cst_10 (constant S_ .f32 0x00000000#32),
    binary main_v26 main_cst_10 main_v27 ((fun x v => Host.reduceAdd x v reducesTo_S32x4x4_S32_d1_2 h_S_) : (⟨S32x4x4, .f32⟩ : BufTy).Contents (Elt F) → (⟨S_, .f32⟩ : BufTy).Contents (Elt F) → (⟨S32, .f32⟩ : BufTy).Contents (Elt F)),
    nullary main_cst_11 (constant S_ .f32 0x41800000#32),
    unary main_cst_11 main_v28 (broadcastInDim S32 ![] bcast_S_S32 : (⟨S_, .f32⟩ : BufTy).Contents (Elt F) → (⟨S32, .f32⟩ : BufTy).Contents (Elt F)),
    binary main_v27 main_v28 main_v29 (Host.divf : (⟨S32, .f32⟩ : BufTy).Contents (Elt F) → (⟨S32, .f32⟩ : BufTy).Contents (Elt F) → (⟨S32, .f32⟩ : BufTy).Contents (Elt F)),
    nullary main_cst_12 (constant S_ .f32 0x00000000#32),
    TRef.binary (.of main_v29) (.of main_v29) main_call2.v0 (cmpf .une),
    TRef.unary (.of main_cst_12) main_call2.v1 id,
    TRef.unary main_call2.v1 main_call2.call0.v0 (broadcastInDim S32 ![] bcast_S_S32),
    TRef.ternary main_call2.v0 main_call2.call0.v0 (.of main_v29) main_call2.call0.v1 select,
    TRef.nullary main_call2.cst (constant S_ .f32 0x7F800000#32),
    TRef.unary main_call2.cst main_call2.v3 (broadcastInDim S32 ![] bcast_S_S32),
    TRef.binary main_call2.call0.v1 main_call2.v3 main_call2.v4 (cmpf .oeq),
    TRef.nullary main_call2.cst_0 (constant S_ .f32 0x7F7FFFFF#32),
    TRef.unary main_call2.cst_0 main_call2.call1.v0 (broadcastInDim S32 ![] bcast_S_S32),
    TRef.ternary main_call2.v4 main_call2.call1.v0 main_call2.call0.v1 main_call2.call1.v1 select,
    TRef.nullary main_call2.cst_1 (constant S_ .f32 0xFF800000#32),
    TRef.unary main_call2.cst_1 main_call2.v6 (broadcastInDim S32 ![] bcast_S_S32),
    TRef.binary main_call2.call1.v1 main_call2.v6 main_call2.v7 (cmpf .oeq),
    TRef.nullary main_call2.cst_2 (constant S_ .f32 0xFF7FFFFF#32),
    TRef.unary main_call2.cst_2 main_call2.call2.v0 (broadcastInDim S32 ![] bcast_S_S32),
    TRef.ternary main_call2.v7 main_call2.call2.v0 main_call2.call1.v1 main_call2.call2.v1 select,
    binary main_arg1 main_arg1 main_v31 (mulf : (⟨S32x4x196608, .f32⟩ : BufTy).Contents (Elt F) → (⟨S32x4x196608, .f32⟩ : BufTy).Contents (Elt F) → (⟨S32x4x196608, .f32⟩ : BufTy).Contents (Elt F)),
    nullary main_cst_13 (constant S_ .f32 0x00000000#32),
    binary main_v31 main_cst_13 main_v32 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg1 main_arg1 main_v33 (mulf : (⟨S32x4x196608, .f32⟩ : BufTy).Contents (Elt F) → (⟨S32x4x196608, .f32⟩ : BufTy).Contents (Elt F) → (⟨S32x4x196608, .f32⟩ : BufTy).Contents (Elt F)),
    nullary main_cst_14 (constant S_ .f32 0x00000000#32),
    binary main_v33 main_cst_14 main_v34 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg1 main_arg1 main_v35 ((fun l r => Host.dotGeneral dot_S32x4x196608_S32x4x196608_S32x4x4_2_2_1_1_0_0 none l r) : (⟨S32x4x196608, .f32⟩ : BufTy).Contents (Elt F) → (⟨S32x4x196608, .f32⟩ : BufTy).Contents (Elt F) → (⟨S32x4x4, .f32⟩ : BufTy).Contents (Elt F)),
    unary main_v32 main_v36 (broadcastInDim S32x4x1 ![0, 1] bcast_S32x4_S32x4x1_0_1 : (⟨S32x4, .f32⟩ : BufTy).Contents (Elt F) → (⟨S32x4x1, .f32⟩ : BufTy).Contents (Elt F)),
    unary main_v34 main_v37 (broadcastInDim S32x1x4 ![0, 2] bcast_S32x4_S32x1x4_0_2 : (⟨S32x4, .f32⟩ : BufTy).Contents (Elt F) → (⟨S32x1x4, .f32⟩ : BufTy).Contents (Elt F)),
    unary main_v36 main_v38 (broadcastInDim S32x4x4 ![0, 1, 2] bcast_S32x4x1_S32x4x4_0_1_2 : (⟨S32x4x1, .f32⟩ : BufTy).Contents (Elt F) → (⟨S32x4x4, .f32⟩ : BufTy).Contents (Elt F)),
    unary main_v37 main_v39 (broadcastInDim S32x4x4 ![0, 1, 2] bcast_S32x1x4_S32x4x4_0_1_2 : (⟨S32x1x4, .f32⟩ : BufTy).Contents (Elt F) → (⟨S32x4x4, .f32⟩ : BufTy).Contents (Elt F)),
    binary main_v38 main_v39 main_v40 (addf : (⟨S32x4x4, .f32⟩ : BufTy).Contents (Elt F) → (⟨S32x4x4, .f32⟩ : BufTy).Contents (Elt F) → (⟨S32x4x4, .f32⟩ : BufTy).Contents (Elt F)),
    nullary main_cst_15 (constant S_ .f32 0x40000000#32),
    unary main_cst_15 main_v41 (broadcastInDim S32x4x4 ![] bcast_S_S32x4x4 : (⟨S_, .f32⟩ : BufTy).Contents (Elt F) → (⟨S32x4x4, .f32⟩ : BufTy).Contents (Elt F)),
    binary main_v41 main_v35 main_v42 (mulf : (⟨S32x4x4, .f32⟩ : BufTy).Contents (Elt F) → (⟨S32x4x4, .f32⟩ : BufTy).Contents (Elt F) → (⟨S32x4x4, .f32⟩ : BufTy).Contents (Elt F)) ]

/-- The second stretch: the same for the second argument with itself, and the Gram matrix of the first with the second. -/
abbrev ops1 : List (HloOp τ sig (Elt F)) :=
  [ binary main_v40 main_v42 main_v43 (subf : (⟨S32x4x4, .f32⟩ : BufTy).Contents (Elt F) → (⟨S32x4x4, .f32⟩ : BufTy).Contents (Elt F) → (⟨S32x4x4, .f32⟩ : BufTy).Contents (Elt F)),
    nullary main_cst_16 (constant S_ .f32 0x2B8CBCCC#32),
    unary main_cst_16 main_v44 (broadcastInDim S32x4x4 ![] bcast_S_S32x4x4 : (⟨S_, .f32⟩ : BufTy).Contents (Elt F) → (⟨S32x4x4, .f32⟩ : BufTy).Contents (Elt F)),
    binary main_v43 main_v44 main_v45 (maximumf : (⟨S32x4x4, .f32⟩ : BufTy).Contents (Elt F) → (⟨S32x4x4, .f32⟩ : BufTy).Contents (Elt F) → (⟨S32x4x4, .f32⟩ : BufTy).Contents (Elt F)),
    unary main_v45 main_v46 (Host.sqrt : (⟨S32x4x4, .f32⟩ : BufTy).Contents (Elt F) → (⟨S32x4x4, .f32⟩ : BufTy).Contents (Elt F)),
    nullary main_cst_17 (constant S_ .f32 0x48400000#32),
    unary main_cst_17 main_v47 (broadcastInDim S32x4x4 ![] bcast_S_S32x4x4 : (⟨S_, .f32⟩ : BufTy).Contents (Elt F) → (⟨S32x4x4, .f32⟩ : BufTy).Contents (Elt F)),
    binary main_v46 main_v47 main_v48 (Host.divf : (⟨S32x4x4, .f32⟩ : BufTy).Contents (Elt F) → (⟨S32x4x4, .f32⟩ : BufTy).Contents (Elt F) → (⟨S32x4x4, .f32⟩ : BufTy).Contents (Elt F)),
    nullary main_cst_18 (constant S_ .f32 0x3F800000#32),
    unary main_cst_18 main_v49 (broadcastInDim S32x4x4 ![] bcast_S_S32x4x4 : (⟨S_, .f32⟩ : BufTy).Contents (Elt F) → (⟨S32x4x4, .f32⟩ : BufTy).Contents (Elt F)),
    binary main_v48 main_v49 main_v50 (Host.divf : (⟨S32x4x4, .f32⟩ : BufTy).Contents (Elt F) → (⟨S32x4x4, .f32⟩ : BufTy).Contents (Elt F) → (⟨S32x4x4, .f32⟩ : BufTy).Contents (Elt F)),
    unary main_v50 main_v51 (Host.negf : (⟨S32x4x4, .f32⟩ : BufTy).Contents (Elt F) → (⟨S32x4x4, .f32⟩ : BufTy).Contents (Elt F)),
    unary main_arg2 main_v52 (broadcastInDim S32x1x1 ![0] bcast_S32_S32x1x1_0 : (⟨S32, .f32⟩ : BufTy).Contents (Elt F) → (⟨S32x1x1, .f32⟩ : BufTy).Contents (Elt F)),
    unary main_v52 main_v53 (broadcastInDim S32x4x4 ![0, 1, 2] bcast_S32x1x1_S32x4x4_0_1_2 : (⟨S32x1x1, .f32⟩ : BufTy).Contents (Elt F) → (⟨S32x4x4, .f32⟩ : BufTy).Contents (Elt F)),
    binary main_v51 main_v53 main_v54 (mulf : (⟨S32x4x4, .f32⟩ : BufTy).Contents (Elt F) → (⟨S32x4x4, .f32⟩ : BufTy).Contents (Elt F) → (⟨S32x4x4, .f32⟩ : BufTy).Contents (Elt F)),
    nullary main_cst_19 (constant S_ .f32 0xC9742400#32),
    nullary main_cst_20 (constant S_ .f32 0x00000000#32),
    TRef.unary (.of main_cst_19) main_call3.v0 id,
    TRef.unary main_call3.v0 main_call3.v1 (broadcastInDim S32x4x4 ![] bcast_S_S32x4x4),
    TRef.binary main_call3.v1 (.of main_v54) main_call3.v2 maximumf,
    TRef.unary (.of main_cst_20) main_call3.v3 id,
    TRef.unary main_call3.v3 main_call3.v4 (broadcastInDim S32x4x4 ![] bcast_S_S32x4x4),
    TRef.binary main_call3.v4 main_call3.v2 main_call3.v5 minimumf,
    unary main_v55 main_v56 (Host.exp : (⟨S32x4x4, .f32⟩ : BufTy).Contents (Elt F) → (⟨S32x4x4, .f32⟩ : BufTy).Contents (Elt F)),
    nullary main_cst_21 (constant S_ .f32 0x00000000#32),
    nullary main_cst_22 (constant S_ .f32 0x00000000#32),
    nullary main_cst_23 (constant S_ .f32 0x00000000#32),
    TRef.binary (.of main_v56) (.of main_v56) main_call4.v0 (cmpf .une),
    TRef.unary (.of main_cst_21) main_call4.v1 id,
    TRef.unary main_call4.v1 main_call4.call0.v0 (broadcastInDim S32x4x4 ![] bcast_S_S32x4x4),
    TRef.ternary main_call4.v0 main_call4.call0.v0 (.of main_v56) main_call4.call0.v1 select,
    TRef.nullary main_call4.cst (constant S_ .f32 0x7F800000#32),
    TRef.unary main_call4.cst main_call4.v3 (broadcastInDim S32x4x4 ![] bcast_S_S32x4x4),
    TRef.binary main_call4.call0.v1 main_call4.v3 main_call4.v4 (cmpf .oeq),
    TRef.unary (.of main_cst_23) main_call4.v5 id,
    TRef.unary main_call4.v5 main_call4.call1.v0 (broadcastInDim S32x4x4 ![] bcast_S_S32x4x4),
    TRef.ternary main_call4.v4 main_call4.call1.v0 main_call4.call0.v1 main_call4.call1.v1 select,
    TRef.nullary main_call4.cst_0 (constant S_ .f32 0xFF800000#32),
    TRef.unary main_call4.cst_0 main_call4.v7 (broadcastInDim S32x4x4 ![] bcast_S_S32x4x4),
    TRef.binary main_call4.call1.v1 main_call4.v7 main_call4.v8 (cmpf .oeq),
    TRef.unary (.of main_cst_22) main_call4.v9 id,
    TRef.unary main_call4.v9 main_call4.call2.v0 (broadcastInDim S32x4x4 ![] bcast_S_S32x4x4),
    TRef.ternary main_call4.v8 main_call4.call2.v0 main_call4.call1.v1 main_call4.call2.v1 select,
    nullary main_cst_24 (constant S_ .f32 0x00000000#32),
    binary main_v57 main_cst_24 main_v58 ((fun x v => Host.reduceAdd x v reducesTo_S32x4x4_S32_d1_2 h_S_) : (⟨S32x4x4, .f32⟩ : BufTy).Contents (Elt F) → (⟨S_, .f32⟩ : BufTy).Contents (Elt F) → (⟨S32, .f32⟩ : BufTy).Contents (Elt F)),
    nullary main_cst_25 (constant S_ .f32 0x41800000#32),
    unary main_cst_25 main_v59 (broadcastInDim S32 ![] bcast_S_S32 : (⟨S_, .f32⟩ : BufTy).Contents (Elt F) → (⟨S32, .f32⟩ : BufTy).Contents (Elt F)),
    binary main_v58 main_v59 main_v60 (Host.divf : (⟨S32, .f32⟩ : BufTy).Contents (Elt F) → (⟨S32, .f32⟩ : BufTy).Contents (Elt F) → (⟨S32, .f32⟩ : BufTy).Contents (Elt F)),
    nullary main_cst_26 (constant S_ .f32 0x00000000#32),
    TRef.binary (.of main_v60) (.of main_v60) main_call5.v0 (cmpf .une),
    TRef.unary (.of main_cst_26) main_call5.v1 id,
    TRef.unary main_call5.v1 main_call5.call0.v0 (broadcastInDim S32 ![] bcast_S_S32),
    TRef.ternary main_call5.v0 main_call5.call0.v0 (.of main_v60) main_call5.call0.v1 select,
    TRef.nullary main_call5.cst (constant S_ .f32 0x7F800000#32),
    TRef.unary main_call5.cst main_call5.v3 (broadcastInDim S32 ![] bcast_S_S32),
    TRef.binary main_call5.call0.v1 main_call5.v3 main_call5.v4 (cmpf .oeq),
    TRef.nullary main_call5.cst_0 (constant S_ .f32 0x7F7FFFFF#32),
    TRef.unary main_call5.cst_0 main_call5.call1.v0 (broadcastInDim S32 ![] bcast_S_S32),
    TRef.ternary main_call5.v4 main_call5.call1.v0 main_call5.call0.v1 main_call5.call1.v1 select,
    TRef.nullary main_call5.cst_1 (constant S_ .f32 0xFF800000#32),
    TRef.unary main_call5.cst_1 main_call5.v6 (broadcastInDim S32 ![] bcast_S_S32),
    TRef.binary main_call5.call1.v1 main_call5.v6 main_call5.v7 (cmpf .oeq),
    TRef.nullary main_call5.cst_2 (constant S_ .f32 0xFF7FFFFF#32),
    TRef.unary main_call5.cst_2 main_call5.call2.v0 (broadcastInDim S32 ![] bcast_S_S32),
    TRef.ternary main_call5.v7 main_call5.call2.v0 main_call5.call1.v1 main_call5.call2.v1 select,
    binary main_arg0 main_arg0 main_v62 (mulf : (⟨S32x4x196608, .f32⟩ : BufTy).Contents (Elt F) → (⟨S32x4x196608, .f32⟩ : BufTy).Contents (Elt F) → (⟨S32x4x196608, .f32⟩ : BufTy).Contents (Elt F)),
    nullary main_cst_27 (constant S_ .f32 0x00000000#32),
    binary main_v62 main_cst_27 main_v63 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg1 main_arg1 main_v64 (mulf : (⟨S32x4x196608, .f32⟩ : BufTy).Contents (Elt F) → (⟨S32x4x196608, .f32⟩ : BufTy).Contents (Elt F) → (⟨S32x4x196608, .f32⟩ : BufTy).Contents (Elt F)),
    nullary main_cst_28 (constant S_ .f32 0x00000000#32),
    binary main_v64 main_cst_28 main_v65 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg0 main_arg1 main_v66 ((fun l r => Host.dotGeneral dot_S32x4x196608_S32x4x196608_S32x4x4_2_2_1_1_0_0 none l r) : (⟨S32x4x196608, .f32⟩ : BufTy).Contents (Elt F) → (⟨S32x4x196608, .f32⟩ : BufTy).Contents (Elt F) → (⟨S32x4x4, .f32⟩ : BufTy).Contents (Elt F)),
    unary main_v63 main_v67 (broadcastInDim S32x4x1 ![0, 1] bcast_S32x4_S32x4x1_0_1 : (⟨S32x4, .f32⟩ : BufTy).Contents (Elt F) → (⟨S32x4x1, .f32⟩ : BufTy).Contents (Elt F)),
    unary main_v65 main_v68 (broadcastInDim S32x1x4 ![0, 2] bcast_S32x4_S32x1x4_0_2 : (⟨S32x4, .f32⟩ : BufTy).Contents (Elt F) → (⟨S32x1x4, .f32⟩ : BufTy).Contents (Elt F)),
    unary main_v67 main_v69 (broadcastInDim S32x4x4 ![0, 1, 2] bcast_S32x4x1_S32x4x4_0_1_2 : (⟨S32x4x1, .f32⟩ : BufTy).Contents (Elt F) → (⟨S32x4x4, .f32⟩ : BufTy).Contents (Elt F)),
    unary main_v68 main_v70 (broadcastInDim S32x4x4 ![0, 1, 2] bcast_S32x1x4_S32x4x4_0_1_2 : (⟨S32x1x4, .f32⟩ : BufTy).Contents (Elt F) → (⟨S32x4x4, .f32⟩ : BufTy).Contents (Elt F)),
    binary main_v69 main_v70 main_v71 (addf : (⟨S32x4x4, .f32⟩ : BufTy).Contents (Elt F) → (⟨S32x4x4, .f32⟩ : BufTy).Contents (Elt F) → (⟨S32x4x4, .f32⟩ : BufTy).Contents (Elt F)),
    nullary main_cst_29 (constant S_ .f32 0x40000000#32),
    unary main_cst_29 main_v72 (broadcastInDim S32x4x4 ![] bcast_S_S32x4x4 : (⟨S_, .f32⟩ : BufTy).Contents (Elt F) → (⟨S32x4x4, .f32⟩ : BufTy).Contents (Elt F)),
    binary main_v72 main_v66 main_v73 (mulf : (⟨S32x4x4, .f32⟩ : BufTy).Contents (Elt F) → (⟨S32x4x4, .f32⟩ : BufTy).Contents (Elt F) → (⟨S32x4x4, .f32⟩ : BufTy).Contents (Elt F)),
    binary main_v71 main_v73 main_v74 (subf : (⟨S32x4x4, .f32⟩ : BufTy).Contents (Elt F) → (⟨S32x4x4, .f32⟩ : BufTy).Contents (Elt F) → (⟨S32x4x4, .f32⟩ : BufTy).Contents (Elt F)),
    nullary main_cst_30 (constant S_ .f32 0x2B8CBCCC#32),
    unary main_cst_30 main_v75 (broadcastInDim S32x4x4 ![] bcast_S_S32x4x4 : (⟨S_, .f32⟩ : BufTy).Contents (Elt F) → (⟨S32x4x4, .f32⟩ : BufTy).Contents (Elt F)),
    binary main_v74 main_v75 main_v76 (maximumf : (⟨S32x4x4, .f32⟩ : BufTy).Contents (Elt F) → (⟨S32x4x4, .f32⟩ : BufTy).Contents (Elt F) → (⟨S32x4x4, .f32⟩ : BufTy).Contents (Elt F)),
    unary main_v76 main_v77 (Host.sqrt : (⟨S32x4x4, .f32⟩ : BufTy).Contents (Elt F) → (⟨S32x4x4, .f32⟩ : BufTy).Contents (Elt F)),
    nullary main_cst_31 (constant S_ .f32 0x48400000#32),
    unary main_cst_31 main_v78 (broadcastInDim S32x4x4 ![] bcast_S_S32x4x4 : (⟨S_, .f32⟩ : BufTy).Contents (Elt F) → (⟨S32x4x4, .f32⟩ : BufTy).Contents (Elt F)),
    binary main_v77 main_v78 main_v79 (Host.divf : (⟨S32x4x4, .f32⟩ : BufTy).Contents (Elt F) → (⟨S32x4x4, .f32⟩ : BufTy).Contents (Elt F) → (⟨S32x4x4, .f32⟩ : BufTy).Contents (Elt F)),
    nullary main_cst_32 (constant S_ .f32 0x3F800000#32),
    unary main_cst_32 main_v80 (broadcastInDim S32x4x4 ![] bcast_S_S32x4x4 : (⟨S_, .f32⟩ : BufTy).Contents (Elt F) → (⟨S32x4x4, .f32⟩ : BufTy).Contents (Elt F)),
    binary main_v79 main_v80 main_v81 (Host.divf : (⟨S32x4x4, .f32⟩ : BufTy).Contents (Elt F) → (⟨S32x4x4, .f32⟩ : BufTy).Contents (Elt F) → (⟨S32x4x4, .f32⟩ : BufTy).Contents (Elt F)),
    unary main_v81 main_v82 (Host.negf : (⟨S32x4x4, .f32⟩ : BufTy).Contents (Elt F) → (⟨S32x4x4, .f32⟩ : BufTy).Contents (Elt F)),
    unary main_arg2 main_v83 (broadcastInDim S32x1x1 ![0] bcast_S32_S32x1x1_0 : (⟨S32, .f32⟩ : BufTy).Contents (Elt F) → (⟨S32x1x1, .f32⟩ : BufTy).Contents (Elt F)),
    unary main_v83 main_v84 (broadcastInDim S32x4x4 ![0, 1, 2] bcast_S32x1x1_S32x4x4_0_1_2 : (⟨S32x1x1, .f32⟩ : BufTy).Contents (Elt F) → (⟨S32x4x4, .f32⟩ : BufTy).Contents (Elt F)),
    binary main_v82 main_v84 main_v85 (mulf : (⟨S32x4x4, .f32⟩ : BufTy).Contents (Elt F) → (⟨S32x4x4, .f32⟩ : BufTy).Contents (Elt F) → (⟨S32x4x4, .f32⟩ : BufTy).Contents (Elt F)) ]

/-- The third stretch: the cross term's kernel mean, the combination of the three means, the weighting and the mean over the batch. -/
abbrev ops2 : List (HloOp τ sig (Elt F)) :=
  [ nullary main_cst_33 (constant S_ .f32 0xC9742400#32),
    nullary main_cst_34 (constant S_ .f32 0x00000000#32),
    TRef.unary (.of main_cst_33) main_call6.v0 id,
    TRef.unary main_call6.v0 main_call6.v1 (broadcastInDim S32x4x4 ![] bcast_S_S32x4x4),
    TRef.binary main_call6.v1 (.of main_v85) main_call6.v2 maximumf,
    TRef.unary (.of main_cst_34) main_call6.v3 id,
    TRef.unary main_call6.v3 main_call6.v4 (broadcastInDim S32x4x4 ![] bcast_S_S32x4x4),
    TRef.binary main_call6.v4 main_call6.v2 main_call6.v5 minimumf,
    unary main_v86 main_v87 (Host.exp : (⟨S32x4x4, .f32⟩ : BufTy).Contents (Elt F) → (⟨S32x4x4, .f32⟩ : BufTy).Contents (Elt F)),
    nullary main_cst_35 (constant S_ .f32 0x00000000#32),
    nullary main_cst_36 (constant S_ .f32 0x00000000#32),
    nullary main_cst_37 (constant S_ .f32 0x00000000#32),
    TRef.binary (.of main_v87) (.of main_v87) main_call7.v0 (cmpf .une),
    TRef.unary (.of main_cst_35) main_call7.v1 id,
    TRef.unary main_call7.v1 main_call7.call0.v0 (broadcastInDim S32x4x4 ![] bcast_S_S32x4x4),
    TRef.ternary main_call7.v0 main_call7.call0.v0 (.of main_v87) main_call7.call0.v1 select,
    TRef.nullary main_call7.cst (constant S_ .f32 0x7F800000#32),
    TRef.unary main_call7.cst main_call7.v3 (broadcastInDim S32x4x4 ![] bcast_S_S32x4x4),
    TRef.binary main_call7.call0.v1 main_call7.v3 main_call7.v4 (cmpf .oeq),
    TRef.unary (.of main_cst_37) main_call7.v5 id,
    TRef.unary main_call7.v5 main_call7.call1.v0 (broadcastInDim S32x4x4 ![] bcast_S_S32x4x4),
    TRef.ternary main_call7.v4 main_call7.call1.v0 main_call7.call0.v1 main_call7.call1.v1 select,
    TRef.nullary main_call7.cst_0 (constant S_ .f32 0xFF800000#32),
    TRef.unary main_call7.cst_0 main_call7.v7 (broadcastInDim S32x4x4 ![] bcast_S_S32x4x4),
    TRef.binary main_call7.call1.v1 main_call7.v7 main_call7.v8 (cmpf .oeq),
    TRef.unary (.of main_cst_36) main_call7.v9 id,
    TRef.unary main_call7.v9 main_call7.call2.v0 (broadcastInDim S32x4x4 ![] bcast_S_S32x4x4),
    TRef.ternary main_call7.v8 main_call7.call2.v0 main_call7.call1.v1 main_call7.call2.v1 select,
    nullary main_cst_38 (constant S_ .f32 0x00000000#32),
    binary main_v88 main_cst_38 main_v89 ((fun x v => Host.reduceAdd x v reducesTo_S32x4x4_S32_d1_2 h_S_) : (⟨S32x4x4, .f32⟩ : BufTy).Contents (Elt F) → (⟨S_, .f32⟩ : BufTy).Contents (Elt F) → (⟨S32, .f32⟩ : BufTy).Contents (Elt F)),
    nullary main_cst_39 (constant S_ .f32 0x41800000#32),
    unary main_cst_39 main_v90 (broadcastInDim S32 ![] bcast_S_S32 : (⟨S_, .f32⟩ : BufTy).Contents (Elt F) → (⟨S32, .f32⟩ : BufTy).Contents (Elt F)),
    binary main_v89 main_v90 main_v91 (Host.divf : (⟨S32, .f32⟩ : BufTy).Contents (Elt F) → (⟨S32, .f32⟩ : BufTy).Contents (Elt F) → (⟨S32, .f32⟩ : BufTy).Contents (Elt F)),
    nullary main_cst_40 (constant S_ .f32 0x00000000#32),
    TRef.binary (.of main_v91) (.of main_v91) main_call8.v0 (cmpf .une),
    TRef.unary (.of main_cst_40) main_call8.v1 id,
    TRef.unary main_call8.v1 main_call8.call0.v0 (broadcastInDim S32 ![] bcast_S_S32),
    TRef.ternary main_call8.v0 main_call8.call0.v0 (.of main_v91) main_call8.call0.v1 select,
    TRef.nullary main_call8.cst (constant S_ .f32 0x7F800000#32),
    TRef.unary main_call8.cst main_call8.v3 (broadcastInDim S32 ![] bcast_S_S32),
    TRef.binary main_call8.call0.v1 main_call8.v3 main_call8.v4 (cmpf .oeq),
    TRef.nullary main_call8.cst_0 (constant S_ .f32 0x7F7FFFFF#32),
    TRef.unary main_call8.cst_0 main_call8.call1.v0 (broadcastInDim S32 ![] bcast_S_S32),
    TRef.ternary main_call8.v4 main_call8.call1.v0 main_call8.call0.v1 main_call8.call1.v1 select,
    TRef.nullary main_call8.cst_1 (constant S_ .f32 0xFF800000#32),
    TRef.unary main_call8.cst_1 main_call8.v6 (broadcastInDim S32 ![] bcast_S_S32),
    TRef.binary main_call8.call1.v1 main_call8.v6 main_call8.v7 (cmpf .oeq),
    TRef.nullary main_call8.cst_2 (constant S_ .f32 0xFF7FFFFF#32),
    TRef.unary main_call8.cst_2 main_call8.call2.v0 (broadcastInDim S32 ![] bcast_S_S32),
    TRef.ternary main_call8.v7 main_call8.call2.v0 main_call8.call1.v1 main_call8.call2.v1 select,
    binary main_v30 main_v61 main_v93 (addf : (⟨S32, .f32⟩ : BufTy).Contents (Elt F) → (⟨S32, .f32⟩ : BufTy).Contents (Elt F) → (⟨S32, .f32⟩ : BufTy).Contents (Elt F)),
    nullary main_cst_41 (constant S_ .f32 0x40000000#32),
    unary main_cst_41 main_v94 (broadcastInDim S32 ![] bcast_S_S32 : (⟨S_, .f32⟩ : BufTy).Contents (Elt F) → (⟨S32, .f32⟩ : BufTy).Contents (Elt F)),
    binary main_v94 main_v92 main_v95 (mulf : (⟨S32, .f32⟩ : BufTy).Contents (Elt F) → (⟨S32, .f32⟩ : BufTy).Contents (Elt F) → (⟨S32, .f32⟩ : BufTy).Contents (Elt F)),
    binary main_v93 main_v95 main_v96 (subf : (⟨S32, .f32⟩ : BufTy).Contents (Elt F) → (⟨S32, .f32⟩ : BufTy).Contents (Elt F) → (⟨S32, .f32⟩ : BufTy).Contents (Elt F)),
    nullary main_cst_42 (constant S_ .f32 0x00000000#32),
    TRef.binary (.of main_v96) (.of main_v96) main_call9.v0 (cmpf .une),
    TRef.unary (.of main_cst_42) main_call9.v1 id,
    TRef.unary main_call9.v1 main_call9.call0.v0 (broadcastInDim S32 ![] bcast_S_S32),
    TRef.ternary main_call9.v0 main_call9.call0.v0 (.of main_v96) main_call9.call0.v1 select,
    TRef.nullary main_call9.cst (constant S_ .f32 0x7F800000#32),
    TRef.unary main_call9.cst main_call9.v3 (broadcastInDim S32 ![] bcast_S_S32),
    TRef.binary main_call9.call0.v1 main_call9.v3 main_call9.v4 (cmpf .oeq),
    TRef.nullary main_call9.cst_0 (constant S_ .f32 0x7F7FFFFF#32),
    TRef.unary main_call9.cst_0 main_call9.call1.v0 (broadcastInDim S32 ![] bcast_S_S32),
    TRef.ternary main_call9.v4 main_call9.call1.v0 main_call9.call0.v1 main_call9.call1.v1 select,
    TRef.nullary main_call9.cst_1 (constant S_ .f32 0xFF800000#32),
    TRef.unary main_call9.cst_1 main_call9.v6 (broadcastInDim S32 ![] bcast_S_S32),
    TRef.binary main_call9.call1.v1 main_call9.v6 main_call9.v7 (cmpf .oeq),
    TRef.nullary main_call9.cst_2 (constant S_ .f32 0xFF7FFFFF#32),
    TRef.unary main_call9.cst_2 main_call9.call2.v0 (broadcastInDim S32 ![] bcast_S_S32),
    TRef.ternary main_call9.v7 main_call9.call2.v0 main_call9.call1.v1 main_call9.call2.v1 select,
    binary main_arg3 main_v97 main_v98 (mulf : (⟨S32, .f32⟩ : BufTy).Contents (Elt F) → (⟨S32, .f32⟩ : BufTy).Contents (Elt F) → (⟨S32, .f32⟩ : BufTy).Contents (Elt F)),
    nullary main_cst_43 (constant S_ .f32 0x00000000#32),
    TRef.binary (.of main_v98) (.of main_v98) main_call10.v0 (cmpf .une),
    TRef.unary (.of main_cst_43) main_call10.v1 id,
    TRef.unary main_call10.v1 main_call10.call0.v0 (broadcastInDim S32 ![] bcast_S_S32),
    TRef.ternary main_call10.v0 main_call10.call0.v0 (.of main_v98) main_call10.call0.v1 select,
    TRef.nullary main_call10.cst (constant S_ .f32 0x7F800000#32),
    TRef.unary main_call10.cst main_call10.v3 (broadcastInDim S32 ![] bcast_S_S32),
    TRef.binary main_call10.call0.v1 main_call10.v3 main_call10.v4 (cmpf .oeq),
    TRef.nullary main_call10.cst_0 (constant S_ .f32 0x7F7FFFFF#32),
    TRef.unary main_call10.cst_0 main_call10.call1.v0 (broadcastInDim S32 ![] bcast_S_S32),
    TRef.ternary main_call10.v4 main_call10.call1.v0 main_call10.call0.v1 main_call10.call1.v1 select,
    TRef.nullary main_call10.cst_1 (constant S_ .f32 0xFF800000#32),
    TRef.unary main_call10.cst_1 main_call10.v6 (broadcastInDim S32 ![] bcast_S_S32),
    TRef.binary main_call10.call1.v1 main_call10.v6 main_call10.v7 (cmpf .oeq),
    TRef.nullary main_call10.cst_2 (constant S_ .f32 0xFF7FFFFF#32),
    TRef.unary main_call10.cst_2 main_call10.call2.v0 (broadcastInDim S32 ![] bcast_S_S32),
    TRef.ternary main_call10.v7 main_call10.call2.v0 main_call10.call1.v1 main_call10.call2.v1 select,
    nullary main_cst_44 (constant S_ .f32 0x00000000#32),
    binary main_v99 main_cst_44 main_v100 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_45 (constant S_ .f32 0x42000000#32),
    binary main_v100 main_cst_45 main_v101 (Host.divf : (⟨S_, .f32⟩ : BufTy).Contents (Elt F) → (⟨S_, .f32⟩ : BufTy).Contents (Elt F) → (⟨S_, .f32⟩ : BufTy).Contents (Elt F)) ]

/-- All of @main's operations, in order. -/
abbrev ops : List (HloOp τ sig (Elt F)) := ops0 ++ (ops1 ++ ops2)

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., nullary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., binary_bufs_sub .., nullary_bufs_sub .., unary_bufs_sub .., binary_bufs_sub .., nullary_bufs_sub .., binary_bufs_sub .., unary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub ..⟩
set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., nullary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., binary_bufs_sub .., nullary_bufs_sub .., unary_bufs_sub .., binary_bufs_sub .., nullary_bufs_sub .., binary_bufs_sub .., unary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub ..⟩
set_option maxRecDepth 8192 in
theorem ops2_sub : (ops2 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., nullary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., binary_bufs_sub .., nullary_bufs_sub .., unary_bufs_sub .., binary_bufs_sub .., nullary_bufs_sub .., binary_bufs_sub .., unary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., nullary_bufs_sub .., unary_bufs_sub .., binary_bufs_sub .., binary_bufs_sub .., nullary_bufs_sub .., binary_bufs_sub .., unary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., nullary_bufs_sub .., binary_bufs_sub .., unary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., binary_bufs_sub .., nullary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

/-- On every device, from any memory with zero counters: every weakly fair execution of @main terminates, and every final
    state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue1.lean ====
/-
  What the reference computes, part 1: the lemmas the later parts use.  The fold of a concatenation is the fold of the second line from the
  fold of the first; the squared norm of a row and the Gram entry of two rows as sums over the 196608 features; the host
  operations of the reference read at an index (a per-row, per-column or per-batch value broadcast over the 4×4 block, the
  sum over the last axis, the batched product of rows, the sum over the two block axes as a sum over the sixteen pairs,
  the sum over the batch); and the source's replacement of NaN and infinities, whose NaN step is the identity on
  extended reals.
-/
import proofs.«134037_j72430328480133_2_alg».proof.Proof.RefOps
import proofs.«134037_j72430328480133_2_alg».proof.Proof.Spec
import proofs.«134037_j72430328480133_2_alg».proof.Proof.LibRank3
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The fold over a concatenation -/

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## The quantities the loss is made of -/

/-- The squared norm of row i of batch element B, as the reference sums it: from the zero it starts at. -/
def nrm (a : S32x4x196608.Idx → EReal) (B : Fin 32) (i : Fin 4) : EReal :=
  Ideal.ofBits .f32 0x00000000#32 + ∑ k : Fin 196608, a (ix3 B i k) * a (ix3 B i k)

/-- The Gram entry of rows i and j of batch element B. -/
def gram (a a' : S32x4x196608.Idx → EReal) (B : Fin 32) (i j : Fin 4) : EReal :=
  ∑ k : Fin 196608, a (ix3 B i k) * a' (ix3 B j k)

/-- One pairwise kernel value before the replacement of infinities. -/
def pre (xn yn xy w : EReal) : EReal :=
  Ideal.exp (min (Ideal.ofBits .f32 0x00000000#32) (max (Ideal.ofBits .f32 0xC9742400#32)
      (-(Ideal.div (Ideal.div (Ideal.sqrt (max (xn + yn - (Ideal.ofBits .f32 0x40000000#32) * xy) (Ideal.ofBits .f32 0x2B8CBCCC#32))) (Ideal.ofBits .f32 0x48400000#32)) (Ideal.ofBits .f32 0x3F800000#32)) * w)))

theorem cell_eq (xn yn xy w : EReal) :
    Cert.Mmd.cell xn yn xy w = Cert.Mmd.clean (Ideal.ofBits .f32 0x00000000#32) (Ideal.ofBits .f32 0x00000000#32) (pre xn yn xy w) := rfl

/-! ## Host operations read at an index -/

section ReadAtIndex

variable {s : Shape} {φ : FTy}

theorem hexp_apply (x : FVec Ideal s φ) (i : s.Idx) : Host.exp x i = Ideal.exp (x i) := rfl
theorem hsqrt_apply (x : FVec Ideal s φ) (i : s.Idx) : Host.sqrt x i = Ideal.sqrt (x i) := rfl
theorem hnegf_apply (x : FVec Ideal s φ) (i : s.Idx) : Host.negf x i = -(x i) := rfl

/-- A per-row value broadcast along the columns. -/
theorem bcast_row {α : Type} (x : S32x4.Idx → α) (B : Fin 32) (p q : Fin 4) :
    broadcastInDim S32x4x4 ![0, 1, 2] bcast_S32x4x1_S32x4x4_0_1_2 (broadcastInDim S32x4x1 ![0, 1] bcast_S32x4_S32x4x1_0_1 x) (ix3 B p q)
      = x (ix2 B p) := by
  rw [broadcastInDim_apply _ _ _ (ix3 B p q) (ix3 B p (0 : Fin 1)) (fun a => by match a with | ⟨0, _⟩ => rfl | ⟨1, _⟩ => rfl | ⟨2, _⟩ => rfl),
    broadcastInDim_apply _ _ _ (ix3 B p (0 : Fin 1)) (ix2 B p) (fun a => by match a with | ⟨0, _⟩ => rfl | ⟨1, _⟩ => rfl)]

/-- A per-column value broadcast along the rows. -/
theorem bcast_col {α : Type} (x : S32x4.Idx → α) (B : Fin 32) (p q : Fin 4) :
    broadcastInDim S32x4x4 ![0, 1, 2] bcast_S32x1x4_S32x4x4_0_1_2 (broadcastInDim S32x1x4 ![0, 2] bcast_S32x4_S32x1x4_0_2 x) (ix3 B p q)
      = x (ix2 B q) := by
  rw [broadcastInDim_apply _ _ _ (ix3 B p q) (ix3 B (0 : Fin 1) q) (fun a => by match a with | ⟨0, _⟩ => rfl | ⟨1, _⟩ => rfl | ⟨2, _⟩ => rfl),
    broadcastInDim_apply _ _ _ (ix3 B (0 : Fin 1) q) (ix2 B q) (fun a => by match a with | ⟨0, _⟩ => rfl | ⟨1, _⟩ => rfl)]

/-- A per-batch value broadcast over the 4×4 block. -/
theorem bcast_batch {α : Type} (x : S32.Idx → α) (B : Fin 32) (p q : Fin 4) :
    broadcastInDim S32x4x4 ![0, 1, 2] bcast_S32x1x1_S32x4x4_0_1_2 (broadcastInDim S32x1x1 ![0] bcast_S32_S32x1x1_0 x) (ix3 B p q)
      = x (ix1 B) := by
  rw [broadcastInDim_apply _ _ _ (ix3 B p q) (ix3 B (0 : Fin 1) (0 : Fin 1)) (fun a => by match a with | ⟨0, _⟩ => rfl | ⟨1, _⟩ => rfl | ⟨2, _⟩ => rfl),
    broadcastInDim_apply _ _ _ (ix3 B (0 : Fin 1) (0 : Fin 1)) (ix1 B) (fun a => by match a with | ⟨0, _⟩ => rfl)]

/-- The sum over the last axis from the zero constant, at (B, i). -/
theorem rowsum_apply (x : FVec Ideal S32x4x196608 .f32) (B : Fin 32) (i : Fin 4) :
    Host.reduceAdd x (constant (F := Ideal) S_ .f32 0x00000000#32) reducesTo_S32x4x196608_S32x4_d2 h_S_ (ix2 B i)
      = Ideal.ofBits .f32 0x00000000#32 + ∑ k : Fin 196608, x (ix3 B i k) := by
  have h : S32x4x196608.Reduces [2] S32x4 := by decide
  rw [hostReduceAdd_apply, Ideal.hostReduceAdd_single _ h]
  refine congrArg₂ (· + ·) rfl (Finset.sum_congr rfl fun k _ => ?_)
  rw [Cert.LibRank3.lift_last h B i k]

/-- The batched product of the rows of two arrays, at (B, i, j): the sum over the last axis of the products. -/
theorem gram_apply (a a' : FVec Ideal S32x4x196608 .f32) (B : Fin 32) (i j : Fin 4) :
    Host.dotGeneral dot_S32x4x196608_S32x4x196608_S32x4x4_2_2_1_1_0_0 none a a' (ix3 B i j) = gram a a' B i j := by
  show FloatOps.dotGeneral _ none _ a a' (ix3 B i j) = _
  rw [Ideal.dotGeneral_apply,
    ← Equiv.sum_comp (contrEquiv1 dot_S32x4x196608_S32x4x196608_S32x4x4_2_2_1_1_0_0 196608 rfl rfl).symm]
  unfold gram
  refine Finset.sum_congr rfl fun c _ => ?_
  have c3 := contrEquiv1_symm_val dot_S32x4x196608_S32x4x196608_S32x4x4_2_2_1_1_0_0 196608 rfl rfl c
  have l3 : dot_S32x4x196608_S32x4x196608_S32x4x4_2_2_1_1_0_0.lhsIdx (ix3 B i j)
      ((contrEquiv1 _ 196608 rfl rfl).symm c) = ix3 B i c := by
    funext ax; apply Fin.ext
    match ax with
    | ⟨0, _⟩ => simp [DotDims.lhsIdx, dot_S32x4x196608_S32x4x196608_S32x4x4_2_2_1_1_0_0]; rfl
    | ⟨1, _⟩ => simp [DotDims.lhsIdx, dot_S32x4x196608_S32x4x196608_S32x4x4_2_2_1_1_0_0]; rfl
    | ⟨2, _⟩ => simp [DotDims.lhsIdx, dot_S32x4x196608_S32x4x196608_S32x4x4_2_2_1_1_0_0]; exact c3
  have r3 : dot_S32x4x196608_S32x4x196608_S32x4x4_2_2_1_1_0_0.rhsIdx (ix3 B i j)
      ((contrEquiv1 _ 196608 rfl rfl).symm c) = ix3 B j c := by
    funext ax; apply Fin.ext
    match ax with
    | ⟨0, _⟩ => simp [DotDims.rhsIdx, dot_S32x4x196608_S32x4x196608_S32x4x4_2_2_1_1_0_0]; rfl
    | ⟨1, _⟩ => simp [DotDims.rhsIdx, dot_S32x4x196608_S32x4x196608_S32x4x4_2_2_1_1_0_0]; rfl
    | ⟨2, _⟩ => simp [DotDims.rhsIdx, dot_S32x4x196608_S32x4x196608_S32x4x4_2_2_1_1_0_0]; exact c3
  rw [l3, r3]

end ReadAtIndex

section Reductions

/-- Dropping the two block axes of a rank-3 index leaves its batch coordinate. -/
theorem drop12 (i : S32x4x4.Idx) : reducesTo_S32x4x4_S32_d1_2.drop i = ix1 (i 0) := by
  funext b; apply Fin.ext
  match b with
  | ⟨0, _⟩ => rfl

/-- The sum over the two block axes from the zero constant, at B: the sum over the sixteen pairs. -/
theorem sum16_apply (x : FVec Ideal S32x4x4 .f32) (B : Fin 32) :
    Host.reduceAdd x (constant (F := Ideal) S_ .f32 0x00000000#32) reducesTo_S32x4x4_S32_d1_2 h_S_ (ix1 B)
      = Ideal.ofBits .f32 0x00000000#32 + ∑ p : Fin 4 × Fin 4, x (ix3 B p.1 p.2) := by
  rw [hostReduceAdd_apply]
  unfold Ideal.hostReduceAdd
  refine congrArg₂ (· + ·) rfl ?_
  symm
  refine Finset.sum_bij (fun p _ => ix3 B p.1 p.2) ?_ ?_ ?_ ?_
  · intro p _
    rw [Finset.mem_filter]
    exact ⟨Finset.mem_univ _, drop12 _⟩
  · intro p _ q _ h
    exact Prod.ext (congrFun h 1) (congrFun h 2)
  · intro i hi
    rw [Finset.mem_filter, drop12] at hi
    have h0 : i 0 = B := congrFun hi.2 0
    refine ⟨(i 1, i 2), Finset.mem_univ _, ?_⟩
    rw [← h0]
    exact (eq_ix3 i).symm
  · intro p _; rfl

/-- A rank-1 index is its coordinate. -/
def idxEquiv1 {n : Nat} : (⟨1, ![n]⟩ : Shape).Idx ≃ Fin n where
  toFun i := i 0
  invFun := ix1
  left_inv i := (eq_ix1 i).symm
  right_inv _ := rfl

/-- The sum over the batch axis from the zero constant. -/
theorem sum32_apply (x : FVec Ideal S32 .f32) (j : S_.Idx) :
    Host.reduceAdd x (constant (F := Ideal) S_ .f32 0x00000000#32) reducesTo_S32_S_d0 h_S_ j
      = Ideal.ofBits .f32 0x00000000#32 + ∑ B : Fin 32, x (ix1 B) := by
  rw [hostReduceAdd_apply, Ideal.hostReduceAdd_total _ (fun b => b.elim0)]
  refine congrArg₂ (· + ·) rfl ?_
  exact (Equiv.sum_comp (idxEquiv1 (n := 32)).symm x).symm

end Reductions

/-! ## The replacement of infinities, with the source's first step written out -/

/-- The source's replacement: first of a NaN (tested as x ≠ x) by z, then of +∞ by p and of -∞ by n. -/
def clean' (z p n x : EReal) : EReal :=
  Cert.Mmd.clean p n (Scalar.select (Ideal.cmp .une x x) z x)

/-- No extended real differs from itself, so the first step does nothing. -/
theorem clean'_eq (z p n x : EReal) : clean' z p n x = Cert.Mmd.clean p n x := by
  unfold clean'; rw [Cert.Mmd.cmp_une_self, Cert.Mmd.select_zero]

/-- A buffer's contents read as an array of extended reals. -/
abbrev rdE {s : Shape} (x : s.Idx → EReal) : s.Idx → EReal := x

end Cert.ReferenceIdeal.RefValue
end
-- ==== Proof.RefValue2.lean ====
/-
  What the reference computes, part: the kernel mean of the first array with itself.  The block's 80 operations are cut into four windows
  (up to the exponential; the replacement of infinities in the sixteen values; their sum and division by 16; the
  replacement of infinities in the mean); each window's result is read at an index from the buffers it starts from, the
  four are chained, and the buffers later blocks read pass through the block unchanged.
-/
import proofs.«134037_j72430328480133_2_alg».proof.Proof.RefValue1

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The kernel mean of block A -/

/-- Up to the exponential. -/
abbrev wA1 {F : FTy → Type} [FloatOps F] : List (HloOp τ sig (Elt F)) :=
  [ binary main_arg0 main_arg0 main_v0 (mulf : (⟨S32x4x196608, .f32⟩ : BufTy).Contents (Elt F) → (⟨S32x4x196608, .f32⟩ : BufTy).Contents (Elt F) → (⟨S32x4x196608, .f32⟩ : BufTy).Contents (Elt F)),
    nullary main_cst (constant S_ .f32 0x00000000#32),
    binary main_v0 main_cst main_v1 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg0 main_arg0 main_v2 (mulf : (⟨S32x4x196608, .f32⟩ : BufTy).Contents (Elt F) → (⟨S32x4x196608, .f32⟩ : BufTy).Contents (Elt F) → (⟨S32x4x196608, .f32⟩ : BufTy).Contents (Elt F)),
    nullary main_cst_0 (constant S_ .f32 0x00000000#32),
    binary main_v2 main_cst_0 main_v3 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg0 main_arg0 main_v4 ((fun l r => Host.dotGeneral dot_S32x4x196608_S32x4x196608_S32x4x4_2_2_1_1_0_0 none l r) : (⟨S32x4x196608, .f32⟩ : BufTy).Contents (Elt F) → (⟨S32x4x196608, .f32⟩ : BufTy).Contents (Elt F) → (⟨S32x4x4, .f32⟩ : BufTy).Contents (Elt F)),
    unary main_v1 main_v5 (broadcastInDim S32x4x1 ![0, 1] bcast_S32x4_S32x4x1_0_1 : (⟨S32x4, .f32⟩ : BufTy).Contents (Elt F) → (⟨S32x4x1, .f32⟩ : BufTy).Contents (Elt F)),
    unary main_v3 main_v6 (broadcastInDim S32x1x4 ![0, 2] bcast_S32x4_S32x1x4_0_2 : (⟨S32x4, .f32⟩ : BufTy).Contents (Elt F) → (⟨S32x1x4, .f32⟩ : BufTy).Contents (Elt F)),
    unary main_v5 main_v7 (broadcastInDim S32x4x4 ![0, 1, 2] bcast_S32x4x1_S32x4x4_0_1_2 : (⟨S32x4x1, .f32⟩ : BufTy).Contents (Elt F) → (⟨S32x4x4, .f32⟩ : BufTy).Contents (Elt F)),
    unary main_v6 main_v8 (broadcastInDim S32x4x4 ![0, 1, 2] bcast_S32x1x4_S32x4x4_0_1_2 : (⟨S32x1x4, .f32⟩ : BufTy).Contents (Elt F) → (⟨S32x4x4, .f32⟩ : BufTy).Contents (Elt F)),
    binary main_v7 main_v8 main_v9 (addf : (⟨S32x4x4, .f32⟩ : BufTy).Contents (Elt F) → (⟨S32x4x4, .f32⟩ : BufTy).Contents (Elt F) → (⟨S32x4x4, .f32⟩ : BufTy).Contents (Elt F)),
    nullary main_cst_1 (constant S_ .f32 0x40000000#32),
    unary main_cst_1 main_v10 (broadcastInDim S32x4x4 ![] bcast_S_S32x4x4 : (⟨S_, .f32⟩ : BufTy).Contents (Elt F) → (⟨S32x4x4, .f32⟩ : BufTy).Contents (Elt F)),
    binary main_v10 main_v4 main_v11 (mulf : (⟨S32x4x4, .f32⟩ : BufTy).Contents (Elt F) → (⟨S32x4x4, .f32⟩ : BufTy).Contents (Elt F) → (⟨S32x4x4, .f32⟩ : BufTy).Contents (Elt F)),
    binary main_v9 main_v11 main_v12 (subf : (⟨S32x4x4, .f32⟩ : BufTy).Contents (Elt F) → (⟨S32x4x4, .f32⟩ : BufTy).Contents (Elt F) → (⟨S32x4x4, .f32⟩ : BufTy).Contents (Elt F)),
    nullary main_cst_2 (constant S_ .f32 0x2B8CBCCC#32),
    unary main_cst_2 main_v13 (broadcastInDim S32x4x4 ![] bcast_S_S32x4x4 : (⟨S_, .f32⟩ : BufTy).Contents (Elt F) → (⟨S32x4x4, .f32⟩ : BufTy).Contents (Elt F)),
    binary main_v12 main_v13 main_v14 (maximumf : (⟨S32x4x4, .f32⟩ : BufTy).Contents (Elt F) → (⟨S32x4x4, .f32⟩ : BufTy).Contents (Elt F) → (⟨S32x4x4, .f32⟩ : BufTy).Contents (Elt F)),
    unary main_v14 main_v15 (Host.sqrt : (⟨S32x4x4, .f32⟩ : BufTy).Contents (Elt F) → (⟨S32x4x4, .f32⟩ : BufTy).Contents (Elt F)),
    nullary main_cst_3 (constant S_ .f32 0x48400000#32),
    unary main_cst_3 main_v16 (broadcastInDim S32x4x4 ![] bcast_S_S32x4x4 : (⟨S_, .f32⟩ : BufTy).Contents (Elt F) → (⟨S32x4x4, .f32⟩ : BufTy).Contents (Elt F)),
    binary main_v15 main_v16 main_v17 (Host.divf : (⟨S32x4x4, .f32⟩ : BufTy).Contents (Elt F) → (⟨S32x4x4, .f32⟩ : BufTy).Contents (Elt F) → (⟨S32x4x4, .f32⟩ : BufTy).Contents (Elt F)),
    nullary main_cst_4 (constant S_ .f32 0x3F800000#32),
    unary main_cst_4 main_v18 (broadcastInDim S32x4x4 ![] bcast_S_S32x4x4 : (⟨S_, .f32⟩ : BufTy).Contents (Elt F) → (⟨S32x4x4, .f32⟩ : BufTy).Contents (Elt F)),
    binary main_v17 main_v18 main_v19 (Host.divf : (⟨S32x4x4, .f32⟩ : BufTy).Contents (Elt F) → (⟨S32x4x4, .f32⟩ : BufTy).Contents (Elt F) → (⟨S32x4x4, .f32⟩ : BufTy).Contents (Elt F)),
    unary main_v19 main_v20 (Host.negf : (⟨S32x4x4, .f32⟩ : BufTy).Contents (Elt F) → (⟨S32x4x4, .f32⟩ : BufTy).Contents (Elt F)),
    unary main_arg2 main_v21 (broadcastInDim S32x1x1 ![0] bcast_S32_S32x1x1_0 : (⟨S32, .f32⟩ : BufTy).Contents (Elt F) → (⟨S32x1x1, .f32⟩ : BufTy).Contents (Elt F)),
    unary main_v21 main_v22 (broadcastInDim S32x4x4 ![0, 1, 2] bcast_S32x1x1_S32x4x4_0_1_2 : (⟨S32x1x1, .f32⟩ : BufTy).Contents (Elt F) → (⟨S32x4x4, .f32⟩ : BufTy).Contents (Elt F)),
    binary main_v20 main_v22 main_v23 (mulf : (⟨S32x4x4, .f32⟩ : BufTy).Contents (Elt F) → (⟨S32x4x4, .f32⟩ : BufTy).Contents (Elt F) → (⟨S32x4x4, .f32⟩ : BufTy).Contents (Elt F)),
    nullary main_cst_5 (constant S_ .f32 0xC9742400#32),
    nullary main_cst_6 (constant S_ .f32 0x00000000#32),
    TRef.unary (.of main_cst_5) main_call0.v0 id,
    TRef.unary main_call0.v0 main_call0.v1 (broadcastInDim S32x4x4 ![] bcast_S_S32x4x4),
    TRef.binary main_call0.v1 (.of main_v23) main_call0.v2 maximumf,
    TRef.unary (.of main_cst_6) main_call0.v3 id,
    TRef.unary main_call0.v3 main_call0.v4 (broadcastInDim S32x4x4 ![] bcast_S_S32x4x4),
    TRef.binary main_call0.v4 main_call0.v2 main_call0.v5 minimumf,
    unary main_v24 main_v25 (Host.exp : (⟨S32x4x4, .f32⟩ : BufTy).Contents (Elt F) → (⟨S32x4x4, .f32⟩ : BufTy).Contents (Elt F)) ]

/-- The replacement of infinities by zero in the sixteen values. -/
abbrev wA2 {F : FTy → Type} [FloatOps F] : List (HloOp τ sig (Elt F)) :=
  [ nullary main_cst_7 (constant S_ .f32 0x00000000#32),
    nullary main_cst_8 (constant S_ .f32 0x00000000#32),
    nullary main_cst_9 (constant S_ .f32 0x00000000#32),
    TRef.binary (.of main_v25) (.of main_v25) main_call1.v0 (cmpf .une),
    TRef.unary (.of main_cst_7) main_call1.v1 id,
    TRef.unary main_call1.v1 main_call1.call0.v0 (broadcastInDim S32x4x4 ![] bcast_S_S32x4x4),
    TRef.ternary main_call1.v0 main_call1.call0.v0 (.of main_v25) main_call1.call0.v1 select,
    TRef.nullary main_call1.cst (constant S_ .f32 0x7F800000#32),
    TRef.unary main_call1.cst main_call1.v3 (broadcastInDim S32x4x4 ![] bcast_S_S32x4x4),
    TRef.binary main_call1.call0.v1 main_call1.v3 main_call1.v4 (cmpf .oeq),
    TRef.unary (.of main_cst_9) main_call1.v5 id,
    TRef.unary main_call1.v5 main_call1.call1.v0 (broadcastInDim S32x4x4 ![] bcast_S_S32x4x4),
    TRef.ternary main_call1.v4 main_call1.call1.v0 main_call1.call0.v1 main_call1.call1.v1 select,
    TRef.nullary main_call1.cst_0 (constant S_ .f32 0xFF800000#32),
    TRef.unary main_call1.cst_0 main_call1.v7 (broadcastInDim S32x4x4 ![] bcast_S_S32x4x4),
    TRef.binary main_call1.call1.v1 main_call1.v7 main_call1.v8 (cmpf .oeq),
    TRef.unary (.of main_cst_8) main_call1.v9 id,
    TRef.unary main_call1.v9 main_call1.call2.v0 (broadcastInDim S32x4x4 ![] bcast_S_S32x4x4),
    TRef.ternary main_call1.v8 main_call1.call2.v0 main_call1.call1.v1 main_call1.call2.v1 select ]

/-- The sum of the sixteen values and its division by 16. -/
abbrev wA3 {F : FTy → Type} [FloatOps F] : List (HloOp τ sig (Elt F)) :=
  [ nullary main_cst_10 (constant S_ .f32 0x00000000#32),
    binary main_v26 main_cst_10 main_v27 ((fun x v => Host.reduceAdd x v reducesTo_S32x4x4_S32_d1_2 h_S_) : (⟨S32x4x4, .f32⟩ : BufTy).Contents (Elt F) → (⟨S_, .f32⟩ : BufTy).Contents (Elt F) → (⟨S32, .f32⟩ : BufTy).Contents (Elt F)),
    nullary main_cst_11 (constant S_ .f32 0x41800000#32),
    unary main_cst_11 main_v28 (broadcastInDim S32 ![] bcast_S_S32 : (⟨S_, .f32⟩ : BufTy).Contents (Elt F) → (⟨S32, .f32⟩ : BufTy).Contents (Elt F)),
    binary main_v27 main_v28 main_v29 (Host.divf : (⟨S32, .f32⟩ : BufTy).Contents (Elt F) → (⟨S32, .f32⟩ : BufTy).Contents (Elt F) → (⟨S32, .f32⟩ : BufTy).Contents (Elt F)) ]

/-- The replacement of infinities by the extreme finite values in the mean. -/
abbrev wA4 {F : FTy → Type} [FloatOps F] : List (HloOp τ sig (Elt F)) :=
  [ nullary main_cst_12 (constant S_ .f32 0x00000000#32),
    TRef.binary (.of main_v29) (.of main_v29) main_call2.v0 (cmpf .une),
    TRef.unary (.of main_cst_12) main_call2.v1 id,
    TRef.unary main_call2.v1 main_call2.call0.v0 (broadcastInDim S32 ![] bcast_S_S32),
    TRef.ternary main_call2.v0 main_call2.call0.v0 (.of main_v29) main_call2.call0.v1 select,
    TRef.nullary main_call2.cst (constant S_ .f32 0x7F800000#32),
    TRef.unary main_call2.cst main_call2.v3 (broadcastInDim S32 ![] bcast_S_S32),
    TRef.binary main_call2.call0.v1 main_call2.v3 main_call2.v4 (cmpf .oeq),
    TRef.nullary main_call2.cst_0 (constant S_ .f32 0x7F7FFFFF#32),
    TRef.unary main_call2.cst_0 main_call2.call1.v0 (broadcastInDim S32 ![] bcast_S_S32),
    TRef.ternary main_call2.v4 main_call2.call1.v0 main_call2.call0.v1 main_call2.call1.v1 select,
    TRef.nullary main_call2.cst_1 (constant S_ .f32 0xFF800000#32),
    TRef.unary main_call2.cst_1 main_call2.v6 (broadcastInDim S32 ![] bcast_S_S32),
    TRef.binary main_call2.call1.v1 main_call2.v6 main_call2.v7 (cmpf .oeq),
    TRef.nullary main_call2.cst_2 (constant S_ .f32 0xFF7FFFFF#32),
    TRef.unary main_call2.cst_2 main_call2.call2.v0 (broadcastInDim S32 ![] bcast_S_S32),
    TRef.ternary main_call2.v7 main_call2.call2.v0 main_call2.call1.v1 main_call2.call2.v1 select ]

/-- The block's operations. -/
abbrev KA {F : FTy → Type} [FloatOps F] : List (HloOp τ sig (Elt F)) := wA1 ++ (wA2 ++ (wA3 ++ wA4))

set_option maxRecDepth 8192 in
theorem wA1_val (V : Valuation τ sig (Elt Ideal)) : after (wA1 (F := Ideal)) V (main_v25 : DevRef τ sig)
    = fun i => pre (nrm (V (main_arg0 : DevRef τ sig)) (i 0) (i 1)) (nrm (V (main_arg0 : DevRef τ sig)) (i 0) (i 2))
        (gram (V (main_arg0 : DevRef τ sig)) (V (main_arg0 : DevRef τ sig)) (i 0) (i 1) (i 2)) (V (main_arg2 : DevRef τ sig) (ix1 (i 0))) := by
  after_results_simp
  funext i
  obtain ⟨B, p, q, rfl⟩ : ∃ B p q, i = ix3 B p q := ⟨i 0, i 1, i 2, eq_ix3 i⟩
  show _ = pre (nrm (V (main_arg0 : DevRef τ sig)) B p) (nrm (V (main_arg0 : DevRef τ sig)) B q)
    (gram (V (main_arg0 : DevRef τ sig)) (V (main_arg0 : DevRef τ sig)) B p q) (V (main_arg2 : DevRef τ sig) (ix1 B))
  simp only [TRef.toBuf, TRef.ofBuf, cast_eq, id]
  rw [hexp_apply, minimumf_apply, maximumf_apply, mulf_apply, hnegf_apply, hostDivf_apply, hostDivf_apply, hsqrt_apply,
    maximumf_apply, subf_apply, addf_apply, mulf_apply, bcast_row, bcast_col, bcast_batch, gram_apply, rowsum_apply, rowsum_apply]
  repeat rw [broadcastInDim_scalar_apply]
  rfl

set_option maxRecDepth 8192 in
theorem wA2_val (V : Valuation τ sig (Elt Ideal)) : after (wA2 (F := Ideal)) V (main_v26 : DevRef τ sig)
    = fun i => Cert.Mmd.clean (Ideal.ofBits .f32 0x00000000#32) (Ideal.ofBits .f32 0x00000000#32) (rdE (s := S32x4x4) (V (main_v25 : DevRef τ sig)) i) := by
  after_results_simp
  funext i
  simp only [TRef.toBuf, TRef.ofBuf, cast_eq, id]
  exact clean'_eq (Ideal.ofBits .f32 0x00000000#32) (Ideal.ofBits .f32 0x00000000#32) (Ideal.ofBits .f32 0x00000000#32) (rdE (s := S32x4x4) (V (main_v25 : DevRef τ sig)) i)

set_option maxRecDepth 8192 in
theorem wA3_val (V : Valuation τ sig (Elt Ideal)) : after (wA3 (F := Ideal)) V (main_v29 : DevRef τ sig)
    = fun j => Ideal.div ((Ideal.ofBits .f32 0x00000000#32) + ∑ p : Fin 4 × Fin 4, rdE (s := S32x4x4) (V (main_v26 : DevRef τ sig)) (ix3 (j 0) p.1 p.2)) (Ideal.ofBits .f32 0x41800000#32) := by
  after_results_simp
  funext j
  obtain ⟨B, rfl⟩ : ∃ B, j = ix1 B := ⟨j 0, eq_ix1 j⟩
  rw [hostDivf_apply, sum16_apply, broadcastInDim_scalar_apply]
  rfl

set_option maxRecDepth 8192 in
theorem wA4_val (V : Valuation τ sig (Elt Ideal)) : after (wA4 (F := Ideal)) V (main_v30 : DevRef τ sig)
    = fun j => Cert.Mmd.clean (Ideal.ofBits .f32 0x7F7FFFFF#32) (Ideal.ofBits .f32 0xFF7FFFFF#32) (rdE (s := S32) (V (main_v29 : DevRef τ sig)) j) := by
  after_results_simp
  funext j
  simp only [TRef.toBuf, TRef.ofBuf, cast_eq, id]
  exact clean'_eq (Ideal.ofBits .f32 0x00000000#32) (Ideal.ofBits .f32 0x7F7FFFFF#32) (Ideal.ofBits .f32 0xFF7FFFFF#32) (rdE (s := S32) (V (main_v29 : DevRef τ sig)) j)

/-- What the block leaves as its kernel mean. -/
theorem KA_val (V : Valuation τ sig (Elt Ideal)) : after (KA (F := Ideal)) V (main_v30 : DevRef τ sig)
    = fun j => Cert.Mmd.kmean (nrm (V (main_arg0 : DevRef τ sig)) (j 0)) (nrm (V (main_arg0 : DevRef τ sig)) (j 0)) (gram (V (main_arg0 : DevRef τ sig)) (V (main_arg0 : DevRef τ sig)) (j 0))
        (V (main_arg2 : DevRef τ sig) (ix1 (j 0))) := by
  unfold KA
  rw [after_append, after_append, after_append, wA4_val, wA3_val, wA2_val, wA1_val]
  rfl

set_option maxRecDepth 8192 in
theorem KA_main_arg0 (V : Valuation τ sig (Elt Ideal)) : after (KA (F := Ideal)) V (main_arg0 : DevRef τ sig) = V (main_arg0 : DevRef τ sig) := by
  unfold KA
  simp only [after_append]
  after_results_simp

set_option maxRecDepth 8192 in
theorem KA_main_arg1 (V : Valuation τ sig (Elt Ideal)) : after (KA (F := Ideal)) V (main_arg1 : DevRef τ sig) = V (main_arg1 : DevRef τ sig) := by
  unfold KA
  simp only [after_append]
  after_results_simp

set_option maxRecDepth 8192 in
theorem KA_main_arg2 (V : Valuation τ sig (Elt Ideal)) : after (KA (F := Ideal)) V (main_arg2 : DevRef τ sig) = V (main_arg2 : DevRef τ sig) := by
  unfold KA
  simp only [after_append]
  after_results_simp

set_option maxRecDepth 8192 in
theorem KA_main_arg3 (V : Valuation τ sig (Elt Ideal)) : after (KA (F := Ideal)) V (main_arg3 : DevRef τ sig) = V (main_arg3 : DevRef τ sig) := by
  unfold KA
  simp only [after_append]
  after_results_simp

end Cert.ReferenceIdeal.RefValue
end
-- ==== Proof.RefValue3.lean ====
/-
  What the reference computes, part: the kernel mean of the second array with itself.  The block's 80 operations are cut into four windows
  (up to the exponential; the replacement of infinities in the sixteen values; their sum and division by 16; the
  replacement of infinities in the mean); each window's result is read at an index from the buffers it starts from, the
  four are chained, and the buffers later blocks read pass through the block unchanged.
-/
import proofs.«134037_j72430328480133_2_alg».proof.Proof.RefValue1

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The kernel mean of block B -/

/-- Up to the exponential. -/
abbrev wB1 {F : FTy → Type} [FloatOps F] : List (HloOp τ sig (Elt F)) :=
  [ binary main_arg1 main_arg1 main_v31 (mulf : (⟨S32x4x196608, .f32⟩ : BufTy).Contents (Elt F) → (⟨S32x4x196608, .f32⟩ : BufTy).Contents (Elt F) → (⟨S32x4x196608, .f32⟩ : BufTy).Contents (Elt F)),
    nullary main_cst_13 (constant S_ .f32 0x00000000#32),
    binary main_v31 main_cst_13 main_v32 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg1 main_arg1 main_v33 (mulf : (⟨S32x4x196608, .f32⟩ : BufTy).Contents (Elt F) → (⟨S32x4x196608, .f32⟩ : BufTy).Contents (Elt F) → (⟨S32x4x196608, .f32⟩ : BufTy).Contents (Elt F)),
    nullary main_cst_14 (constant S_ .f32 0x00000000#32),
    binary main_v33 main_cst_14 main_v34 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg1 main_arg1 main_v35 ((fun l r => Host.dotGeneral dot_S32x4x196608_S32x4x196608_S32x4x4_2_2_1_1_0_0 none l r) : (⟨S32x4x196608, .f32⟩ : BufTy).Contents (Elt F) → (⟨S32x4x196608, .f32⟩ : BufTy).Contents (Elt F) → (⟨S32x4x4, .f32⟩ : BufTy).Contents (Elt F)),
    unary main_v32 main_v36 (broadcastInDim S32x4x1 ![0, 1] bcast_S32x4_S32x4x1_0_1 : (⟨S32x4, .f32⟩ : BufTy).Contents (Elt F) → (⟨S32x4x1, .f32⟩ : BufTy).Contents (Elt F)),
    unary main_v34 main_v37 (broadcastInDim S32x1x4 ![0, 2] bcast_S32x4_S32x1x4_0_2 : (⟨S32x4, .f32⟩ : BufTy).Contents (Elt F) → (⟨S32x1x4, .f32⟩ : BufTy).Contents (Elt F)),
    unary main_v36 main_v38 (broadcastInDim S32x4x4 ![0, 1, 2] bcast_S32x4x1_S32x4x4_0_1_2 : (⟨S32x4x1, .f32⟩ : BufTy).Contents (Elt F) → (⟨S32x4x4, .f32⟩ : BufTy).Contents (Elt F)),
    unary main_v37 main_v39 (broadcastInDim S32x4x4 ![0, 1, 2] bcast_S32x1x4_S32x4x4_0_1_2 : (⟨S32x1x4, .f32⟩ : BufTy).Contents (Elt F) → (⟨S32x4x4, .f32⟩ : BufTy).Contents (Elt F)),
    binary main_v38 main_v39 main_v40 (addf : (⟨S32x4x4, .f32⟩ : BufTy).Contents (Elt F) → (⟨S32x4x4, .f32⟩ : BufTy).Contents (Elt F) → (⟨S32x4x4, .f32⟩ : BufTy).Contents (Elt F)),
    nullary main_cst_15 (constant S_ .f32 0x40000000#32),
    unary main_cst_15 main_v41 (broadcastInDim S32x4x4 ![] bcast_S_S32x4x4 : (⟨S_, .f32⟩ : BufTy).Contents (Elt F) → (⟨S32x4x4, .f32⟩ : BufTy).Contents (Elt F)),
    binary main_v41 main_v35 main_v42 (mulf : (⟨S32x4x4, .f32⟩ : BufTy).Contents (Elt F) → (⟨S32x4x4, .f32⟩ : BufTy).Contents (Elt F) → (⟨S32x4x4, .f32⟩ : BufTy).Contents (Elt F)),
    binary main_v40 main_v42 main_v43 (subf : (⟨S32x4x4, .f32⟩ : BufTy).Contents (Elt F) → (⟨S32x4x4, .f32⟩ : BufTy).Contents (Elt F) → (⟨S32x4x4, .f32⟩ : BufTy).Contents (Elt F)),
    nullary main_cst_16 (constant S_ .f32 0x2B8CBCCC#32),
    unary main_cst_16 main_v44 (broadcastInDim S32x4x4 ![] bcast_S_S32x4x4 : (⟨S_, .f32⟩ : BufTy).Contents (Elt F) → (⟨S32x4x4, .f32⟩ : BufTy).Contents (Elt F)),
    binary main_v43 main_v44 main_v45 (maximumf : (⟨S32x4x4, .f32⟩ : BufTy).Contents (Elt F) → (⟨S32x4x4, .f32⟩ : BufTy).Contents (Elt F) → (⟨S32x4x4, .f32⟩ : BufTy).Contents (Elt F)),
    unary main_v45 main_v46 (Host.sqrt : (⟨S32x4x4, .f32⟩ : BufTy).Contents (Elt F) → (⟨S32x4x4, .f32⟩ : BufTy).Contents (Elt F)),
    nullary main_cst_17 (constant S_ .f32 0x48400000#32),
    unary main_cst_17 main_v47 (broadcastInDim S32x4x4 ![] bcast_S_S32x4x4 : (⟨S_, .f32⟩ : BufTy).Contents (Elt F) → (⟨S32x4x4, .f32⟩ : BufTy).Contents (Elt F)),
    binary main_v46 main_v47 main_v48 (Host.divf : (⟨S32x4x4, .f32⟩ : BufTy).Contents (Elt F) → (⟨S32x4x4, .f32⟩ : BufTy).Contents (Elt F) → (⟨S32x4x4, .f32⟩ : BufTy).Contents (Elt F)),
    nullary main_cst_18 (constant S_ .f32 0x3F800000#32),
    unary main_cst_18 main_v49 (broadcastInDim S32x4x4 ![] bcast_S_S32x4x4 : (⟨S_, .f32⟩ : BufTy).Contents (Elt F) → (⟨S32x4x4, .f32⟩ : BufTy).Contents (Elt F)),
    binary main_v48 main_v49 main_v50 (Host.divf : (⟨S32x4x4, .f32⟩ : BufTy).Contents (Elt F) → (⟨S32x4x4, .f32⟩ : BufTy).Contents (Elt F) → (⟨S32x4x4, .f32⟩ : BufTy).Contents (Elt F)),
    unary main_v50 main_v51 (Host.negf : (⟨S32x4x4, .f32⟩ : BufTy).Contents (Elt F) → (⟨S32x4x4, .f32⟩ : BufTy).Contents (Elt F)),
    unary main_arg2 main_v52 (broadcastInDim S32x1x1 ![0] bcast_S32_S32x1x1_0 : (⟨S32, .f32⟩ : BufTy).Contents (Elt F) → (⟨S32x1x1, .f32⟩ : BufTy).Contents (Elt F)),
    unary main_v52 main_v53 (broadcastInDim S32x4x4 ![0, 1, 2] bcast_S32x1x1_S32x4x4_0_1_2 : (⟨S32x1x1, .f32⟩ : BufTy).Contents (Elt F) → (⟨S32x4x4, .f32⟩ : BufTy).Contents (Elt F)),
    binary main_v51 main_v53 main_v54 (mulf : (⟨S32x4x4, .f32⟩ : BufTy).Contents (Elt F) → (⟨S32x4x4, .f32⟩ : BufTy).Contents (Elt F) → (⟨S32x4x4, .f32⟩ : BufTy).Contents (Elt F)),
    nullary main_cst_19 (constant S_ .f32 0xC9742400#32),
    nullary main_cst_20 (constant S_ .f32 0x00000000#32),
    TRef.unary (.of main_cst_19) main_call3.v0 id,
    TRef.unary main_call3.v0 main_call3.v1 (broadcastInDim S32x4x4 ![] bcast_S_S32x4x4),
    TRef.binary main_call3.v1 (.of main_v54) main_call3.v2 maximumf,
    TRef.unary (.of main_cst_20) main_call3.v3 id,
    TRef.unary main_call3.v3 main_call3.v4 (broadcastInDim S32x4x4 ![] bcast_S_S32x4x4),
    TRef.binary main_call3.v4 main_call3.v2 main_call3.v5 minimumf,
    unary main_v55 main_v56 (Host.exp : (⟨S32x4x4, .f32⟩ : BufTy).Contents (Elt F) → (⟨S32x4x4, .f32⟩ : BufTy).Contents (Elt F)) ]

/-- The replacement of infinities by zero in the sixteen values. -/
abbrev wB2 {F : FTy → Type} [FloatOps F] : List (HloOp τ sig (Elt F)) :=
  [ nullary main_cst_21 (constant S_ .f32 0x00000000#32),
    nullary main_cst_22 (constant S_ .f32 0x00000000#32),
    nullary main_cst_23 (constant S_ .f32 0x00000000#32),
    TRef.binary (.of main_v56) (.of main_v56) main_call4.v0 (cmpf .une),
    TRef.unary (.of main_cst_21) main_call4.v1 id,
    TRef.unary main_call4.v1 main_call4.call0.v0 (broadcastInDim S32x4x4 ![] bcast_S_S32x4x4),
    TRef.ternary main_call4.v0 main_call4.call0.v0 (.of main_v56) main_call4.call0.v1 select,
    TRef.nullary main_call4.cst (constant S_ .f32 0x7F800000#32),
    TRef.unary main_call4.cst main_call4.v3 (broadcastInDim S32x4x4 ![] bcast_S_S32x4x4),
    TRef.binary main_call4.call0.v1 main_call4.v3 main_call4.v4 (cmpf .oeq),
    TRef.unary (.of main_cst_23) main_call4.v5 id,
    TRef.unary main_call4.v5 main_call4.call1.v0 (broadcastInDim S32x4x4 ![] bcast_S_S32x4x4),
    TRef.ternary main_call4.v4 main_call4.call1.v0 main_call4.call0.v1 main_call4.call1.v1 select,
    TRef.nullary main_call4.cst_0 (constant S_ .f32 0xFF800000#32),
    TRef.unary main_call4.cst_0 main_call4.v7 (broadcastInDim S32x4x4 ![] bcast_S_S32x4x4),
    TRef.binary main_call4.call1.v1 main_call4.v7 main_call4.v8 (cmpf .oeq),
    TRef.unary (.of main_cst_22) main_call4.v9 id,
    TRef.unary main_call4.v9 main_call4.call2.v0 (broadcastInDim S32x4x4 ![] bcast_S_S32x4x4),
    TRef.ternary main_call4.v8 main_call4.call2.v0 main_call4.call1.v1 main_call4.call2.v1 select ]

/-- The sum of the sixteen values and its division by 16. -/
abbrev wB3 {F : FTy → Type} [FloatOps F] : List (HloOp τ sig (Elt F)) :=
  [ nullary main_cst_24 (constant S_ .f32 0x00000000#32),
    binary main_v57 main_cst_24 main_v58 ((fun x v => Host.reduceAdd x v reducesTo_S32x4x4_S32_d1_2 h_S_) : (⟨S32x4x4, .f32⟩ : BufTy).Contents (Elt F) → (⟨S_, .f32⟩ : BufTy).Contents (Elt F) → (⟨S32, .f32⟩ : BufTy).Contents (Elt F)),
    nullary main_cst_25 (constant S_ .f32 0x41800000#32),
    unary main_cst_25 main_v59 (broadcastInDim S32 ![] bcast_S_S32 : (⟨S_, .f32⟩ : BufTy).Contents (Elt F) → (⟨S32, .f32⟩ : BufTy).Contents (Elt F)),
    binary main_v58 main_v59 main_v60 (Host.divf : (⟨S32, .f32⟩ : BufTy).Contents (Elt F) → (⟨S32, .f32⟩ : BufTy).Contents (Elt F) → (⟨S32, .f32⟩ : BufTy).Contents (Elt F)) ]

/-- The replacement of infinities by the extreme finite values in the mean. -/
abbrev wB4 {F : FTy → Type} [FloatOps F] : List (HloOp τ sig (Elt F)) :=
  [ nullary main_cst_26 (constant S_ .f32 0x00000000#32),
    TRef.binary (.of main_v60) (.of main_v60) main_call5.v0 (cmpf .une),
    TRef.unary (.of main_cst_26) main_call5.v1 id,
    TRef.unary main_call5.v1 main_call5.call0.v0 (broadcastInDim S32 ![] bcast_S_S32),
    TRef.ternary main_call5.v0 main_call5.call0.v0 (.of main_v60) main_call5.call0.v1 select,
    TRef.nullary main_call5.cst (constant S_ .f32 0x7F800000#32),
    TRef.unary main_call5.cst main_call5.v3 (broadcastInDim S32 ![] bcast_S_S32),
    TRef.binary main_call5.call0.v1 main_call5.v3 main_call5.v4 (cmpf .oeq),
    TRef.nullary main_call5.cst_0 (constant S_ .f32 0x7F7FFFFF#32),
    TRef.unary main_call5.cst_0 main_call5.call1.v0 (broadcastInDim S32 ![] bcast_S_S32),
    TRef.ternary main_call5.v4 main_call5.call1.v0 main_call5.call0.v1 main_call5.call1.v1 select,
    TRef.nullary main_call5.cst_1 (constant S_ .f32 0xFF800000#32),
    TRef.unary main_call5.cst_1 main_call5.v6 (broadcastInDim S32 ![] bcast_S_S32),
    TRef.binary main_call5.call1.v1 main_call5.v6 main_call5.v7 (cmpf .oeq),
    TRef.nullary main_call5.cst_2 (constant S_ .f32 0xFF7FFFFF#32),
    TRef.unary main_call5.cst_2 main_call5.call2.v0 (broadcastInDim S32 ![] bcast_S_S32),
    TRef.ternary main_call5.v7 main_call5.call2.v0 main_call5.call1.v1 main_call5.call2.v1 select ]

/-- The block's operations. -/
abbrev KB {F : FTy → Type} [FloatOps F] : List (HloOp τ sig (Elt F)) := wB1 ++ (wB2 ++ (wB3 ++ wB4))

set_option maxRecDepth 8192 in
theorem wB1_val (V : Valuation τ sig (Elt Ideal)) : after (wB1 (F := Ideal)) V (main_v56 : DevRef τ sig)
    = fun i => pre (nrm (V (main_arg1 : DevRef τ sig)) (i 0) (i 1)) (nrm (V (main_arg1 : DevRef τ sig)) (i 0) (i 2))
        (gram (V (main_arg1 : DevRef τ sig)) (V (main_arg1 : DevRef τ sig)) (i 0) (i 1) (i 2)) (V (main_arg2 : DevRef τ sig) (ix1 (i 0))) := by
  after_results_simp
  funext i
  obtain ⟨B, p, q, rfl⟩ : ∃ B p q, i = ix3 B p q := ⟨i 0, i 1, i 2, eq_ix3 i⟩
  show _ = pre (nrm (V (main_arg1 : DevRef τ sig)) B p) (nrm (V (main_arg1 : DevRef τ sig)) B q)
    (gram (V (main_arg1 : DevRef τ sig)) (V (main_arg1 : DevRef τ sig)) B p q) (V (main_arg2 : DevRef τ sig) (ix1 B))
  simp only [TRef.toBuf, TRef.ofBuf, cast_eq, id]
  rw [hexp_apply, minimumf_apply, maximumf_apply, mulf_apply, hnegf_apply, hostDivf_apply, hostDivf_apply, hsqrt_apply,
    maximumf_apply, subf_apply, addf_apply, mulf_apply, bcast_row, bcast_col, bcast_batch, gram_apply, rowsum_apply, rowsum_apply]
  repeat rw [broadcastInDim_scalar_apply]
  rfl

set_option maxRecDepth 8192 in
theorem wB2_val (V : Valuation τ sig (Elt Ideal)) : after (wB2 (F := Ideal)) V (main_v57 : DevRef τ sig)
    = fun i => Cert.Mmd.clean (Ideal.ofBits .f32 0x00000000#32) (Ideal.ofBits .f32 0x00000000#32) (rdE (s := S32x4x4) (V (main_v56 : DevRef τ sig)) i) := by
  after_results_simp
  funext i
  simp only [TRef.toBuf, TRef.ofBuf, cast_eq, id]
  exact clean'_eq (Ideal.ofBits .f32 0x00000000#32) (Ideal.ofBits .f32 0x00000000#32) (Ideal.ofBits .f32 0x00000000#32) (rdE (s := S32x4x4) (V (main_v56 : DevRef τ sig)) i)

set_option maxRecDepth 8192 in
theorem wB3_val (V : Valuation τ sig (Elt Ideal)) : after (wB3 (F := Ideal)) V (main_v60 : DevRef τ sig)
    = fun j => Ideal.div ((Ideal.ofBits .f32 0x00000000#32) + ∑ p : Fin 4 × Fin 4, rdE (s := S32x4x4) (V (main_v57 : DevRef τ sig)) (ix3 (j 0) p.1 p.2)) (Ideal.ofBits .f32 0x41800000#32) := by
  after_results_simp
  funext j
  obtain ⟨B, rfl⟩ : ∃ B, j = ix1 B := ⟨j 0, eq_ix1 j⟩
  rw [hostDivf_apply, sum16_apply, broadcastInDim_scalar_apply]
  rfl

set_option maxRecDepth 8192 in
theorem wB4_val (V : Valuation τ sig (Elt Ideal)) : after (wB4 (F := Ideal)) V (main_v61 : DevRef τ sig)
    = fun j => Cert.Mmd.clean (Ideal.ofBits .f32 0x7F7FFFFF#32) (Ideal.ofBits .f32 0xFF7FFFFF#32) (rdE (s := S32) (V (main_v60 : DevRef τ sig)) j) := by
  after_results_simp
  funext j
  simp only [TRef.toBuf, TRef.ofBuf, cast_eq, id]
  exact clean'_eq (Ideal.ofBits .f32 0x00000000#32) (Ideal.ofBits .f32 0x7F7FFFFF#32) (Ideal.ofBits .f32 0xFF7FFFFF#32) (rdE (s := S32) (V (main_v60 : DevRef τ sig)) j)

/-- What the block leaves as its kernel mean. -/
theorem KB_val (V : Valuation τ sig (Elt Ideal)) : after (KB (F := Ideal)) V (main_v61 : DevRef τ sig)
    = fun j => Cert.Mmd.kmean (nrm (V (main_arg1 : DevRef τ sig)) (j 0)) (nrm (V (main_arg1 : DevRef τ sig)) (j 0)) (gram (V (main_arg1 : DevRef τ sig)) (V (main_arg1 : DevRef τ sig)) (j 0))
        (V (main_arg2 : DevRef τ sig) (ix1 (j 0))) := by
  unfold KB
  rw [after_append, after_append, after_append, wB4_val, wB3_val, wB2_val, wB1_val]
  rfl

set_option maxRecDepth 8192 in
theorem KB_main_arg0 (V : Valuation τ sig (Elt Ideal)) : after (KB (F := Ideal)) V (main_arg0 : DevRef τ sig) = V (main_arg0 : DevRef τ sig) := by
  unfold KB
  simp only [after_append]
  after_results_simp

set_option maxRecDepth 8192 in
theorem KB_main_arg1 (V : Valuation τ sig (Elt Ideal)) : after (KB (F := Ideal)) V (main_arg1 : DevRef τ sig) = V (main_arg1 : DevRef τ sig) := by
  unfold KB
  simp only [after_append]
  after_results_simp

set_option maxRecDepth 8192 in
theorem KB_main_arg2 (V : Valuation τ sig (Elt Ideal)) : after (KB (F := Ideal)) V (main_arg2 : DevRef τ sig) = V (main_arg2 : DevRef τ sig) := by
  unfold KB
  simp only [after_append]
  after_results_simp

set_option maxRecDepth 8192 in
theorem KB_main_arg3 (V : Valuation τ sig (Elt Ideal)) : after (KB (F := Ideal)) V (main_arg3 : DevRef τ sig) = V (main_arg3 : DevRef τ sig) := by
  unfold KB
  simp only [after_append]
  after_results_simp

set_option maxRecDepth 8192 in
theorem KB_main_v30 (V : Valuation τ sig (Elt Ideal)) : after (KB (F := Ideal)) V (main_v30 : DevRef τ sig) = V (main_v30 : DevRef τ sig) := by
  unfold KB
  simp only [after_append]
  after_results_simp

end Cert.ReferenceIdeal.RefValue
end
-- ==== Proof.RefValue4.lean ====
/-
  What the reference computes, part: the kernel mean of the first array with the second.  The block's 80 operations are cut into four windows
  (up to the exponential; the replacement of infinities in the sixteen values; their sum and division by 16; the
  replacement of infinities in the mean); each window's result is read at an index from the buffers it starts from, the
  four are chained, and the buffers later blocks read pass through the block unchanged.
-/
import proofs.«134037_j72430328480133_2_alg».proof.Proof.RefValue1

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The kernel mean of block C -/

/-- Up to the exponential. -/
abbrev wC1 {F : FTy → Type} [FloatOps F] : List (HloOp τ sig (Elt F)) :=
  [ binary main_arg0 main_arg0 main_v62 (mulf : (⟨S32x4x196608, .f32⟩ : BufTy).Contents (Elt F) → (⟨S32x4x196608, .f32⟩ : BufTy).Contents (Elt F) → (⟨S32x4x196608, .f32⟩ : BufTy).Contents (Elt F)),
    nullary main_cst_27 (constant S_ .f32 0x00000000#32),
    binary main_v62 main_cst_27 main_v63 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg1 main_arg1 main_v64 (mulf : (⟨S32x4x196608, .f32⟩ : BufTy).Contents (Elt F) → (⟨S32x4x196608, .f32⟩ : BufTy).Contents (Elt F) → (⟨S32x4x196608, .f32⟩ : BufTy).Contents (Elt F)),
    nullary main_cst_28 (constant S_ .f32 0x00000000#32),
    binary main_v64 main_cst_28 main_v65 ((fun x v => Host.reduceAdd x v reducesTo_S32x4x196608_S32x4_d2 h_S_) : (⟨S32x4x196608, .f32⟩ : BufTy).Contents (Elt F) → (⟨S_, .f32⟩ : BufTy).Contents (Elt F) → (⟨S32x4, .f32⟩ : BufTy).Contents (Elt F)),
    binary main_arg0 main_arg1 main_v66 ((fun l r => Host.dotGeneral dot_S32x4x196608_S32x4x196608_S32x4x4_2_2_1_1_0_0 none l r) : (⟨S32x4x196608, .f32⟩ : BufTy).Contents (Elt F) → (⟨S32x4x196608, .f32⟩ : BufTy).Contents (Elt F) → (⟨S32x4x4, .f32⟩ : BufTy).Contents (Elt F)),
    unary main_v63 main_v67 (broadcastInDim S32x4x1 ![0, 1] bcast_S32x4_S32x4x1_0_1 : (⟨S32x4, .f32⟩ : BufTy).Contents (Elt F) → (⟨S32x4x1, .f32⟩ : BufTy).Contents (Elt F)),
    unary main_v65 main_v68 (broadcastInDim S32x1x4 ![0, 2] bcast_S32x4_S32x1x4_0_2 : (⟨S32x4, .f32⟩ : BufTy).Contents (Elt F) → (⟨S32x1x4, .f32⟩ : BufTy).Contents (Elt F)),
    unary main_v67 main_v69 (broadcastInDim S32x4x4 ![0, 1, 2] bcast_S32x4x1_S32x4x4_0_1_2 : (⟨S32x4x1, .f32⟩ : BufTy).Contents (Elt F) → (⟨S32x4x4, .f32⟩ : BufTy).Contents (Elt F)),
    unary main_v68 main_v70 (broadcastInDim S32x4x4 ![0, 1, 2] bcast_S32x1x4_S32x4x4_0_1_2 : (⟨S32x1x4, .f32⟩ : BufTy).Contents (Elt F) → (⟨S32x4x4, .f32⟩ : BufTy).Contents (Elt F)),
    binary main_v69 main_v70 main_v71 (addf : (⟨S32x4x4, .f32⟩ : BufTy).Contents (Elt F) → (⟨S32x4x4, .f32⟩ : BufTy).Contents (Elt F) → (⟨S32x4x4, .f32⟩ : BufTy).Contents (Elt F)),
    nullary main_cst_29 (constant S_ .f32 0x40000000#32),
    unary main_cst_29 main_v72 (broadcastInDim S32x4x4 ![] bcast_S_S32x4x4 : (⟨S_, .f32⟩ : BufTy).Contents (Elt F) → (⟨S32x4x4, .f32⟩ : BufTy).Contents (Elt F)),
    binary main_v72 main_v66 main_v73 (mulf : (⟨S32x4x4, .f32⟩ : BufTy).Contents (Elt F) → (⟨S32x4x4, .f32⟩ : BufTy).Contents (Elt F) → (⟨S32x4x4, .f32⟩ : BufTy).Contents (Elt F)),
    binary main_v71 main_v73 main_v74 (subf : (⟨S32x4x4, .f32⟩ : BufTy).Contents (Elt F) → (⟨S32x4x4, .f32⟩ : BufTy).Contents (Elt F) → (⟨S32x4x4, .f32⟩ : BufTy).Contents (Elt F)),
    nullary main_cst_30 (constant S_ .f32 0x2B8CBCCC#32),
    unary main_cst_30 main_v75 (broadcastInDim S32x4x4 ![] bcast_S_S32x4x4 : (⟨S_, .f32⟩ : BufTy).Contents (Elt F) → (⟨S32x4x4, .f32⟩ : BufTy).Contents (Elt F)),
    binary main_v74 main_v75 main_v76 (maximumf : (⟨S32x4x4, .f32⟩ : BufTy).Contents (Elt F) → (⟨S32x4x4, .f32⟩ : BufTy).Contents (Elt F) → (⟨S32x4x4, .f32⟩ : BufTy).Contents (Elt F)),
    unary main_v76 main_v77 (Host.sqrt : (⟨S32x4x4, .f32⟩ : BufTy).Contents (Elt F) → (⟨S32x4x4, .f32⟩ : BufTy).Contents (Elt F)),
    nullary main_cst_31 (constant S_ .f32 0x48400000#32),
    unary main_cst_31 main_v78 (broadcastInDim S32x4x4 ![] bcast_S_S32x4x4 : (⟨S_, .f32⟩ : BufTy).Contents (Elt F) → (⟨S32x4x4, .f32⟩ : BufTy).Contents (Elt F)),
    binary main_v77 main_v78 main_v79 (Host.divf : (⟨S32x4x4, .f32⟩ : BufTy).Contents (Elt F) → (⟨S32x4x4, .f32⟩ : BufTy).Contents (Elt F) → (⟨S32x4x4, .f32⟩ : BufTy).Contents (Elt F)),
    nullary main_cst_32 (constant S_ .f32 0x3F800000#32),
    unary main_cst_32 main_v80 (broadcastInDim S32x4x4 ![] bcast_S_S32x4x4 : (⟨S_, .f32⟩ : BufTy).Contents (Elt F) → (⟨S32x4x4, .f32⟩ : BufTy).Contents (Elt F)),
    binary main_v79 main_v80 main_v81 (Host.divf : (⟨S32x4x4, .f32⟩ : BufTy).Contents (Elt F) → (⟨S32x4x4, .f32⟩ : BufTy).Contents (Elt F) → (⟨S32x4x4, .f32⟩ : BufTy).Contents (Elt F)),
    unary main_v81 main_v82 (Host.negf : (⟨S32x4x4, .f32⟩ : BufTy).Contents (Elt F) → (⟨S32x4x4, .f32⟩ : BufTy).Contents (Elt F)),
    unary main_arg2 main_v83 (broadcastInDim S32x1x1 ![0] bcast_S32_S32x1x1_0 : (⟨S32, .f32⟩ : BufTy).Contents (Elt F) → (⟨S32x1x1, .f32⟩ : BufTy).Contents (Elt F)),
    unary main_v83 main_v84 (broadcastInDim S32x4x4 ![0, 1, 2] bcast_S32x1x1_S32x4x4_0_1_2 : (⟨S32x1x1, .f32⟩ : BufTy).Contents (Elt F) → (⟨S32x4x4, .f32⟩ : BufTy).Contents (Elt F)),
    binary main_v82 main_v84 main_v85 (mulf : (⟨S32x4x4, .f32⟩ : BufTy).Contents (Elt F) → (⟨S32x4x4, .f32⟩ : BufTy).Contents (Elt F) → (⟨S32x4x4, .f32⟩ : BufTy).Contents (Elt F)),
    nullary main_cst_33 (constant S_ .f32 0xC9742400#32),
    nullary main_cst_34 (constant S_ .f32 0x00000000#32),
    TRef.unary (.of main_cst_33) main_call6.v0 id,
    TRef.unary main_call6.v0 main_call6.v1 (broadcastInDim S32x4x4 ![] bcast_S_S32x4x4),
    TRef.binary main_call6.v1 (.of main_v85) main_call6.v2 maximumf,
    TRef.unary (.of main_cst_34) main_call6.v3 id,
    TRef.unary main_call6.v3 main_call6.v4 (broadcastInDim S32x4x4 ![] bcast_S_S32x4x4),
    TRef.binary main_call6.v4 main_call6.v2 main_call6.v5 minimumf,
    unary main_v86 main_v87 (Host.exp : (⟨S32x4x4, .f32⟩ : BufTy).Contents (Elt F) → (⟨S32x4x4, .f32⟩ : BufTy).Contents (Elt F)) ]

/-- The replacement of infinities by zero in the sixteen values. -/
abbrev wC2 {F : FTy → Type} [FloatOps F] : List (HloOp τ sig (Elt F)) :=
  [ nullary main_cst_35 (constant S_ .f32 0x00000000#32),
    nullary main_cst_36 (constant S_ .f32 0x00000000#32),
    nullary main_cst_37 (constant S_ .f32 0x00000000#32),
    TRef.binary (.of main_v87) (.of main_v87) main_call7.v0 (cmpf .une),
    TRef.unary (.of main_cst_35) main_call7.v1 id,
    TRef.unary main_call7.v1 main_call7.call0.v0 (broadcastInDim S32x4x4 ![] bcast_S_S32x4x4),
    TRef.ternary main_call7.v0 main_call7.call0.v0 (.of main_v87) main_call7.call0.v1 select,
    TRef.nullary main_call7.cst (constant S_ .f32 0x7F800000#32),
    TRef.unary main_call7.cst main_call7.v3 (broadcastInDim S32x4x4 ![] bcast_S_S32x4x4),
    TRef.binary main_call7.call0.v1 main_call7.v3 main_call7.v4 (cmpf .oeq),
    TRef.unary (.of main_cst_37) main_call7.v5 id,
    TRef.unary main_call7.v5 main_call7.call1.v0 (broadcastInDim S32x4x4 ![] bcast_S_S32x4x4),
    TRef.ternary main_call7.v4 main_call7.call1.v0 main_call7.call0.v1 main_call7.call1.v1 select,
    TRef.nullary main_call7.cst_0 (constant S_ .f32 0xFF800000#32),
    TRef.unary main_call7.cst_0 main_call7.v7 (broadcastInDim S32x4x4 ![] bcast_S_S32x4x4),
    TRef.binary main_call7.call1.v1 main_call7.v7 main_call7.v8 (cmpf .oeq),
    TRef.unary (.of main_cst_36) main_call7.v9 id,
    TRef.unary main_call7.v9 main_call7.call2.v0 (broadcastInDim S32x4x4 ![] bcast_S_S32x4x4),
    TRef.ternary main_call7.v8 main_call7.call2.v0 main_call7.call1.v1 main_call7.call2.v1 select ]

/-- The sum of the sixteen values and its division by 16. -/
abbrev wC3 {F : FTy → Type} [FloatOps F] : List (HloOp τ sig (Elt F)) :=
  [ nullary main_cst_38 (constant S_ .f32 0x00000000#32),
    binary main_v88 main_cst_38 main_v89 ((fun x v => Host.reduceAdd x v reducesTo_S32x4x4_S32_d1_2 h_S_) : (⟨S32x4x4, .f32⟩ : BufTy).Contents (Elt F) → (⟨S_, .f32⟩ : BufTy).Contents (Elt F) → (⟨S32, .f32⟩ : BufTy).Contents (Elt F)),
    nullary main_cst_39 (constant S_ .f32 0x41800000#32),
    unary main_cst_39 main_v90 (broadcastInDim S32 ![] bcast_S_S32 : (⟨S_, .f32⟩ : BufTy).Contents (Elt F) → (⟨S32, .f32⟩ : BufTy).Contents (Elt F)),
    binary main_v89 main_v90 main_v91 (Host.divf : (⟨S32, .f32⟩ : BufTy).Contents (Elt F) → (⟨S32, .f32⟩ : BufTy).Contents (Elt F) → (⟨S32, .f32⟩ : BufTy).Contents (Elt F)) ]

/-- The replacement of infinities by the extreme finite values in the mean. -/
abbrev wC4 {F : FTy → Type} [FloatOps F] : List (HloOp τ sig (Elt F)) :=
  [ nullary main_cst_40 (constant S_ .f32 0x00000000#32),
    TRef.binary (.of main_v91) (.of main_v91) main_call8.v0 (cmpf .une),
    TRef.unary (.of main_cst_40) main_call8.v1 id,
    TRef.unary main_call8.v1 main_call8.call0.v0 (broadcastInDim S32 ![] bcast_S_S32),
    TRef.ternary main_call8.v0 main_call8.call0.v0 (.of main_v91) main_call8.call0.v1 select,
    TRef.nullary main_call8.cst (constant S_ .f32 0x7F800000#32),
    TRef.unary main_call8.cst main_call8.v3 (broadcastInDim S32 ![] bcast_S_S32),
    TRef.binary main_call8.call0.v1 main_call8.v3 main_call8.v4 (cmpf .oeq),
    TRef.nullary main_call8.cst_0 (constant S_ .f32 0x7F7FFFFF#32),
    TRef.unary main_call8.cst_0 main_call8.call1.v0 (broadcastInDim S32 ![] bcast_S_S32),
    TRef.ternary main_call8.v4 main_call8.call1.v0 main_call8.call0.v1 main_call8.call1.v1 select,
    TRef.nullary main_call8.cst_1 (constant S_ .f32 0xFF800000#32),
    TRef.unary main_call8.cst_1 main_call8.v6 (broadcastInDim S32 ![] bcast_S_S32),
    TRef.binary main_call8.call1.v1 main_call8.v6 main_call8.v7 (cmpf .oeq),
    TRef.nullary main_call8.cst_2 (constant S_ .f32 0xFF7FFFFF#32),
    TRef.unary main_call8.cst_2 main_call8.call2.v0 (broadcastInDim S32 ![] bcast_S_S32),
    TRef.ternary main_call8.v7 main_call8.call2.v0 main_call8.call1.v1 main_call8.call2.v1 select ]

/-- The block's operations. -/
abbrev KC {F : FTy → Type} [FloatOps F] : List (HloOp τ sig (Elt F)) := wC1 ++ (wC2 ++ (wC3 ++ wC4))

set_option maxRecDepth 8192 in
theorem wC1_val (V : Valuation τ sig (Elt Ideal)) : after (wC1 (F := Ideal)) V (main_v87 : DevRef τ sig)
    = fun i => pre (nrm (V (main_arg0 : DevRef τ sig)) (i 0) (i 1)) (nrm (V (main_arg1 : DevRef τ sig)) (i 0) (i 2))
        (gram (V (main_arg0 : DevRef τ sig)) (V (main_arg1 : DevRef τ sig)) (i 0) (i 1) (i 2)) (V (main_arg2 : DevRef τ sig) (ix1 (i 0))) := by
  after_results_simp
  funext i
  obtain ⟨B, p, q, rfl⟩ : ∃ B p q, i = ix3 B p q := ⟨i 0, i 1, i 2, eq_ix3 i⟩
  show _ = pre (nrm (V (main_arg0 : DevRef τ sig)) B p) (nrm (V (main_arg1 : DevRef τ sig)) B q)
    (gram (V (main_arg0 : DevRef τ sig)) (V (main_arg1 : DevRef τ sig)) B p q) (V (main_arg2 : DevRef τ sig) (ix1 B))
  simp only [TRef.toBuf, TRef.ofBuf, cast_eq, id]
  rw [hexp_apply, minimumf_apply, maximumf_apply, mulf_apply, hnegf_apply, hostDivf_apply, hostDivf_apply, hsqrt_apply,
    maximumf_apply, subf_apply, addf_apply, mulf_apply, bcast_row, bcast_col, bcast_batch, gram_apply, rowsum_apply, rowsum_apply]
  repeat rw [broadcastInDim_scalar_apply]
  rfl

set_option maxRecDepth 8192 in
theorem wC2_val (V : Valuation τ sig (Elt Ideal)) : after (wC2 (F := Ideal)) V (main_v88 : DevRef τ sig)
    = fun i => Cert.Mmd.clean (Ideal.ofBits .f32 0x00000000#32) (Ideal.ofBits .f32 0x00000000#32) (rdE (s := S32x4x4) (V (main_v87 : DevRef τ sig)) i) := by
  after_results_simp
  funext i
  simp only [TRef.toBuf, TRef.ofBuf, cast_eq, id]
  exact clean'_eq (Ideal.ofBits .f32 0x00000000#32) (Ideal.ofBits .f32 0x00000000#32) (Ideal.ofBits .f32 0x00000000#32) (rdE (s := S32x4x4) (V (main_v87 : DevRef τ sig)) i)

set_option maxRecDepth 8192 in
theorem wC3_val (V : Valuation τ sig (Elt Ideal)) : after (wC3 (F := Ideal)) V (main_v91 : DevRef τ sig)
    = fun j => Ideal.div ((Ideal.ofBits .f32 0x00000000#32) + ∑ p : Fin 4 × Fin 4, rdE (s := S32x4x4) (V (main_v88 : DevRef τ sig)) (ix3 (j 0) p.1 p.2)) (Ideal.ofBits .f32 0x41800000#32) := by
  after_results_simp
  funext j
  obtain ⟨B, rfl⟩ : ∃ B, j = ix1 B := ⟨j 0, eq_ix1 j⟩
  rw [hostDivf_apply, sum16_apply, broadcastInDim_scalar_apply]
  rfl

set_option maxRecDepth 8192 in
theorem wC4_val (V : Valuation τ sig (Elt Ideal)) : after (wC4 (F := Ideal)) V (main_v92 : DevRef τ sig)
    = fun j => Cert.Mmd.clean (Ideal.ofBits .f32 0x7F7FFFFF#32) (Ideal.ofBits .f32 0xFF7FFFFF#32) (rdE (s := S32) (V (main_v91 : DevRef τ sig)) j) := by
  after_results_simp
  funext j
  simp only [TRef.toBuf, TRef.ofBuf, cast_eq, id]
  exact clean'_eq (Ideal.ofBits .f32 0x00000000#32) (Ideal.ofBits .f32 0x7F7FFFFF#32) (Ideal.ofBits .f32 0xFF7FFFFF#32) (rdE (s := S32) (V (main_v91 : DevRef τ sig)) j)

/-- What the block leaves as its kernel mean. -/
theorem KC_val (V : Valuation τ sig (Elt Ideal)) : after (KC (F := Ideal)) V (main_v92 : DevRef τ sig)
    = fun j => Cert.Mmd.kmean (nrm (V (main_arg0 : DevRef τ sig)) (j 0)) (nrm (V (main_arg1 : DevRef τ sig)) (j 0)) (gram (V (main_arg0 : DevRef τ sig)) (V (main_arg1 : DevRef τ sig)) (j 0))
        (V (main_arg2 : DevRef τ sig) (ix1 (j 0))) := by
  unfold KC
  rw [after_append, after_append, after_append, wC4_val, wC3_val, wC2_val, wC1_val]
  rfl

set_option maxRecDepth 8192 in
theorem KC_main_arg0 (V : Valuation τ sig (Elt Ideal)) : after (KC (F := Ideal)) V (main_arg0 : DevRef τ sig) = V (main_arg0 : DevRef τ sig) := by
  unfold KC
  simp only [after_append]
  after_results_simp

set_option maxRecDepth 8192 in
theorem KC_main_arg1 (V : Valuation τ sig (Elt Ideal)) : after (KC (F := Ideal)) V (main_arg1 : DevRef τ sig) = V (main_arg1 : DevRef τ sig) := by
  unfold KC
  simp only [after_append]
  after_results_simp

set_option maxRecDepth 8192 in
theorem KC_main_arg2 (V : Valuation τ sig (Elt Ideal)) : after (KC (F := Ideal)) V (main_arg2 : DevRef τ sig) = V (main_arg2 : DevRef τ sig) := by
  unfold KC
  simp only [after_append]
  after_results_simp

set_option maxRecDepth 8192 in
theorem KC_main_arg3 (V : Valuation τ sig (Elt Ideal)) : after (KC (F := Ideal)) V (main_arg3 : DevRef τ sig) = V (main_arg3 : DevRef τ sig) := by
  unfold KC
  simp only [after_append]
  after_results_simp

set_option maxRecDepth 8192 in
theorem KC_main_v30 (V : Valuation τ sig (Elt Ideal)) : after (KC (F := Ideal)) V (main_v30 : DevRef τ sig) = V (main_v30 : DevRef τ sig) := by
  unfold KC
  simp only [after_append]
  after_results_simp

set_option maxRecDepth 8192 in
theorem KC_main_v61 (V : Valuation τ sig (Elt Ideal)) : after (KC (F := Ideal)) V (main_v61 : DevRef τ sig) = V (main_v61 : DevRef τ sig) := by
  unfold KC
  simp only [after_append]
  after_results_simp

end Cert.ReferenceIdeal.RefValue
end
-- ==== Proof.RefValue5.lean ====
/-
  What the reference computes, part: the tail.  The three kernel means are combined as a + b - 2c, passed through the
  replacement of infinities, weighted, passed through it again, summed over the batch and divided by 32.
-/
import proofs.«134037_j72430328480133_2_alg».proof.Proof.RefValue1

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The combination of the three means, the weighting and the mean over the batch -/

/-- The combination of the three means, its replacement of infinities, and the weighting. -/
abbrev wT1 {F : FTy → Type} [FloatOps F] : List (HloOp τ sig (Elt F)) :=
  [ binary main_v30 main_v61 main_v93 (addf : (⟨S32, .f32⟩ : BufTy).Contents (Elt F) → (⟨S32, .f32⟩ : BufTy).Contents (Elt F) → (⟨S32, .f32⟩ : BufTy).Contents (Elt F)),
    nullary main_cst_41 (constant S_ .f32 0x40000000#32),
    unary main_cst_41 main_v94 (broadcastInDim S32 ![] bcast_S_S32 : (⟨S_, .f32⟩ : BufTy).Contents (Elt F) → (⟨S32, .f32⟩ : BufTy).Contents (Elt F)),
    binary main_v94 main_v92 main_v95 (mulf : (⟨S32, .f32⟩ : BufTy).Contents (Elt F) → (⟨S32, .f32⟩ : BufTy).Contents (Elt F) → (⟨S32, .f32⟩ : BufTy).Contents (Elt F)),
    binary main_v93 main_v95 main_v96 (subf : (⟨S32, .f32⟩ : BufTy).Contents (Elt F) → (⟨S32, .f32⟩ : BufTy).Contents (Elt F) → (⟨S32, .f32⟩ : BufTy).Contents (Elt F)),
    nullary main_cst_42 (constant S_ .f32 0x00000000#32),
    TRef.binary (.of main_v96) (.of main_v96) main_call9.v0 (cmpf .une),
    TRef.unary (.of main_cst_42) main_call9.v1 id,
    TRef.unary main_call9.v1 main_call9.call0.v0 (broadcastInDim S32 ![] bcast_S_S32),
    TRef.ternary main_call9.v0 main_call9.call0.v0 (.of main_v96) main_call9.call0.v1 select,
    TRef.nullary main_call9.cst (constant S_ .f32 0x7F800000#32),
    TRef.unary main_call9.cst main_call9.v3 (broadcastInDim S32 ![] bcast_S_S32),
    TRef.binary main_call9.call0.v1 main_call9.v3 main_call9.v4 (cmpf .oeq),
    TRef.nullary main_call9.cst_0 (constant S_ .f32 0x7F7FFFFF#32),
    TRef.unary main_call9.cst_0 main_call9.call1.v0 (broadcastInDim S32 ![] bcast_S_S32),
    TRef.ternary main_call9.v4 main_call9.call1.v0 main_call9.call0.v1 main_call9.call1.v1 select,
    TRef.nullary main_call9.cst_1 (constant S_ .f32 0xFF800000#32),
    TRef.unary main_call9.cst_1 main_call9.v6 (broadcastInDim S32 ![] bcast_S_S32),
    TRef.binary main_call9.call1.v1 main_call9.v6 main_call9.v7 (cmpf .oeq),
    TRef.nullary main_call9.cst_2 (constant S_ .f32 0xFF7FFFFF#32),
    TRef.unary main_call9.cst_2 main_call9.call2.v0 (broadcastInDim S32 ![] bcast_S_S32),
    TRef.ternary main_call9.v7 main_call9.call2.v0 main_call9.call1.v1 main_call9.call2.v1 select,
    binary main_arg3 main_v97 main_v98 (mulf : (⟨S32, .f32⟩ : BufTy).Contents (Elt F) → (⟨S32, .f32⟩ : BufTy).Contents (Elt F) → (⟨S32, .f32⟩ : BufTy).Contents (Elt F)) ]

/-- The replacement of infinities in the weighted losses. -/
abbrev wT2 {F : FTy → Type} [FloatOps F] : List (HloOp τ sig (Elt F)) :=
  [ nullary main_cst_43 (constant S_ .f32 0x00000000#32),
    TRef.binary (.of main_v98) (.of main_v98) main_call10.v0 (cmpf .une),
    TRef.unary (.of main_cst_43) main_call10.v1 id,
    TRef.unary main_call10.v1 main_call10.call0.v0 (broadcastInDim S32 ![] bcast_S_S32),
    TRef.ternary main_call10.v0 main_call10.call0.v0 (.of main_v98) main_call10.call0.v1 select,
    TRef.nullary main_call10.cst (constant S_ .f32 0x7F800000#32),
    TRef.unary main_call10.cst main_call10.v3 (broadcastInDim S32 ![] bcast_S_S32),
    TRef.binary main_call10.call0.v1 main_call10.v3 main_call10.v4 (cmpf .oeq),
    TRef.nullary main_call10.cst_0 (constant S_ .f32 0x7F7FFFFF#32),
    TRef.unary main_call10.cst_0 main_call10.call1.v0 (broadcastInDim S32 ![] bcast_S_S32),
    TRef.ternary main_call10.v4 main_call10.call1.v0 main_call10.call0.v1 main_call10.call1.v1 select,
    TRef.nullary main_call10.cst_1 (constant S_ .f32 0xFF800000#32),
    TRef.unary main_call10.cst_1 main_call10.v6 (broadcastInDim S32 ![] bcast_S_S32),
    TRef.binary main_call10.call1.v1 main_call10.v6 main_call10.v7 (cmpf .oeq),
    TRef.nullary main_call10.cst_2 (constant S_ .f32 0xFF7FFFFF#32),
    TRef.unary main_call10.cst_2 main_call10.call2.v0 (broadcastInDim S32 ![] bcast_S_S32),
    TRef.ternary main_call10.v7 main_call10.call2.v0 main_call10.call1.v1 main_call10.call2.v1 select ]

/-- The sum over the batch and its division by 32. -/
abbrev wT3 {F : FTy → Type} [FloatOps F] : List (HloOp τ sig (Elt F)) :=
  [ nullary main_cst_44 (constant S_ .f32 0x00000000#32),
    binary main_v99 main_cst_44 main_v100 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_45 (constant S_ .f32 0x42000000#32),
    binary main_v100 main_cst_45 main_v101 (Host.divf : (⟨S_, .f32⟩ : BufTy).Contents (Elt F) → (⟨S_, .f32⟩ : BufTy).Contents (Elt F) → (⟨S_, .f32⟩ : BufTy).Contents (Elt F)) ]

/-- The tail's operations. -/
abbrev KT {F : FTy → Type} [FloatOps F] : List (HloOp τ sig (Elt F)) := wT1 ++ (wT2 ++ wT3)

set_option maxRecDepth 8192 in
theorem wT1_val (V : Valuation τ sig (Elt Ideal)) : after (wT1 (F := Ideal)) V (main_v98 : DevRef τ sig)
    = fun j => rdE (s := S32) (V (main_arg3 : DevRef τ sig)) j * Cert.Mmd.clean (Ideal.ofBits .f32 0x7F7FFFFF#32) (Ideal.ofBits .f32 0xFF7FFFFF#32)
        (rdE (s := S32) (V (main_v30 : DevRef τ sig)) j + rdE (s := S32) (V (main_v61 : DevRef τ sig)) j - (Ideal.ofBits .f32 0x40000000#32) * rdE (s := S32) (V (main_v92 : DevRef τ sig)) j) := by
  after_results_simp
  funext j
  simp only [TRef.toBuf, TRef.ofBuf, cast_eq, id]
  rw [mulf_apply]
  refine congrArg (rdE (s := S32) (V (main_arg3 : DevRef τ sig)) j * ·) ?_
  exact clean'_eq (Ideal.ofBits .f32 0x00000000#32) (Ideal.ofBits .f32 0x7F7FFFFF#32) (Ideal.ofBits .f32 0xFF7FFFFF#32) (rdE (s := S32) (V (main_v30 : DevRef τ sig)) j + rdE (s := S32) (V (main_v61 : DevRef τ sig)) j - (Ideal.ofBits .f32 0x40000000#32) * rdE (s := S32) (V (main_v92 : DevRef τ sig)) j)

set_option maxRecDepth 8192 in
theorem wT2_val (V : Valuation τ sig (Elt Ideal)) : after (wT2 (F := Ideal)) V (main_v99 : DevRef τ sig)
    = fun j => Cert.Mmd.clean (Ideal.ofBits .f32 0x7F7FFFFF#32) (Ideal.ofBits .f32 0xFF7FFFFF#32) (rdE (s := S32) (V (main_v98 : DevRef τ sig)) j) := by
  after_results_simp
  funext j
  simp only [TRef.toBuf, TRef.ofBuf, cast_eq, id]
  exact clean'_eq (Ideal.ofBits .f32 0x00000000#32) (Ideal.ofBits .f32 0x7F7FFFFF#32) (Ideal.ofBits .f32 0xFF7FFFFF#32) (rdE (s := S32) (V (main_v98 : DevRef τ sig)) j)

set_option maxRecDepth 8192 in
theorem wT3_val (V : Valuation τ sig (Elt Ideal)) : after (wT3 (F := Ideal)) V (main_v101 : DevRef τ sig)
    = fun _ => Ideal.div ((Ideal.ofBits .f32 0x00000000#32) + ∑ B : Fin 32, rdE (s := S32) (V (main_v99 : DevRef τ sig)) (ix1 B)) (Ideal.ofBits .f32 0x42000000#32) := by
  after_results_simp
  funext j
  rw [hostDivf_apply, sum32_apply]
  rfl

/-- What the tail leaves as the result. -/
theorem KT_val (V : Valuation τ sig (Elt Ideal)) : after (KT (F := Ideal)) V (main_v101 : DevRef τ sig)
    = fun _ => Cert.Mmd.total fun B => Cert.Mmd.clean (Ideal.ofBits .f32 0x7F7FFFFF#32) (Ideal.ofBits .f32 0xFF7FFFFF#32) (rdE (s := S32) (V (main_arg3 : DevRef τ sig)) (ix1 B) * Cert.Mmd.clean (Ideal.ofBits .f32 0x7F7FFFFF#32) (Ideal.ofBits .f32 0xFF7FFFFF#32)
        (rdE (s := S32) (V (main_v30 : DevRef τ sig)) (ix1 B) + rdE (s := S32) (V (main_v61 : DevRef τ sig)) (ix1 B) - (Ideal.ofBits .f32 0x40000000#32) * rdE (s := S32) (V (main_v92 : DevRef τ sig)) (ix1 B))) := by
  unfold KT
  rw [after_append, after_append, wT3_val, wT2_val, wT1_val]
  rfl

set_option maxRecDepth 8192 in
theorem KT_main_arg0 (V : Valuation τ sig (Elt Ideal)) : after (KT (F := Ideal)) V (main_arg0 : DevRef τ sig) = V (main_arg0 : DevRef τ sig) := by
  unfold KT
  simp only [after_append]
  after_results_simp

set_option maxRecDepth 8192 in
theorem KT_main_arg1 (V : Valuation τ sig (Elt Ideal)) : after (KT (F := Ideal)) V (main_arg1 : DevRef τ sig) = V (main_arg1 : DevRef τ sig) := by
  unfold KT
  simp only [after_append]
  after_results_simp

set_option maxRecDepth 8192 in
theorem KT_main_arg2 (V : Valuation τ sig (Elt Ideal)) : after (KT (F := Ideal)) V (main_arg2 : DevRef τ sig) = V (main_arg2 : DevRef τ sig) := by
  unfold KT
  simp only [after_append]
  after_results_simp

set_option maxRecDepth 8192 in
theorem KT_main_arg3 (V : Valuation τ sig (Elt Ideal)) : after (KT (F := Ideal)) V (main_arg3 : DevRef τ sig) = V (main_arg3 : DevRef τ sig) := by
  unfold KT
  simp only [after_append]
  after_results_simp

end Cert.ReferenceIdeal.RefValue
end
-- ==== Proof.RefValue.lean ====
/-
  What the reference computes: the mean over the batch of the per-element losses, each a function of the squared norms
  and Gram entries of the two arrays' rows and of the two weights.  The 284 operations are the three kernel-mean blocks
  and the tail in order; the tail's result is read from the three means, each mean from its block, and the arguments
  pass through every block unchanged.
-/
import proofs.«134037_j72430328480133_2_alg».proof.Proof.RefValue2
import proofs.«134037_j72430328480133_2_alg».proof.Proof.RefValue3
import proofs.«134037_j72430328480133_2_alg».proof.Proof.RefValue4
import proofs.«134037_j72430328480133_2_alg».proof.Proof.RefValue5

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The whole line -/

set_option maxRecDepth 16384 in
/-- The 284 operations are the three kernel-mean blocks and the tail, in order. -/
theorem ops_split : (RefRun.ops : List (HloOp τ sig (Elt Ideal))) = KA ++ (KB ++ (KC ++ KT)) := rfl

/-- What the reference leaves as its result: the mean over the batch of the losses, each from the squared norms and Gram
    entries of the two arrays' rows and the two weights. -/
theorem ref_value (V : Valuation τ sig (Elt Ideal)) :
    after RefRun.ops V (main_v101 : DevRef τ sig) = fun _ => Cert.Mmd.total (fun B => Cert.Mmd.loss (nrm (V (main_arg0 : DevRef τ sig)) B) (nrm (V (main_arg1 : DevRef τ sig)) B)
        (gram (V (main_arg0 : DevRef τ sig)) (V (main_arg0 : DevRef τ sig)) B) (gram (V (main_arg1 : DevRef τ sig)) (V (main_arg1 : DevRef τ sig)) B)
        (gram (V (main_arg0 : DevRef τ sig)) (V (main_arg1 : DevRef τ sig)) B) (V (main_arg2 : DevRef τ sig) (ix1 B)) (V (main_arg3 : DevRef τ sig) (ix1 B))) := by
  rw [ops_split, after_append, after_append, after_append, KT_val]
  rw [KC_main_arg3, KC_main_v30, KC_main_v61, KC_val]
  rw [KB_main_arg3, KB_main_v30, KB_val, KB_main_arg0, KB_main_arg1, KB_main_arg2]
  rw [KA_main_arg3, KA_val, KA_main_arg0, KA_main_arg1, KA_main_arg2]
  rfl

/-- The reference leaves its argument 0 as it was. -/
theorem ref_arg0 (V : Valuation τ sig (Elt Ideal)) : after RefRun.ops V (main_arg0 : DevRef τ sig) = V (main_arg0 : DevRef τ sig) := by
  rw [ops_split, after_append, after_append, after_append, KT_main_arg0, KC_main_arg0, KB_main_arg0, KA_main_arg0]

/-- The reference leaves its argument 1 as it was. -/
theorem ref_arg1 (V : Valuation τ sig (Elt Ideal)) : after RefRun.ops V (main_arg1 : DevRef τ sig) = V (main_arg1 : DevRef τ sig) := by
  rw [ops_split, after_append, after_append, after_append, KT_main_arg1, KC_main_arg1, KB_main_arg1, KA_main_arg1]

/-- The reference leaves its argument 2 as it was. -/
theorem ref_arg2 (V : Valuation τ sig (Elt Ideal)) : after RefRun.ops V (main_arg2 : DevRef τ sig) = V (main_arg2 : DevRef τ sig) := by
  rw [ops_split, after_append, after_append, after_append, KT_main_arg2, KC_main_arg2, KB_main_arg2, KA_main_arg2]

/-- The reference leaves its argument 3 as it was. -/
theorem ref_arg3 (V : Valuation τ sig (Elt Ideal)) : after RefRun.ops V (main_arg3 : DevRef τ sig) = V (main_arg3 : DevRef τ sig) := by
  rw [ops_split, after_append, after_append, after_append, KT_main_arg3, KC_main_arg3, KB_main_arg3, KA_main_arg3]

end Cert.ReferenceIdeal.RefValue
end
-- ==== Proof.LibFlatSum.lean ====
/-
  A sum over a·b·c consecutive naturals is the sum of its a blocks of b rows of c: position (d, s, l) of the blocks is the
  natural (b·d + s)·c + l.  First for two levels by induction on the number of blocks (a·b consecutive naturals are a
  runs of b), then twice.
-/
import Mathlib.Algebra.BigOperators.Fin
import Mathlib.Algebra.BigOperators.Intervals

namespace Cert.LibFlatSum

open scoped BigOperators

variable {M : Type*} [AddCommMonoid M]

/-- The sum over the first a·b naturals is the sum over a runs of b: run d holds d·b, …, d·b + b - 1. -/
theorem sum_blocks_right (h : ℕ → M) (a b : ℕ) :
    ∑ d ∈ Finset.range a, ∑ s ∈ Finset.range b, h (d * b + s) = ∑ k ∈ Finset.range (a * b), h k := by
  induction a with
  | zero => simp
  | succ a ih => rw [Finset.sum_range_succ, ih, Nat.succ_mul, Finset.sum_range_add]

/-- The same with the run's start written b·d. -/
theorem sum_blocks_left (h : ℕ → M) (a b : ℕ) :
    ∑ d ∈ Finset.range a, ∑ s ∈ Finset.range b, h (b * d + s) = ∑ k ∈ Finset.range (a * b), h k :=
  (Finset.sum_congr rfl fun d _ => Finset.sum_congr rfl fun s _ => by rw [Nat.mul_comm]).trans (sum_blocks_right h a b)

/-- The sum over the first a·b·c naturals as the sum over a blocks of b rows of c entries. -/
theorem flat_sum (a b c : ℕ) (g : ℕ → M) :
    ∑ d ∈ Finset.range a, ∑ s : Fin b, ∑ l : Fin c, g ((b * d + s.val) * c + l.val) = ∑ k : Fin (a * b * c), g k.val := by
  have h1 : ∀ d ∈ Finset.range a, ∑ s : Fin b, ∑ l : Fin c, g ((b * d + s.val) * c + l.val)
      = ∑ s ∈ Finset.range b, ∑ l ∈ Finset.range c, g ((b * d + s) * c + l) := by
    intro d _
    simp only [Finset.sum_range]
  rw [Finset.sum_congr rfl h1, sum_blocks_left (fun k => ∑ l ∈ Finset.range c, g (k * c + l)) a b,
    sum_blocks_right g (a * b) c, Finset.sum_range]

/-- At 8 blocks of 192 rows of 128: the 196608 consecutive naturals. -/
theorem flat_sum_196608 (g : ℕ → M) :
    ∑ d ∈ Finset.range 8, ∑ s : Fin 192, ∑ l : Fin 128, g ((192 * d + s.val) * 128 + l.val) = ∑ k : Fin 196608, g k.val :=
  flat_sum 8 192 128 g

end Cert.LibFlatSum
-- ==== Proof.LibSum32.lean ====
/-
  A sum over the indices of an a×1 array is the sum over its rows: the second coordinate has one value.
-/
import Idealize.ShloMosaic.Lib.ValueIdx
import Mathlib.Algebra.BigOperators.Fin

namespace Cert.LibSum32

open Idealize.ShloMosaic Idealize.ShloMosaic.ValueIdx

/-- The sum over the indices of an a×1 array is the sum over the rows of the entry in the one column. -/
theorem sum_col {M : Type*} [AddCommMonoid M] {a : ℕ} (G : (⟨2, ![a, 1]⟩ : Shape).Idx → M) :
    ∑ i, G i = ∑ B : Fin a, G (ix2 B (0 : Fin 1)) := by
  rw [sum_idx2]
  exact Finset.sum_congr rfl fun B _ => Fin.sum_univ_one _

/-- At 32 rows. -/
theorem sum_col_32 {M : Type*} [AddCommMonoid M] (G : (⟨2, ![32, 1]⟩ : Shape).Idx → M) :
    ∑ i : (⟨2, ![32, 1]⟩ : Shape).Idx, G i = ∑ B : Fin 32, G (ix2 B (0 : Fin 1)) := sum_col G

end Cert.LibSum32
-- ==== Proof.LibHostRows.lean ====
/-
  The host's layout operations and row sums read at an entry, for any sizes.

  • Broadcasts: a length-a vector viewed as an a × 1 column reads entry i at (i, u); a rank-0 constant broadcast to any
    shape reads the constant's value everywhere; an a × 1 column stretched to a × b reads (i, 0) at every (i, c); a
    length-b vector viewed as a 1 × b row reads entry c at (0, c); a 1 × b row stretched to a × b reads (0, c) at every
    (i, c); and the two-step broadcasts composed (a vector along the columns of a matrix).
  • A block of columns: the a × b' block of an a × b array at column offset off reads, at (i, j), the array's entry
    (i, j + off).
  • A row sum: the host's sum of an a × b array over its second axis, from an initial value that is zero, is at row r
    the sum over k < b of the entries (r, k).
  • The host's one-operand and two-operand pointwise operations at an index, over the extended reals.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

variable {α : Type}

/-! ## Broadcasts -/

/-- A length-a vector viewed as an a × 1 column reads, at (i, u), entry i. -/
theorem bcast_vec_col_apply {a : ℕ} (h : (⟨1, ![a]⟩ : Shape).BroadcastsInDim ⟨2, ![a, 1]⟩ ![0])
    (x : (⟨1, ![a]⟩ : Shape).Idx → α) (i : Fin a) (u : Fin 1) :
    broadcastInDim (⟨2, ![a, 1]⟩ : Shape) ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A rank-0 array broadcast to any shape reads, everywhere, its one element. -/
theorem bcast_scalar_apply {T : Shape} (h : (⟨0, ![]⟩ : Shape).BroadcastsInDim T ![])
    (x : (⟨0, ![]⟩ : Shape).Idx → α) (j : T.Idx) : broadcastInDim T ![] h x j = x ix0 :=
  broadcastInDim_apply ![] h x j ix0 (fun ax => ax.elim0)

/-- A rank-0 constant broadcast to any shape reads, everywhere, the constant's value. -/
theorem bcast_const_apply {T : Shape} {φ : FTy} (h : (⟨0, ![]⟩ : Shape).BroadcastsInDim T ![]) (w : BitVec φ.bits) (j : T.Idx) :
    broadcastInDim T ![] h (constant (F := Ideal) ⟨0, ![]⟩ φ w) j = Ideal.ofBits φ w :=
  bcast_scalar_apply h _ j

/-- An a × 1 column stretched to a × b reads, at (i, c), the column's entry (i, 0). -/
theorem bcast_col_mat_apply {a b : ℕ} (h : (⟨2, ![a, 1]⟩ : Shape).BroadcastsInDim ⟨2, ![a, b]⟩ ![0, 1])
    (x : (⟨2, ![a, 1]⟩ : Shape).Idx → α) (i : Fin a) (c : Fin b) :
    broadcastInDim (⟨2, ![a, b]⟩ : Shape) ![0, 1] h x (ix2 i c) = x (ix2 i (0 : Fin 1)) := by
  refine broadcastInDim_apply ![0, 1] h x (ix2 i c) (ix2 i (0 : Fin 1)) fun ax => ?_
  match ax with
  | ⟨0, _⟩ =>
    show i.val = if a = 1 then 0 else i.val
    split
    · have := i.isLt; omega
    · rfl
  | ⟨1, _⟩ => rfl

/-- A length-b vector viewed as a 1 × b row reads, at (0, c), entry c. -/
theorem bcast_vec_row_apply {b : ℕ} (h : (⟨1, ![b]⟩ : Shape).BroadcastsInDim ⟨2, ![1, b]⟩ ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 × b row stretched to a × b reads, at (i, c), the row's entry (0, c). -/
theorem bcast_row_mat_apply {a b : ℕ} (h : (⟨2, ![1, b]⟩ : Shape).BroadcastsInDim ⟨2, ![a, b]⟩ ![0, 1])
    (x : (⟨2, ![1, b]⟩ : Shape).Idx → α) (i : Fin a) (c : Fin b) :
    broadcastInDim (⟨2, ![a, b]⟩ : Shape) ![0, 1] h x (ix2 i c) = x (ix2 (0 : Fin 1) c) := by
  refine broadcastInDim_apply ![0, 1] h x (ix2 i c) (ix2 (0 : Fin 1) c) fun ax => ?_
  match ax with
  | ⟨0, _⟩ => rfl
  | ⟨1, _⟩ =>
    show c.val = if b = 1 then 0 else c.val
    split
    · have := c.isLt; omega
    · rfl

/-- A length-b vector laid along the columns of an a × b array (viewed as one row, then stretched) reads, at (i, c),
    entry c. -/
theorem bcast_vec_mat_apply {a b : ℕ} (h₁ : (⟨1, ![b]⟩ : Shape).BroadcastsInDim ⟨2, ![1, b]⟩ ![1])
    (h₂ : (⟨2, ![1, b]⟩ : Shape).BroadcastsInDim ⟨2, ![a, b]⟩ ![0, 1]) (x : (⟨1, ![b]⟩ : Shape).Idx → α) (i : Fin a) (c : Fin b) :
    broadcastInDim (⟨2, ![a, b]⟩ : Shape) ![0, 1] h₂ (broadcastInDim (⟨2, ![1, b]⟩ : Shape) ![1] h₁ x) (ix2 i c) = x (ix1 c) :=
  (bcast_row_mat_apply h₂ _ i c).trans (bcast_vec_row_apply h₁ x 0 c)

/-- A length-a vector laid along the rows of an a × b array (viewed as one column, then stretched) reads, at (i, c),
    entry i. -/
theorem bcast_colvec_mat_apply {a b : ℕ} (h₁ : (⟨1, ![a]⟩ : Shape).BroadcastsInDim ⟨2, ![a, 1]⟩ ![0])
    (h₂ : (⟨2, ![a, 1]⟩ : Shape).BroadcastsInDim ⟨2, ![a, b]⟩ ![0, 1]) (x : (⟨1, ![a]⟩ : Shape).Idx → α) (i : Fin a) (c : Fin b) :
    broadcastInDim (⟨2, ![a, b]⟩ : Shape) ![0, 1] h₂ (broadcastInDim (⟨2, ![a, 1]⟩ : Shape) ![0] h₁ x) (ix2 i c) = x (ix1 i) :=
  (bcast_col_mat_apply h₂ _ i c).trans (bcast_vec_col_apply h₁ x i 0)

/-! ## A block of columns -/

/-- The a × b' block of an a × b array at column offset off reads, at (i, j), the array's entry (i, k) for the column
    k = j + off. -/
theorem slice_cols_apply {a b b' : ℕ} (off : ℕ) (x : (⟨2, ![a, b]⟩ : Shape).Idx → α)
    (h : (⟨2, ![a, b]⟩ : Shape).Slices ![0, off] ⟨2, ![a, b']⟩) (i : Fin a) (j : Fin b') (k : Fin b) (hk : k.val = j.val + off) :
    extractStridedSlice (⟨2, ![a, b']⟩ : Shape) ![0, off] x h (ix2 i j) = x (ix2 i k) := by
  refine extractStridedSlice_apply ![0, off] x h (ix2 i j) (ix2 i k) fun ax => ?_
  match ax with
  | ⟨0, _⟩ => exact (Nat.zero_add i.val).symm
  | ⟨1, _⟩ => exact hk.trans (Nat.add_comm j.val off)

/-! ## A row sum on the host -/

/-- Row r with coordinate k inserted on the summed axis is the entry (r, k). -/
theorem lift_row {a b : ℕ} (h : (⟨2, ![a, b]⟩ : Shape).Reduces [1] ⟨1, ![a]⟩) (r : Fin a) (k : Fin b) :
    h.lift (ix1 r) k = ix2 r k := by
  funext c; apply Fin.ext
  match c with
  | ⟨0, _⟩ => rfl
  | ⟨1, _⟩ => rfl

/-- The host's sum of an a × b array over its second axis, from an initial value that is zero, at row r: the sum over
    k of the entries (r, k). -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (h0 : init (Shape.Idx.first hu) = 0) (r : Fin a) :
    Host.reduceAdd x init h' hu (ix1 r) = ∑ k : Fin b, x (ix2 r k) := by
  show Ideal.hostReduceAdd h' x (init (Shape.Idx.first hu)) (ix1 r) = _
  rw [Ideal.hostReduceAdd_single h' h, h0, zero_add]
  exact Finset.sum_congr rfl fun k _ => congrArg x (lift_row h r k)

/-- The same, from the rank-0 constant of the zero word. -/
theorem hostRowSum_zero_apply {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x (constant (F := Ideal) ⟨0, ![]⟩ .f32 0x00000000#32) h' hu (ix1 r) = ∑ k : Fin b, x (ix2 r k) :=
  hostRowSum_apply x _ h' h hu Ideal.ofBits_zero_f32 r

/-! ## Pointwise host operations at an index -/

section Pointwise
variable {s : Shape} {φ : FTy}

/-- The host's quotient at an index. -/
theorem hostDivf_apply (x y : FVec Ideal s φ) (i : s.Idx) : Host.divf x y i = Ideal.div (x i) (y i) := rfl
/-- The host's square root at an index. -/
theorem hostSqrt_apply (x : FVec Ideal s φ) (i : s.Idx) : Host.sqrt x i = Ideal.sqrt (x i) := rfl
/-- The host's exponential at an index. -/
theorem hostExp_apply (x : FVec Ideal s φ) (i : s.Idx) : Host.exp x i = Ideal.exp (x i) := rfl
/-- The host's hyperbolic tangent at an index. -/
theorem hostTanh_apply (x : FVec Ideal s φ) (i : s.Idx) : Host.tanh x i = Ideal.tanh (x i) := rfl
/-- The host's negation at an index. -/
theorem hostNegf_apply (x : FVec Ideal s φ) (i : s.Idx) : Host.negf x i = -(x i) := rfl

end Pointwise

end Cert.LibHostRows

end
-- ==== Proof.Bridge.lean ====
/-
  The two programs compute one number.

  Kernel side: the block of grid point 8r + d holds, of each re-laid input, batch rows 16r … 16r+15 and positions
  192d … 192d+191 of the third axis, so the Gram sum of the eight blocks of a row of the grid, each taken over its
  192×128 positions, is the Gram sum over all 196608 positions of the argument (a sum over consecutive naturals split
  into blocks); the squared norms the closing computation uses are the diagonal of that Gram matrix, which is the
  reference's separately summed norm (a sum from zero); and the weight columns are the weight vectors.  Hence row B of
  the array the region writes is the common loss of batch row B, and the program's result, the sum from zero of the
  thirty-two rows divided by 32, is the common total.  The reference's result is the same total by its own reading.
-/
import proofs.«134037_j72430328480133_2_alg».proof.Proof.KValue
import proofs.«134037_j72430328480133_2_alg».proof.Proof.RefValue
import proofs.«134037_j72430328480133_2_alg».proof.Proof.LibFlatSum
import proofs.«134037_j72430328480133_2_alg».proof.Proof.LibSum32
import proofs.«134037_j72430328480133_2_alg».proof.Proof.LibHostRows
import Idealize.ShloMosaic.Lib.IdealHost

set_option maxRecDepth 16384

noncomputable section

namespace Cert.Bridge

open Cert.KernelIdeal Cert.KernelIdeal.Gen Cert.KernelIdeal.Gram Cert.KernelIdeal.Accum Cert.KernelIdeal.Epi Cert.KernelIdeal.Blocks Cert.KernelIdeal.KValue
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The two 32×4×196608 arguments, by window number. -/
def argA (c : Dev nD) (w : Fin 2) : S32x4x196608.Idx → EReal :=
  match w with
  | ⟨0, _⟩ => m ((c : Thread nD τ).loc main_arg0)
  | ⟨1, _⟩ => m ((c : Thread nD τ).loc main_arg1)

/-- Entry (b, i, s, l) of the block of input w at grid point k, in the argument. -/
theorem blkA_read (c : Dev nD) (w : Fin 2) (k : ℕ) (hk : k < 16) (b : Fin 16) (i : Fin 4) (s : Fin 192) (l : Fin 128)
    (B : Fin 32) (K : Fin 196608) (hB : B.val = 16 * (k / 8) + b.val) (hK : K.val = (192 * (k % 8) + s.val) * 128 + l.val) :
    blk m c w k (ix4 b i s l) = argA m c w (ix3 B i K) := by
  have hkN : k < cfg0.N := by rw [Accum.N16]; exact hk
  have hR : 192 * (k % 8) + s.val < 1536 := by omega
  have hcast : ∀ (x : S32x4x196608.Idx → EReal),
      shapeCast S32x4x1536x128 x shapeCasts_S32x4x196608_S32x4x1536x128 (ix4 B i (⟨192 * (k % 8) + s.val, hR⟩ : Fin 1536) l) = x (ix3 B i K) := fun x =>
    shapeCast_apply x _ _ _ (by
      rw [Shape.rowMajor_val_three, Shape.rowMajor_val_four]
      show (B.val * 4 + i.val) * 196608 + K.val = ((B.val * 4 + i.val) * 1536 + (192 * (k % 8) + s.val)) * 128 + l.val
      omega)
  match w with
  | ⟨0, _⟩ =>
    show blk m c 0 k (ix4 b i s l) = _
    rw [show blk m c 0 k = iblk m c 0 ⟨k, hkN⟩ from blk0_eq m c ⟨k, hkN⟩,
      blk0_read m c ⟨k, hkN⟩ b i s l B ⟨192 * (k % 8) + s.val, hR⟩ hB rfl, V_v0]
    exact hcast _
  | ⟨1, _⟩ =>
    show blk m c 1 k (ix4 b i s l) = _
    rw [show blk m c 1 k = iblk m c 1 ⟨k, hkN⟩ from blk1_eq m c ⟨k, hkN⟩,
      blk1_read m c ⟨k, hkN⟩ b i s l B ⟨192 * (k % 8) + s.val, hR⟩ hB rfl, V_v1]
    exact hcast _

/-- The Gram slice accumulated over a row of the grid is the Gram slice of the arguments. -/
theorem gramRow_eq (c : Dev nD) (w w' : Fin 2) (B : Fin 32) (i j : Fin 4) :
    gramRow m c w w' (B.val / 16) (bIdx B) i j = Cert.ReferenceIdeal.RefValue.gram (argA m c w) (argA m c w') B i j := by
  have hB32 : B.val < 32 := B.isLt
  unfold gramRow
  rw [part_eq_sum]
  let g : ℕ → EReal := fun k => if h : k < 196608 then argA m c w (ix3 B i ⟨k, h⟩) * argA m c w' (ix3 B j ⟨k, h⟩) else 0
  have hstep : ∀ e ∈ Finset.range (7 + 1),
      tile (blk m c w (8 * (B.val / 16) + e)) (blk m c w' (8 * (B.val / 16) + e)) (bIdx B) i j
        = ∑ s : Fin 192, ∑ l : Fin 128, g ((192 * e + s.val) * 128 + l.val) := by
    intro e he
    have he' : e < 8 := Finset.mem_range.mp he
    unfold tile
    refine Finset.sum_congr rfl fun s _ => Finset.sum_congr rfl fun l _ => ?_
    have hs := s.isLt
    have hl := l.isLt
    have hk : (192 * e + s.val) * 128 + l.val < 196608 := by omega
    have hb : (bIdx B).val = B.val % 16 := rfl
    show _ = (if h : (192 * e + s.val) * 128 + l.val < 196608 then _ else _)
    rw [dif_pos hk,
      blkA_read m c w (8 * (B.val / 16) + e) (by omega) (bIdx B) i s l B ⟨(192 * e + s.val) * 128 + l.val, hk⟩ (by rw [hb]; omega)
        (by show (192 * e + s.val) * 128 + l.val = (192 * ((8 * (B.val / 16) + e) % 8) + s.val) * 128 + l.val; congr 3; omega),
      blkA_read m c w' (8 * (B.val / 16) + e) (by omega) (bIdx B) j s l B ⟨(192 * e + s.val) * 128 + l.val, hk⟩ (by rw [hb]; omega)
        (by show (192 * e + s.val) * 128 + l.val = (192 * ((8 * (B.val / 16) + e) % 8) + s.val) * 128 + l.val; congr 3; omega)]
  rw [Finset.sum_congr rfl hstep, Cert.LibFlatSum.flat_sum_196608 g]
  unfold Cert.ReferenceIdeal.RefValue.gram
  refine Finset.sum_congr rfl fun k _ => ?_
  show (if h : k.val < 196608 then _ else _) = _
  rw [dif_pos k.isLt]

/-- Row B of the array the region writes is the common loss of batch row B. -/
theorem lossB_eq (c : Dev nD) (B : Fin 32) :
    lossB m c B = Cert.Mmd.loss (Cert.ReferenceIdeal.RefValue.nrm (argA m c 0) B) (Cert.ReferenceIdeal.RefValue.nrm (argA m c 1) B)
      (Cert.ReferenceIdeal.RefValue.gram (argA m c 0) (argA m c 0) B) (Cert.ReferenceIdeal.RefValue.gram (argA m c 1) (argA m c 1) B)
      (Cert.ReferenceIdeal.RefValue.gram (argA m c 0) (argA m c 1) B)
      ((m ((c : Thread nD τ).loc main_arg2) : S32.Idx → EReal) (ix1 B)) ((m ((c : Thread nD τ).loc main_arg3) : S32.Idx → EReal) (ix1 B)) := by
  unfold lossB
  rw [lossK_eq,
    show gramRow m c 0 0 (B.val / 16) (bIdx B) = Cert.ReferenceIdeal.RefValue.gram (argA m c 0) (argA m c 0) B from
      funext fun i => funext fun j => gramRow_eq m c 0 0 B i j,
    show gramRow m c 1 1 (B.val / 16) (bIdx B) = Cert.ReferenceIdeal.RefValue.gram (argA m c 1) (argA m c 1) B from
      funext fun i => funext fun j => gramRow_eq m c 1 1 B i j,
    show gramRow m c 0 1 (B.val / 16) (bIdx B) = Cert.ReferenceIdeal.RefValue.gram (argA m c 0) (argA m c 1) B from
      funext fun i => funext fun j => gramRow_eq m c 0 1 B i j,
    V_v2, V_v3, Cert.LibHostRows.bcast_vec_col_apply, Cert.LibHostRows.bcast_vec_col_apply]
  have hn : ∀ (a : S32x4x196608.Idx → EReal), (fun i => Cert.ReferenceIdeal.RefValue.gram a a B i i) = Cert.ReferenceIdeal.RefValue.nrm a B := fun a => by
    funext i
    unfold Cert.ReferenceIdeal.RefValue.gram Cert.ReferenceIdeal.RefValue.nrm
    rw [Ideal.ofBits_zero_f32, zero_add]
  rw [hn, hn]

/-- The program's result: the common total of the batch rows' losses. -/
theorem tail_total (c : Dev nD) :
    Host.divf (Host.reduceAdd (Gout m c) (constant (F := Ideal) S_ .f32 0x00000000#32) reducesTo_S32x1_S_d0_1 h_S_) (constant (F := Ideal) S_ .f32 0x42000000#32)
      = fun _ => Cert.Mmd.total (fun B => lossB m c B) := by
  funext z
  show Ideal.div (Host.reduceAdd (Gout m c) (constant (F := Ideal) S_ .f32 0x00000000#32) reducesTo_S32x1_S_d0_1 h_S_ z) (Ideal.ofBits .f32 0x42000000#32) = _
  rw [hostReduceAdd_apply, Ideal.hostReduceAdd_total _ (fun b => b.elim0), Cert.LibSum32.sum_col_32]
  rfl

end Cert.Bridge

end
-- ==== Proof.lean ====
/-
  The certificate of the pairwise-kernel loss: a tiled kernel against its plain reference, at the exact extended reals.

  Both programs compute, for each of 32 batch rows, three 4×4 Gram matrices of two 4×196608 inputs (first with itself,
  second with itself, first with second), turn each into sixteen kernel values exp(clamp(−(√max(xn_i + yn_j − 2·xy_ij,
  10⁻¹²)/196608/1)·w)), average them, combine the three averages as wout·(a + b − 2c) with infinities replaced at each
  stage, and average over the batch.  The kernel accumulates the Gram matrices over eight blocks of 192×128 positions per
  batch row and takes the squared norms from their diagonals; the reference sums each norm and each Gram entry over all
  196608 positions at once; the kernel averages sixteen numbers as four averages of four.  On the extended reals a sum
  may be regrouped freely, a nonnegative finite factor distributes over any sum, 0 − x is −x and no number differs from
  itself, so the two results are one number for ALL inputs: the precondition is not used.  The ideal pass rewrote
  nothing, so the idealized kernel is the kernel's own text.  The three frames are the generated frame certificates of
  the two kernel programs and the reference's run with the result dropped.
-/
import proofs.«134037_j72430328480133_2_alg».proof.Defs
import proofs.«134037_j72430328480133_2_alg».proof.Proof.Gen.Kernel
import proofs.«134037_j72430328480133_2_alg».proof.Proof.Gen.Kernel.Skeleton
import proofs.«134037_j72430328480133_2_alg».proof.Proof.Gen.Kernel.Launch
import proofs.«134037_j72430328480133_2_alg».proof.Proof.Gen.Kernel.Points
import proofs.«134037_j72430328480133_2_alg».proof.Proof.Gen.Kernel.Frame
import proofs.«134037_j72430328480133_2_alg».proof.Proof.Gen.KernelIdeal
import proofs.«134037_j72430328480133_2_alg».proof.Proof.Gen.KernelIdeal.Skeleton
import proofs.«134037_j72430328480133_2_alg».proof.Proof.Gen.KernelIdeal.Launch
import proofs.«134037_j72430328480133_2_alg».proof.Proof.Gen.KernelIdeal.Points
import proofs.«134037_j72430328480133_2_alg».proof.Proof.Gen.KernelIdeal.Frame
import proofs.«134037_j72430328480133_2_alg».proof.Proof.Gen.ReferenceIdeal
import proofs.«134037_j72430328480133_2_alg».proof.Proof.Gen.Pre_finite_inputs
import proofs.«134037_j72430328480133_2_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The common result, from the kernel program's argument arrays. -/
def result (m : (ℓ : Loc Cert.KernelIdeal.nD Cert.KernelIdeal.τ Cert.KernelIdeal.sig) → Buf (Elt Ideal) ℓ) (c : Dev Cert.KernelIdeal.nD) :
    Cert.KernelIdeal.S_.Idx → EReal :=
  fun _ => Cert.Mmd.total fun B => Cert.Mmd.loss
    (Cert.ReferenceIdeal.RefValue.nrm (Cert.Bridge.argA m c 0) B) (Cert.ReferenceIdeal.RefValue.nrm (Cert.Bridge.argA m c 1) B)
    (Cert.ReferenceIdeal.RefValue.gram (Cert.Bridge.argA m c 0) (Cert.Bridge.argA m c 0) B)
    (Cert.ReferenceIdeal.RefValue.gram (Cert.Bridge.argA m c 1) (Cert.Bridge.argA m c 1) B)
    (Cert.ReferenceIdeal.RefValue.gram (Cert.Bridge.argA m c 0) (Cert.Bridge.argA m c 1) B)
    ((m ((c : Thread Cert.KernelIdeal.nD Cert.KernelIdeal.τ).loc Cert.KernelIdeal.main_arg2) : Cert.KernelIdeal.S32.Idx → EReal) (ix1 B))
    ((m ((c : Thread Cert.KernelIdeal.nD Cert.KernelIdeal.τ).loc Cert.KernelIdeal.main_arg3) : Cert.KernelIdeal.S32.Idx → EReal) (ix1 B))

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c =>
      ⟨(h c Cert.ReferenceIdeal.main_arg0).trans (Cert.ReferenceIdeal.RefValue.ref_arg0 _),
        (h c Cert.ReferenceIdeal.main_arg1).trans (Cert.ReferenceIdeal.RefValue.ref_arg1 _),
        (h c Cert.ReferenceIdeal.main_arg2).trans (Cert.ReferenceIdeal.RefValue.ref_arg2 _),
        (h c Cert.ReferenceIdeal.main_arg3).trans (Cert.ReferenceIdeal.RefValue.ref_arg3 _)⟩)
      (Cert.ReferenceIdeal.RefRun.run_main (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => result m c, ?_, ?_⟩
  · refine (θ_run Cert.KernelIdeal.defs _ _).mono (fun r h c => ⟨?_, ?_, ?_, ?_, ?_⟩) (Cert.KernelIdeal.Gen.run_main m ρ)
    · refine ((h c).2 Cert.KernelIdeal.main_v6 (Pipeline.mem_restRefs_of Cert.KernelIdeal.main_v6 (by decide) (by decide))).trans ?_
      refine (Cert.KernelIdeal.KValue.tail_v6 m c).trans ((Cert.Bridge.tail_total m c).trans ?_)
      exact funext fun _ => congrArg Cert.Mmd.total (funext fun B => Cert.Bridge.lossB_eq m c B)
    · exact ((h c).2 Cert.KernelIdeal.main_arg0 (Pipeline.mem_restRefs_of Cert.KernelIdeal.main_arg0 (by decide) (by decide))).trans (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans (Cert.KernelIdeal.Gen.W_main_arg3 m (Cert.KernelIdeal.Gen.dats m) c)
  · refine (θ_run Cert.ReferenceIdeal.defs _ _).mono (fun r h c => ⟨?_,
      (h c Cert.ReferenceIdeal.main_arg0).trans (Cert.ReferenceIdeal.RefValue.ref_arg0 _),
      (h c Cert.ReferenceIdeal.main_arg1).trans (Cert.ReferenceIdeal.RefValue.ref_arg1 _),
      (h c Cert.ReferenceIdeal.main_arg2).trans (Cert.ReferenceIdeal.RefValue.ref_arg2 _),
      (h c Cert.ReferenceIdeal.main_arg3).trans (Cert.ReferenceIdeal.RefValue.ref_arg3 _)⟩)
      (Cert.ReferenceIdeal.RefRun.run_main (F := Ideal) m' ρ')
    refine (h c Cert.ReferenceIdeal.main_v101).trans ((Cert.ReferenceIdeal.RefValue.ref_value _).trans ?_)
    obtain ⟨e0, e1, e2, e3⟩ := hagree c
    show (fun _ => Cert.Mmd.total fun B => Cert.Mmd.loss
      (Cert.ReferenceIdeal.RefValue.nrm (m' ((c.tc : Thread Cert.ReferenceIdeal.nD Cert.ReferenceIdeal.τ).loc Cert.ReferenceIdeal.main_arg0)) B)
      (Cert.ReferenceIdeal.RefValue.nrm (m' ((c.tc : Thread Cert.ReferenceIdeal.nD Cert.ReferenceIdeal.τ).loc Cert.ReferenceIdeal.main_arg1)) B)
      (Cert.ReferenceIdeal.RefValue.gram (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg0)) B)
      (Cert.ReferenceIdeal.RefValue.gram (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg1)) B)
      (Cert.ReferenceIdeal.RefValue.gram (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) B)
      (m' ((c.tc : Thread Cert.ReferenceIdeal.nD Cert.ReferenceIdeal.τ).loc Cert.ReferenceIdeal.main_arg2) (ix1 B))
      (m' ((c.tc : Thread Cert.ReferenceIdeal.nD Cert.ReferenceIdeal.τ).loc Cert.ReferenceIdeal.main_arg3) (ix1 B))) = result m c
    rw [e0, e1, e2, e3]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
